-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v115) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S128x2 : Shape := ⟨2, ![128, 2]⟩
abbrev S2 : Shape := ⟨1, ![2]⟩
abbrev S1600000 : Shape := ⟨1, ![1600000]⟩
abbrev S2x1000000 : Shape := ⟨2, ![2, 1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S128x2 .f32) (main_arg10 : FVec F S2 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x2 .f32 := Host.absf main_arg9
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S128x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S128x2 .f32) (main_arg10 : FVec F S2 .f32) (main_arg11 : IVec S1600000 32) (main_arg12 : IVec S1600000 32) (main_arg13 : IVec S1600000 32) (main_arg14 : IVec S1600000 32) (main_arg15 : IVec S2x1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S100000x64 : Shape := ⟨2, ![100000, 64]⟩
abbrev S64x64 : Shape := ⟨2, ![64, 64]⟩
abbrev S64 : Shape := ⟨1, ![64]⟩
abbrev S128x2 : Shape := ⟨2, ![128, 2]⟩
abbrev S2 : Shape := ⟨1, ![2]⟩
abbrev S1600000 : Shape := ⟨1, ![1600000]⟩
abbrev S2x1000000 : Shape := ⟨2, ![2, 1000000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x64 : Shape := ⟨2, ![4000, 64]⟩
abbrev S4000x1 : Shape := ⟨2, ![4000, 1]⟩
abbrev S1600000x64 : Shape := ⟨2, ![1600000, 64]⟩
abbrev S1x64 : Shape := ⟨2, ![1, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S64x2 : Shape := ⟨2, ![64, 2]⟩
abbrev S1x2 : Shape := ⟨2, ![1, 2]⟩
abbrev S1000000x2 : Shape := ⟨2, ![1000000, 2]⟩
abbrev S10000x64 : Shape := ⟨2, ![10000, 64]⟩
abbrev S10000x2 : Shape := ⟨2, ![10000, 2]⟩

abbrev nBuf : Space → Nat
  | .hbm => 177
  | .vmem => 61
  | .smem => 0
  | _ => 0

abbrev hbmTy0_0 (i : Nat) : BufTy := match i % 128 with
  | 0 => ⟨S100000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S128x2, .f32⟩
  | 10 => ⟨S2, .f32⟩
  | 11 => ⟨S1600000, .i32⟩
  | 12 => ⟨S1600000, .i32⟩
  | 13 => ⟨S1600000, .i32⟩
  | 14 => ⟨S1600000, .i32⟩
  | 15 => ⟨S2x1000000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S100000, .f32⟩
  | 44 => ⟨S100000, .f32⟩
  | 45 => ⟨S100000, .f32⟩
  | 46 => ⟨S_, .f32⟩
  | 47 => ⟨S_, .f32⟩
  | 48 => ⟨S100000, .f32⟩
  | 49 => ⟨S100000, .f32⟩
  | 50 => ⟨S_, .f32⟩
  | 51 => ⟨S1600000, .f32⟩
  | 52 => ⟨S_, .f32⟩
  | 53 => ⟨S100000, .f32⟩
  | 54 => ⟨S1600000x1, .i32⟩
  | 55 => ⟨S100000, .f32⟩
  | 56 => ⟨S_, .f32⟩
  | 57 => ⟨S100000, .f32⟩
  | 58 => ⟨S100000, .i1⟩
  | 59 => ⟨S_, .f32⟩
  | 60 => ⟨S100000, .f32⟩
  | 61 => ⟨S100000, .f32⟩
  | 62 => ⟨S100000, .f32⟩
  | 63 => ⟨S_, .f32⟩
  | 64 => ⟨S_, .f32⟩
  | 65 => ⟨S100000, .f32⟩
  | 66 => ⟨S100000, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .i1⟩
  | 76 => ⟨S_, .f32⟩
  | 77 => ⟨S100000, .f32⟩
  | 78 => ⟨S100000, .f32⟩
  | 79 => ⟨S100000, .f32⟩
  | 80 => ⟨S_, .f32⟩
  | 81 => ⟨S_, .f32⟩
  | 82 => ⟨S100000, .f32⟩
  | 83 => ⟨S100000, .f32⟩
  | 84 => ⟨S100000x1, .f32⟩
  | 85 => ⟨S100000x1, .f32⟩
  | 86 => ⟨S100000x1, .f32⟩
  | 87 => ⟨S100000x1, .f32⟩
  | 88 => ⟨S100000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S1x64, .f32⟩
  | 103 => ⟨S100000x64, .f32⟩
  | 104 => ⟨S100000x64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S1x64, .f32⟩
  | 119 => ⟨S100000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x64, .f32⟩

abbrev hbmTy0_1 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S1x64, .f32⟩
  | 6 => ⟨S100000x64, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x64, .f32⟩
  | 16 => ⟨S_, .f32⟩
  | 17 => ⟨S100000x64, .f32⟩
  | 18 => ⟨S1600000x1, .i32⟩
  | 19 => ⟨S100000x64, .f32⟩
  | 20 => ⟨S1x64, .f32⟩
  | 21 => ⟨S100000x64, .f32⟩
  | 22 => ⟨S100000x64, .bf16⟩
  | 23 => ⟨S1x1000000, .i32⟩
  | 24 => ⟨S1000000, .i32⟩
  | 25 => ⟨S1x1000000, .i32⟩
  | 26 => ⟨S1000000, .i32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000x64, .bf16⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x64, .bf16⟩
  | 45 => ⟨S64x2, .f32⟩
  | 46 => ⟨S64x2, .f32⟩
  | 47 => ⟨S1x2, .f32⟩
  | 48 => ⟨S1000000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x1, .f32⟩
  | .local _ .vmem, ⟨9, _⟩ => ⟨S4000x1, .f32⟩
  | .local _ .vmem, ⟨10, _⟩ => ⟨S64x64, .f32⟩
  | .local _ .vmem, ⟨11, _⟩ => ⟨S1x64, .f32⟩
  | .local _ .vmem, ⟨12, _⟩ => ⟨S4000x1, .f32⟩
  | .local _ .vmem, ⟨13, _⟩ => ⟨S4000x1, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x1, .f32⟩
  | .local _ .vmem, ⟨19, _⟩ => ⟨S4000x1, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x1, .f32⟩
  | .local _ .vmem, ⟨25, _⟩ => ⟨S4000x1, .f32⟩
  | .local _ .vmem, ⟨26, _⟩ => ⟨S64x64, .f32⟩
  | .local _ .vmem, ⟨27, _⟩ => ⟨S1x64, .f32⟩
  | .local _ .vmem, ⟨28, _⟩ => ⟨S4000x1, .f32⟩
  | .local _ .vmem, ⟨29, _⟩ => ⟨S4000x1, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x1, .f32⟩
  | .local _ .vmem, ⟨35, _⟩ => ⟨S4000x1, .f32⟩
  | .local _ .vmem, ⟨36, _⟩ => ⟨S64x64, .f32⟩
  | .local _ .vmem, ⟨37, _⟩ => ⟨S1x64, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S4000x64, .f32⟩
  | .local _ .vmem, ⟨42, _⟩ => ⟨S4000x1, .f32⟩
  | .local _ .vmem, ⟨43, _⟩ => ⟨S4000x1, .f32⟩
  | .local _ .vmem, ⟨44, _⟩ => ⟨S64x64, .f32⟩
  | .local _ .vmem, ⟨45, _⟩ => ⟨S1x64, .f32⟩
  | .local _ .vmem, ⟨46, _⟩ => ⟨S4000x64, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | .local _ .vmem, ⟨50, _⟩ => ⟨S4000x64, .bf16⟩
  | .local _ .vmem, ⟨51, _⟩ => ⟨S4000x64, .bf16⟩
  | .local _ .vmem, ⟨52, _⟩ => ⟨S10000x64, .bf16⟩
  | .local _ .vmem, ⟨53, _⟩ => ⟨S10000x64, .bf16⟩
  | .local _ .vmem, ⟨54, _⟩ => ⟨S10000x64, .bf16⟩
  | .local _ .vmem, ⟨55, _⟩ => ⟨S10000x64, .bf16⟩
  | .local _ .vmem, ⟨56, _⟩ => ⟨S64x2, .f32⟩
  | .local _ .vmem, ⟨57, _⟩ => ⟨S64x2, .f32⟩
  | .local _ .vmem, ⟨58, _⟩ => ⟨S1x2, .f32⟩
  | .local _ .vmem, ⟨59, _⟩ => ⟨S10000x2, .f32⟩
  | .local _ .vmem, ⟨60, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v9 : Ref sig .tc := ⟨.hbm, 32, rfl⟩
abbrev main_cst_4 : Ref sig .tc := ⟨.hbm, 33, rfl⟩
abbrev main_v10 : Ref sig .tc := ⟨.hbm, 34, rfl⟩
abbrev main_cst_5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_6 : Ref sig .tc := ⟨.hbm, 39, rfl⟩
abbrev main_v14 : Ref sig .tc := ⟨.hbm, 40, rfl⟩
abbrev main_v15 : Ref sig .tc := ⟨.hbm, 41, rfl⟩
abbrev main_cst_7 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v19 : Ref sig .tc := ⟨.hbm, 49, rfl⟩
abbrev main_cst_9 : Ref sig .tc := ⟨.hbm, 50, rfl⟩
abbrev main_v20 : Ref sig .tc := ⟨.hbm, 51, rfl⟩
abbrev main_cst_10 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_11 : Ref sig .tc := ⟨.hbm, 56, rfl⟩
abbrev main_v24 : Ref sig .tc := ⟨.hbm, 57, rfl⟩
abbrev main_v25 : Ref sig .tc := ⟨.hbm, 58, rfl⟩
abbrev main_cst_12 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_13 : Ref sig .tc := ⟨.hbm, 63, rfl⟩
abbrev main_call2_v0 : Ref sig .tc := ⟨.hbm, 64, rfl⟩
abbrev main_call2_v1 : Ref sig .tc := ⟨.hbm, 65, rfl⟩
abbrev main_v29 : Ref sig .tc := ⟨.hbm, 66, rfl⟩
abbrev main_cst_14 : Ref sig .tc := ⟨.hbm, 67, rfl⟩
abbrev main_v30 : Ref sig .tc := ⟨.hbm, 68, rfl⟩
abbrev main_cst_15 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_16 : Ref sig .tc := ⟨.hbm, 73, rfl⟩
abbrev main_v34 : Ref sig .tc := ⟨.hbm, 74, rfl⟩
abbrev main_v35 : Ref sig .tc := ⟨.hbm, 75, rfl⟩
abbrev main_cst_17 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_18 : Ref sig .tc := ⟨.hbm, 80, rfl⟩
abbrev main_call3_v0 : Ref sig .tc := ⟨.hbm, 81, rfl⟩
abbrev main_call3_v1 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c : Ref sig .tc := ⟨.hbm, 89, rfl⟩
abbrev main_v45 : Ref sig .tc := ⟨.hbm, 90, rfl⟩
abbrev main_v46 : Ref sig .tc := ⟨.hbm, 91, rfl⟩
abbrev main_c_19 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_20 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_21 : Ref sig .tc := ⟨.hbm, 105, rfl⟩
abbrev main_v58 : Ref sig .tc := ⟨.hbm, 106, rfl⟩
abbrev main_v59 : Ref sig .tc := ⟨.hbm, 107, rfl⟩
abbrev main_c_22 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_23 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_c_24 : Ref sig .tc := ⟨.hbm, 120, rfl⟩
abbrev main_v70 : Ref sig .tc := ⟨.hbm, 121, rfl⟩
abbrev main_v71 : Ref sig .tc := ⟨.hbm, 122, rfl⟩
abbrev main_c_25 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_26 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_27 : Ref sig .tc := ⟨.hbm, 135, rfl⟩
abbrev main_v82 : Ref sig .tc := ⟨.hbm, 136, rfl⟩
abbrev main_v83 : Ref sig .tc := ⟨.hbm, 137, rfl⟩
abbrev main_c_28 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_29 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93_0 : Ref sig .tc := ⟨.hbm, 149, rfl⟩
abbrev main_v93_1 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_c_30 : Ref sig .tc := ⟨.hbm, 155, rfl⟩
abbrev main_v98 : Ref sig .tc := ⟨.hbm, 156, rfl⟩
abbrev main_v99 : Ref sig .tc := ⟨.hbm, 157, rfl⟩
abbrev main_c_31 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_c_32 : Ref sig .tc := ⟨.hbm, 164, rfl⟩
abbrev main_v105 : Ref sig .tc := ⟨.hbm, 165, rfl⟩
abbrev main_v106 : Ref sig .tc := ⟨.hbm, 166, rfl⟩
abbrev main_c_33 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg5_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc5_sem5_0 : DmaSem sig := 48
abbrev cc5_sem5_1 : DmaSem sig := 49
abbrev cc5_sem6_0 : DmaSem sig := 50
abbrev cc5_sem6_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem5_1 : DmaSem sig := 60

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S4000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4000x64 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x2 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x64_S4000x64_0_0 : ∀ a, (![0, 0] : Fin 2 → Nat) a + S4000x64.size a ≤ S4000x64.size a
  h_S4000x64 : 0 < S4000x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  packedbf16_S4000x64_S4000x64_0_0 : (Rect.unit (s := S4000x64) ![0, 0] S4000x64.size inb_S4000x64_S4000x64_0_0).PackedRows (EltTy.packing .bf16)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S128x2_S64x2_0_0 : S128x2.Slices ![0, 0] S64x2
  slices_S128x2_S64x2_64_0 : S128x2.Slices ![64, 0] S64x2
  shapeCasts_S2_S1x2 : S2.ShapeCasts S1x2
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  gather_S100000x64_S1000000x1_S1000000x64_1_0_n_n_0_1_164_wf : GatherDims.WF S100000x64 S1000000x1 S1000000x64 [1] [0] [] [0] [] 1 ![1, 64]
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x1.size a ≤ S100000x1.size a
  hwx3_4 : ∀ i : grid3.Coords, EltTy.bits .f32 = 32 ∨ (Rect.block (s := S100000x1) S4000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S100000x64.size a
  hwx3_5 : ∀ i : grid3.Coords, EltTy.bits .f32 = 32 ∨ (Rect.block (s := S100000x64) S4000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S100000x1.size a
  hwx4_1 : ∀ i : grid4.Coords, EltTy.bits .f32 = 32 ∨ (Rect.block (s := S100000x1) S4000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S100000x64.size a
  hwx4_4 : ∀ i : grid4.Coords, EltTy.bits .f32 = 32 ∨ (Rect.block (s := S100000x64) S4000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x64.size a ≤ S100000x64.size a
  hwx5_4 : ∀ i : grid5.Coords, EltTy.bits .f32 = 32 ∨ (Rect.block (s := S100000x64) S4000x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x64.size a ≤ S100000x64.size a
  hwx5_5 : ∀ i : grid5.Coords, EltTy.bits .f32 = 32 ∨ (Rect.block (s := S100000x64) S4000x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x64.size a ≤ S100000x64.size a
  hwx5_6 : ∀ i : grid5.Coords, EltTy.bits .bf16 = 32 ∨ (Rect.block (s := S100000x64) S4000x64.size (cc5_transform_6 i) (hinb5_6 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S1000000x64.size a
  hwx6_0 : ∀ i : grid6.Coords, EltTy.bits .bf16 = 32 ∨ (Rect.block (s := S1000000x64) S10000x64.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S1000000x64.size a
  hwx6_1 : ∀ i : grid6.Coords, EltTy.bits .bf16 = 32 ∨ (Rect.block (s := S1000000x64) S10000x64.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x2.size a ≤ S64x2.size a
  hwx6_2 : ∀ i : grid6.Coords, EltTy.bits .f32 = 32 ∨ (Rect.block (s := S64x2) S64x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x2.size a ≤ S64x2.size a
  hwx6_3 : ∀ i : grid6.Coords, EltTy.bits .f32 = 32 ∨ (Rect.block (s := S64x2) S64x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x2.size a ≤ S1000000x2.size a
  hwx6_5 : ∀ i : grid6.Coords, EltTy.bits .f32 = 32 ∨ (Rect.block (s := S1000000x2) S10000x2.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S4000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v69) S4000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v79) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S4000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v91) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S4000x64.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v93_0) S4000x64.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v93_1) S4000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v104) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v111) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v112) S64x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v113) S64x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v114) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v115) S10000x2.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S128x2 : Shape := ⟨2, ![128, 2]⟩
abbrev S2 : Shape := ⟨1, ![2]⟩
abbrev S1600000 : Shape := ⟨1, ![1600000]⟩
abbrev S2x1000000 : Shape := ⟨2, ![2, 1000000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1000000x128 : Shape := ⟨2, ![1000000, 128]⟩
abbrev S1000000x2 : Shape := ⟨2, ![1000000, 2]⟩
abbrev S1x2 : Shape := ⟨2, ![1, 2]⟩

abbrev nBuf : Space → Nat
  | .hbm => 292
  | .vmem => 0
  | .smem => 0
  | _ => 0

abbrev hbmTy0_0 (i : Nat) : BufTy := match i % 128 with
  | 0 => ⟨S100000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S128x2, .f32⟩
  | 10 => ⟨S2, .f32⟩
  | 11 => ⟨S1600000, .i32⟩
  | 12 => ⟨S1600000, .i32⟩
  | 13 => ⟨S1600000, .i32⟩
  | 14 => ⟨S1600000, .i32⟩
  | 15 => ⟨S2x1000000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S100000, .f32⟩
  | 44 => ⟨S100000, .f32⟩
  | 45 => ⟨S100000, .f32⟩
  | 46 => ⟨S_, .f32⟩
  | 47 => ⟨S_, .f32⟩
  | 48 => ⟨S100000, .f32⟩
  | 49 => ⟨S100000, .f32⟩
  | 50 => ⟨S100000x1, .f32⟩
  | 51 => ⟨S100000x64, .f32⟩
  | 52 => ⟨S100000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S1600000, .f32⟩
  | 78 => ⟨S_, .f32⟩
  | 79 => ⟨S100000, .f32⟩
  | 80 => ⟨S1600000x1, .i32⟩
  | 81 => ⟨S100000, .f32⟩
  | 82 => ⟨S_, .f32⟩
  | 83 => ⟨S100000, .f32⟩
  | 84 => ⟨S100000, .i1⟩
  | 85 => ⟨S_, .f32⟩
  | 86 => ⟨S100000, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .f32⟩
  | 94 => ⟨S1600000, .f32⟩
  | 95 => ⟨S_, .f32⟩
  | 96 => ⟨S100000, .f32⟩
  | 97 => ⟨S1600000x1, .i32⟩
  | 98 => ⟨S100000, .f32⟩
  | 99 => ⟨S_, .f32⟩
  | 100 => ⟨S100000, .f32⟩
  | 101 => ⟨S100000, .i1⟩
  | 102 => ⟨S_, .f32⟩
  | 103 => ⟨S100000, .f32⟩
  | 104 => ⟨S100000, .f32⟩
  | 105 => ⟨S100000, .f32⟩
  | 106 => ⟨S_, .f32⟩
  | 107 => ⟨S_, .f32⟩
  | 108 => ⟨S100000, .f32⟩
  | 109 => ⟨S100000, .f32⟩
  | 110 => ⟨S100000x1, .f32⟩
  | 111 => ⟨S100000x64, .f32⟩
  | 112 => ⟨S100000x64, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S100000x1, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .i1⟩
  | 17 => ⟨S_, .f32⟩
  | 18 => ⟨S100000, .f32⟩
  | 19 => ⟨S100000, .f32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000x1, .f32⟩
  | 59 => ⟨S100000x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .i1⟩
  | 77 => ⟨S_, .f32⟩
  | 78 => ⟨S100000, .f32⟩
  | 79 => ⟨S100000, .f32⟩
  | 80 => ⟨S100000, .f32⟩
  | 81 => ⟨S_, .f32⟩
  | 82 => ⟨S_, .f32⟩
  | 83 => ⟨S100000, .f32⟩
  | 84 => ⟨S100000, .f32⟩
  | 85 => ⟨S_, .f32⟩
  | 86 => ⟨S1600000, .f32⟩
  | 87 => ⟨S_, .f32⟩
  | 88 => ⟨S100000, .f32⟩
  | 89 => ⟨S1600000x1, .i32⟩
  | 90 => ⟨S100000, .f32⟩
  | 91 => ⟨S_, .f32⟩
  | 92 => ⟨S100000, .f32⟩
  | 93 => ⟨S100000, .i1⟩
  | 94 => ⟨S_, .f32⟩
  | 95 => ⟨S100000, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S100000x1, .f32⟩
  | 103 => ⟨S100000x64, .f32⟩
  | 104 => ⟨S100000x64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S100000x1, .f32⟩
  | 119 => ⟨S100000x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy0_2 (i : Nat) : BufTy := match i % 128 with
  | 0 => ⟨S100000x64, .f32⟩
  | 1 => ⟨S1x1000000, .i32⟩
  | 2 => ⟨S1000000, .i32⟩
  | 3 => ⟨S1x1000000, .i32⟩
  | 4 => ⟨S1000000, .i32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x64, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S1000000x128, .f32⟩
  | 24 => ⟨S1000000x2, .f32⟩
  | 25 => ⟨S1x2, .f32⟩
  | 26 => ⟨S1000000x2, .f32⟩
  | 27 => ⟨S1000000x2, .f32⟩
  | 28 => ⟨S1000000x2, .f32⟩
  | 29 => ⟨S1000000x2, .f32⟩
  | 30 => ⟨S_, .f32⟩
  | 31 => ⟨S1000000x2, .f32⟩
  | 32 => ⟨S1000000x2, .f32⟩
  | 33 => ⟨S_, .f32⟩
  | 34 => ⟨S1000000x2, .f32⟩
  | 35 => ⟨S1000000x2, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v9 : Ref sig .tc := ⟨.hbm, 32, rfl⟩
abbrev main_cst_4 : Ref sig .tc := ⟨.hbm, 33, rfl⟩
abbrev main_v10 : Ref sig .tc := ⟨.hbm, 34, rfl⟩
abbrev main_cst_5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_6 : Ref sig .tc := ⟨.hbm, 39, rfl⟩
abbrev main_v14 : Ref sig .tc := ⟨.hbm, 40, rfl⟩
abbrev main_v15 : Ref sig .tc := ⟨.hbm, 41, rfl⟩
abbrev main_cst_7 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c : Ref sig .tc := ⟨.hbm, 53, rfl⟩
abbrev main_v23 : Ref sig .tc := ⟨.hbm, 54, rfl⟩
abbrev main_v24 : Ref sig .tc := ⟨.hbm, 55, rfl⟩
abbrev main_c_9 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_10 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call2_cst : Ref sig .tc := ⟨.hbm, 73, rfl⟩
abbrev main_call2_v0 : Ref sig .tc := ⟨.hbm, 74, rfl⟩
abbrev main_v40 : Ref sig .tc := ⟨.hbm, 75, rfl⟩
abbrev main_cst_11 : Ref sig .tc := ⟨.hbm, 76, rfl⟩
abbrev main_v41 : Ref sig .tc := ⟨.hbm, 77, rfl⟩
abbrev main_cst_12 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_13 : Ref sig .tc := ⟨.hbm, 82, rfl⟩
abbrev main_v45 : Ref sig .tc := ⟨.hbm, 83, rfl⟩
abbrev main_v46 : Ref sig .tc := ⟨.hbm, 84, rfl⟩
abbrev main_cst_14 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_15 : Ref sig .tc := ⟨.hbm, 89, rfl⟩
abbrev main_call3_v0 : Ref sig .tc := ⟨.hbm, 90, rfl⟩
abbrev main_call3_v1 : Ref sig .tc := ⟨.hbm, 91, rfl⟩
abbrev main_v50 : Ref sig .tc := ⟨.hbm, 92, rfl⟩
abbrev main_cst_16 : Ref sig .tc := ⟨.hbm, 93, rfl⟩
abbrev main_v51 : Ref sig .tc := ⟨.hbm, 94, rfl⟩
abbrev main_cst_17 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_18 : Ref sig .tc := ⟨.hbm, 99, rfl⟩
abbrev main_v55 : Ref sig .tc := ⟨.hbm, 100, rfl⟩
abbrev main_v56 : Ref sig .tc := ⟨.hbm, 101, rfl⟩
abbrev main_cst_19 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_20 : Ref sig .tc := ⟨.hbm, 106, rfl⟩
abbrev main_call4_v0 : Ref sig .tc := ⟨.hbm, 107, rfl⟩
abbrev main_call4_v1 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_c_21 : Ref sig .tc := ⟨.hbm, 113, rfl⟩
abbrev main_v64 : Ref sig .tc := ⟨.hbm, 114, rfl⟩
abbrev main_v65 : Ref sig .tc := ⟨.hbm, 115, rfl⟩
abbrev main_c_22 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_23 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_call5_cst : Ref sig .tc := ⟨.hbm, 133, rfl⟩
abbrev main_call5_v0 : Ref sig .tc := ⟨.hbm, 134, rfl⟩
abbrev main_v81 : Ref sig .tc := ⟨.hbm, 135, rfl⟩
abbrev main_cst_24 : Ref sig .tc := ⟨.hbm, 136, rfl⟩
abbrev main_v82 : Ref sig .tc := ⟨.hbm, 137, rfl⟩
abbrev main_cst_25 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_26 : Ref sig .tc := ⟨.hbm, 142, rfl⟩
abbrev main_v86 : Ref sig .tc := ⟨.hbm, 143, rfl⟩
abbrev main_v87 : Ref sig .tc := ⟨.hbm, 144, rfl⟩
abbrev main_cst_27 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_28 : Ref sig .tc := ⟨.hbm, 149, rfl⟩
abbrev main_call6_v0 : Ref sig .tc := ⟨.hbm, 150, rfl⟩
abbrev main_call6_v1 : Ref sig .tc := ⟨.hbm, 151, rfl⟩
abbrev main_v91 : Ref sig .tc := ⟨.hbm, 152, rfl⟩
abbrev main_cst_29 : Ref sig .tc := ⟨.hbm, 153, rfl⟩
abbrev main_v92 : Ref sig .tc := ⟨.hbm, 154, rfl⟩
abbrev main_cst_30 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_31 : Ref sig .tc := ⟨.hbm, 159, rfl⟩
abbrev main_v96 : Ref sig .tc := ⟨.hbm, 160, rfl⟩
abbrev main_v97 : Ref sig .tc := ⟨.hbm, 161, rfl⟩
abbrev main_cst_32 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_33 : Ref sig .tc := ⟨.hbm, 166, rfl⟩
abbrev main_call7_v0 : Ref sig .tc := ⟨.hbm, 167, rfl⟩
abbrev main_call7_v1 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_c_34 : Ref sig .tc := ⟨.hbm, 173, rfl⟩
abbrev main_v105 : Ref sig .tc := ⟨.hbm, 174, rfl⟩
abbrev main_v106 : Ref sig .tc := ⟨.hbm, 175, rfl⟩
abbrev main_c_35 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_36 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_call8_cst : Ref sig .tc := ⟨.hbm, 193, rfl⟩
abbrev main_call8_v0 : Ref sig .tc := ⟨.hbm, 194, rfl⟩
abbrev main_v122 : Ref sig .tc := ⟨.hbm, 195, rfl⟩
abbrev main_cst_37 : Ref sig .tc := ⟨.hbm, 196, rfl⟩
abbrev main_v123 : Ref sig .tc := ⟨.hbm, 197, rfl⟩
abbrev main_cst_38 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_cst_39 : Ref sig .tc := ⟨.hbm, 202, rfl⟩
abbrev main_v127 : Ref sig .tc := ⟨.hbm, 203, rfl⟩
abbrev main_v128 : Ref sig .tc := ⟨.hbm, 204, rfl⟩
abbrev main_cst_40 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_cst_41 : Ref sig .tc := ⟨.hbm, 209, rfl⟩
abbrev main_call9_v0 : Ref sig .tc := ⟨.hbm, 210, rfl⟩
abbrev main_call9_v1 : Ref sig .tc := ⟨.hbm, 211, rfl⟩
abbrev main_v132 : Ref sig .tc := ⟨.hbm, 212, rfl⟩
abbrev main_cst_42 : Ref sig .tc := ⟨.hbm, 213, rfl⟩
abbrev main_v133 : Ref sig .tc := ⟨.hbm, 214, rfl⟩
abbrev main_cst_43 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_cst_44 : Ref sig .tc := ⟨.hbm, 219, rfl⟩
abbrev main_v137 : Ref sig .tc := ⟨.hbm, 220, rfl⟩
abbrev main_v138 : Ref sig .tc := ⟨.hbm, 221, rfl⟩
abbrev main_cst_45 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_cst_46 : Ref sig .tc := ⟨.hbm, 226, rfl⟩
abbrev main_call10_v0 : Ref sig .tc := ⟨.hbm, 227, rfl⟩
abbrev main_call10_v1 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_c_47 : Ref sig .tc := ⟨.hbm, 233, rfl⟩
abbrev main_v146 : Ref sig .tc := ⟨.hbm, 234, rfl⟩
abbrev main_v147 : Ref sig .tc := ⟨.hbm, 235, rfl⟩
abbrev main_c_48 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_cst_49 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_call11_cst : Ref sig .tc := ⟨.hbm, 253, rfl⟩
abbrev main_call11_v0 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_c_50 : Ref sig .tc := ⟨.hbm, 261, rfl⟩
abbrev main_v169 : Ref sig .tc := ⟨.hbm, 262, rfl⟩
abbrev main_v170 : Ref sig .tc := ⟨.hbm, 263, rfl⟩
abbrev main_c_51 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_c_52 : Ref sig .tc := ⟨.hbm, 270, rfl⟩
abbrev main_v176 : Ref sig .tc := ⟨.hbm, 271, rfl⟩
abbrev main_v177 : Ref sig .tc := ⟨.hbm, 272, rfl⟩
abbrev main_c_53 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_cst_54 : Ref sig .tc := ⟨.hbm, 286, rfl⟩
abbrev main_v190 : Ref sig .tc := ⟨.hbm, 287, rfl⟩
abbrev main_v191 : Ref sig .tc := ⟨.hbm, 288, rfl⟩
abbrev main_cst_55 : Ref sig .tc := ⟨.hbm, 289, rfl⟩
abbrev main_v192 : Ref sig .tc := ⟨.hbm, 290, rfl⟩
abbrev main_v193 : Ref sig .tc := ⟨.hbm, 291, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  bcast_S_S1000000x2 : S_.BroadcastsInDim S1000000x2 (![] : Fin 0 → Fin S1000000x2.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  dot_S1000000x128_S128x2_S1000000x2_1_0_0_1_n_n_wf : DotDims.WF S1000000x128 S128x2 S1000000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x2_S1000000x2_1_0_0_1_n_n : DotDims S1000000x128 S128x2 S1000000x2 where
  lhsContracting := [1]
  rhsContracting := [0]
  lhsNonContracting := [0]
  rhsNonContracting := [1]
  lhsBatch := []
  rhsBatch := []
  wf := dot_S1000000x128_S128x2_S1000000x2_1_0_0_1_n_n_wf

class Facts : Prop extends Facts₀ where

variable [Facts]
-- ==== Proof.KernelRun.lean ====
/-
  The kernels' program run to its end with its two results NAMED: every weakly fair execution terminates, nothing
  faulting, with the node embedding and the classifier's probabilities at the contents the last segment boundary
  holds for their buffers (the fold of the host stretches and of the seven regions' write-backs from the launch
  memory), and the sixteen arguments as launched.  It is the frame's run over the program's twenty-one segments with
  the final thread state, "every unscoped buffer at the last boundary's contents", read at the two result buffers as
  well as at the arguments.
-/
import proofs.«111492_j66975720014344_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the results named. -/
theorem run : θ_run defs (onTc (τ := τ) (main (F := F))) ⟨m, fun _ => 0, ρ⟩ (fun r => ∀ c : Dev nD,
      r.2.mem ((c.tc : Thread nD τ).loc main_v93_0) = W21 m ρ c (Proc.devRef .tc main_v93_0)
      ∧ r.2.mem ((c.tc : Thread nD τ).loc main_v115) = W21 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v93_0 (by decide)),
       h c _ (mem_uc main_v115 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c)⟩)

end Cert.KernelIdeal.Named

end
-- ==== Proof.Spec.lean ====
/-
  The arithmetic of the two-layer signed graph convolution and of the pair classifier, as functions of whole
  arrays over the extended reals, written index by index.  Nothing here mentions a program: both the tiled
  kernels and the host reference are shown, elsewhere, to compute exactly these functions.

  Rows are nodes (100000 of them) or query edges (1000000), columns are the 64 features.  A degree
  normaliser is a vector over the nodes; a bias is a vector over the features.
-/
import Idealize.ShloMosaic.PureOps.Ideal
import Idealize.ShloMosaic.Lib.ValueIdx

noncomputable section

namespace Cert.Spec

open Idealize.ShloMosaic Idealize.ShloMosaic.ValueIdx

abbrev SN64 : Shape := ⟨2, ![100000, 64]⟩
abbrev SN1 : Shape := ⟨2, ![100000, 1]⟩
abbrev SN : Shape := ⟨1, ![100000]⟩
abbrev SW : Shape := ⟨2, ![64, 64]⟩
abbrev SB : Shape := ⟨1, ![64]⟩
abbrev SB2 : Shape := ⟨2, ![1, 64]⟩
abbrev SQ64 : Shape := ⟨2, ![1000000, 64]⟩
abbrev SQ2 : Shape := ⟨2, ![1000000, 2]⟩
abbrev SC : Shape := ⟨2, ![128, 2]⟩
abbrev SCh : Shape := ⟨2, ![64, 2]⟩
abbrev SO : Shape := ⟨1, ![2]⟩
abbrev SO2 : Shape := ⟨2, ![1, 2]⟩

/-- A column array [n,1] read as the vector [n]. -/
def uncol (c2 : FVec Ideal SN1 .f32) : FVec Ideal SN .f32 := fun j => c2 (ix2 (j 0) 0)

/-- A one-row array [1,64] read as the vector [64]. -/
def unrow (b2 : FVec Ideal SB2 .f32) : FVec Ideal SB .f32 := fun j => b2 (ix2 0 (j 0))

/-- A one-row array [1,2] read as the vector [2]. -/
def unrow2 (b2 : FVec Ideal SO2 .f32) : FVec Ideal SO .f32 := fun j => b2 (ix2 0 (j 0))

/-- Every row of `x` multiplied by its node's normaliser: `out[r,j] = x[r,j] · c[r]`. -/
def scaleRows (x : FVec Ideal SN64 .f32) (c : FVec Ideal SN .f32) : FVec Ideal SN64 .f32 :=
  fun i => x i * c (ix1 (i 0))

/-- One graph-convolution tail: the aggregated rows scaled by the destination normaliser, multiplied by the
    weight matrix, the bias added, clamped below at zero:
    `out[r,j] = max (Σ_k (agg[r,k] · cd[r]) · W[k,j] + b[j]) 0`. -/
def conv (agg : FVec Ideal SN64 .f32) (cd : FVec Ideal SN .f32) (W : FVec Ideal SW .f32) (b : FVec Ideal SB .f32) :
    FVec Ideal SN64 .f32 :=
  fun i => max ((∑ k : Fin 64, (agg (ix2 (i 0) k) * cd (ix1 (i 0))) * W (ix2 k (i 1))) + b (ix1 (i 1))) 0

/-- A convolution tail whose rows are then scaled by the source normaliser of the next layer. -/
def convScaled (agg : FVec Ideal SN64 .f32) (cd : FVec Ideal SN .f32) (W : FVec Ideal SW .f32) (b : FVec Ideal SB .f32)
    (cs : FVec Ideal SN .f32) : FVec Ideal SN64 .f32 :=
  fun i => conv agg cd W b i * cs (ix1 (i 0))

/-- The positive stream minus a convolution tail of the negative stream. -/
def convSub (agg : FVec Ideal SN64 .f32) (cd : FVec Ideal SN .f32) (W : FVec Ideal SW .f32) (b : FVec Ideal SB .f32)
    (zp : FVec Ideal SN64 .f32) : FVec Ideal SN64 .f32 :=
  fun i => zp i - conv agg cd W b i

/-- The pair classifier: the logistic function of the source row against the top half of the weights plus
    the destination row against the bottom half plus the bias. -/
def pair (zs zd : FVec Ideal SQ64 .f32) (Wt Wb : FVec Ideal SCh .f32) (bc : FVec Ideal SO .f32) : FVec Ideal SQ2 .f32 :=
  fun i => Ideal.logistic (((∑ k : Fin 64, zs (ix2 (i 0) k) * Wt (ix2 k (i 1)))
      + (∑ k : Fin 64, zd (ix2 (i 0) k) * Wb (ix2 k (i 1)))) + bc (ix1 (i 1)))

end Cert.Spec

end
-- ==== Proof.Model.lean ====
/-
  The whole computation as one function of the argument arrays: two layers of signed graph convolution on
  the positive and on the negative relation, their difference, and the pair classifier on the query edges.

  The dense arithmetic is the index-by-index functions of the specification module.  The irregular parts, which
  the kernels' program and the reference spell with the same host operations, are kept as those operations:
  the degree normaliser of an index vector (a scatter-add of ones, compared with zero, its reciprocal square
  root where positive and zero elsewhere), the aggregation of rows along the edges (a row gather at the wrapped
  source indices followed by a scatter-add at the destination indices), and the row gather at the wrapped ends
  of the query edges.
-/
import proofs.«111492_j66975720014344_2_alg».proof.Proof.Gen.KernelIdeal
import proofs.«111492_j66975720014344_2_alg».proof.Proof.Spec

noncomputable section

namespace Cert.Model

open Cert.KernelIdeal Cert.KernelIdeal.Facts₀ Cert.KernelIdeal.Facts Idealize.ShloMosaic

/-- An integer array of the ideal instance. -/
abbrev I32 (S : Shape) : Type := (⟨S, .i32⟩ : BufTy).Contents (Elt Ideal)

/-- The number of edges that carry each node as their listed end. -/
def degree (idx : I32 S1600000) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- The degree normaliser: `deg^(-1/2)` where the degree is positive (the reciprocal square root is taken of
    `max deg 1`), zero elsewhere. -/
def degNorm (idx : I32 S1600000) : FVec Ideal S100000 .f32 :=
  select (cmpf .ogt (degree idx) (broadcastInDim S100000 ![] bcast_S_S100000 (constant (F := Ideal) S_ .f32 0x00000000#32)))
    (Host.rsqrt (maximumf (degree idx) (broadcastInDim S100000 ![] bcast_S_S100000 (constant (F := Ideal) S_ .f32 0x3F800000#32))))
    (broadcastInDim S100000 ![] bcast_S_S100000 (constant (F := Ideal) S_ .f32 0x00000000#32))

/-- Edge ends wrapped (a negative index counts from the end), as a column. -/
def wrapE (idx : I32 S1600000) : I32 S1600000x1 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- The rows of `h` at the source ends of the edges, added up at the destination ends. -/
def aggregate (h : FVec Ideal S100000x64 .f32) (src dst : I32 S1600000) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h (wrapE src))

/-- Row 0 of the query-edge table as a vector. -/
def ends0 (ei : I32 S2x1000000) : I32 S1000000 :=
  shapeCast S1000000 (extractStridedSlice S1x1000000 ![0, 0] ei slices_S2x1000000_S1x1000000_0_0) shapeCasts_S1x1000000_S1000000

/-- Row 1 of the query-edge table as a vector. -/
def ends1 (ei : I32 S2x1000000) : I32 S1000000 :=
  shapeCast S1000000 (extractStridedSlice S1x1000000 ![1, 0] ei slices_S2x1000000_S1x1000000_1_0) shapeCasts_S1x1000000_S1000000

/-- Query-edge ends wrapped (a negative index counts from the end), as a column. -/
def wrapQ (idx : I32 S1000000) : I32 S1000000x1 :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 100000#32))) idx)

/-- The rows of `z` at the listed query-edge ends. -/
def rowsAt (z : S100000x64.Idx → EReal) (idx : I32 S1000000) : S1000000x64.Idx → EReal :=
  Host.gather gather_S100000x64_S1000000x1_S1000000x64_1_0_n_n_0_1_164 z (wrapQ idx)

/-- The top half (rows 0 … 63) of the classifier's weights. -/
def topHalf (Wc : FVec Ideal S128x2 .f32) : FVec Ideal S64x2 .f32 :=
  extractStridedSlice S64x2 ![0, 0] Wc slices_S128x2_S64x2_0_0

/-- The bottom half (rows 64 … 127) of the classifier's weights. -/
def bottomHalf (Wc : FVec Ideal S128x2 .f32) : FVec Ideal S64x2 .f32 :=
  extractStridedSlice S64x2 ![64, 0] Wc slices_S128x2_S64x2_64_0

/-- One relation's stream after the first layer, already scaled by the source normaliser for the second layer. -/
def layer1 (x : FVec Ideal S100000x64 .f32) (W : FVec Ideal S64x64 .f32) (b : FVec Ideal S64 .f32) (src dst : I32 S1600000) :
    FVec Ideal S100000x64 .f32 :=
  Spec.convScaled (aggregate (Spec.scaleRows x (degNorm src)) src dst) (degNorm dst) W b (degNorm src)

/-- The node embedding: the positive stream's second layer minus the negative stream's. -/
def zModel (x : FVec Ideal S100000x64 .f32) (W0p : FVec Ideal S64x64 .f32) (b0p : FVec Ideal S64 .f32)
    (W0n : FVec Ideal S64x64 .f32) (b0n : FVec Ideal S64 .f32) (W1p : FVec Ideal S64x64 .f32) (b1p : FVec Ideal S64 .f32)
    (W1n : FVec Ideal S64x64 .f32) (b1n : FVec Ideal S64 .f32) (sp dp sn dn : I32 S1600000) : FVec Ideal S100000x64 .f32 :=
  Spec.convSub (aggregate (layer1 x W0n b0n sn dn) sn dn) (degNorm dn) W1n b1n
    (Spec.conv (aggregate (layer1 x W0p b0p sp dp) sp dp) (degNorm dp) W1p b1p)

/-- The classifier's probabilities on the query edges, from the node embedding. -/
def pModel (z : FVec Ideal S100000x64 .f32) (Wc : FVec Ideal S128x2 .f32) (bc : FVec Ideal S2 .f32) (ei : I32 S2x1000000) :
    FVec Ideal S1000000x2 .f32 :=
  Spec.pair (rowsAt z (ends0 ei)) (rowsAt z (ends1 ei)) (topHalf Wc) (bottomHalf Wc) bc

end Cert.Model

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.HostStretches.lean ====
/-
  The host stretches of the kernels' program, one at a time, as pure functions of the buffer contents `W` they start
  from: the degree normalisers (a stretch of fourteen operations and the three of the `where` that follows it), their
  column forms, the aggregation along the edges before each convolution region with the bias laid out as a row, and the
  gathers and slices before the classifier.  `W` is a variable throughout, so nothing here depends on what came before.
-/
import proofs.«111492_j66975720014344_2_alg».proof.Proof.Gen.KernelIdeal.Launch
import proofs.«111492_j66975720014344_2_alg».proof.Proof.Model
import proofs.«111492_j66975720014344_2_alg».proof.Proof.LibColumn
import Idealize.ShloMosaic.Lib.StableHlo.Run
import Idealize.ShloMosaic.Lib.ValueLayout

set_option maxRecDepth 16384

noncomputable section

namespace Cert.KernelIdeal.Stretch

open Cert.KernelIdeal Cert.KernelIdeal.Gen
open Idealize.ShloMosaic Idealize.ShloMosaic.TcCoe Idealize.ShloMosaic.StableHlo Idealize.SL.Sem
open Idealize.ShloMosaic.ValueIdx

variable (W : Valuation τ sig (Elt Ideal))

/-! ## The degree normalisers -/

theorem norm11_pos : after hostOps0 W (Proc.devRef .tc main_v5) = cmpf .ogt (Model.degree (W (Proc.devRef .tc main_arg11))) (broadcastInDim S100000 ![] bcast_S_S100000 (constant (F := Ideal) S_ .f32 0x00000000#32)) := by
  after_results_simp
  rfl
theorem norm11_rsqrt : after hostOps0 W (Proc.devRef .tc main_v8) = Host.rsqrt (maximumf (Model.degree (W (Proc.devRef .tc main_arg11))) (broadcastInDim S100000 ![] bcast_S_S100000 (constant (F := Ideal) S_ .f32 0x3F800000#32))) := by
  after_results_simp
  rfl
theorem norm11_zero : after hostOps0 W (Proc.devRef .tc main_cst_3) = constant (F := Ideal) S_ .f32 0x00000000#32 := by
  after_results_simp
theorem norm11_where : after hostOps0_1 W (Proc.devRef .tc main_v9) = select (W (Proc.devRef .tc main_v5)) (W (Proc.devRef .tc main_v8)) (broadcastInDim S100000 ![] bcast_S_S100000 (W (Proc.devRef .tc main_cst_3))) := by
  after_results_simp
  rfl
/-- The normaliser of the index vector `main_arg11`, after its two stretches. -/
theorem norm11 : after hostOps0_1 (after hostOps0 W) (Proc.devRef .tc main_v9) = Model.degNorm (W (Proc.devRef .tc main_arg11)) := by
  rw [norm11_where, norm11_pos, norm11_rsqrt, norm11_zero]
  rfl

theorem norm12_pos : after hostOps0_2 W (Proc.devRef .tc main_v15) = cmpf .ogt (Model.degree (W (Proc.devRef .tc main_arg12))) (broadcastInDim S100000 ![] bcast_S_S100000 (constant (F := Ideal) S_ .f32 0x00000000#32)) := by
  after_results_simp
  rfl
theorem norm12_rsqrt : after hostOps0_2 W (Proc.devRef .tc main_v18) = Host.rsqrt (maximumf (Model.degree (W (Proc.devRef .tc main_arg12))) (broadcastInDim S100000 ![] bcast_S_S100000 (constant (F := Ideal) S_ .f32 0x3F800000#32))) := by
  after_results_simp
  rfl
theorem norm12_zero : after hostOps0_2 W (Proc.devRef .tc main_cst_8) = constant (F := Ideal) S_ .f32 0x00000000#32 := by
  after_results_simp
theorem norm12_where : after hostOps0_3 W (Proc.devRef .tc main_v19) = select (W (Proc.devRef .tc main_v15)) (W (Proc.devRef .tc main_v18)) (broadcastInDim S100000 ![] bcast_S_S100000 (W (Proc.devRef .tc main_cst_8))) := by
  after_results_simp
  rfl
/-- The normaliser of the index vector `main_arg12`, after its two stretches. -/
theorem norm12 : after hostOps0_3 (after hostOps0_2 W) (Proc.devRef .tc main_v19) = Model.degNorm (W (Proc.devRef .tc main_arg12)) := by
  rw [norm12_where, norm12_pos, norm12_rsqrt, norm12_zero]
  rfl

theorem norm13_pos : after hostOps0_4 W (Proc.devRef .tc main_v25) = cmpf .ogt (Model.degree (W (Proc.devRef .tc main_arg13))) (broadcastInDim S100000 ![] bcast_S_S100000 (constant (F := Ideal) S_ .f32 0x00000000#32)) := by
  after_results_simp
  rfl
theorem norm13_rsqrt : after hostOps0_4 W (Proc.devRef .tc main_v28) = Host.rsqrt (maximumf (Model.degree (W (Proc.devRef .tc main_arg13))) (broadcastInDim S100000 ![] bcast_S_S100000 (constant (F := Ideal) S_ .f32 0x3F800000#32))) := by
  after_results_simp
  rfl
theorem norm13_zero : after hostOps0_4 W (Proc.devRef .tc main_cst_13) = constant (F := Ideal) S_ .f32 0x00000000#32 := by
  after_results_simp
theorem norm13_where : after hostOps0_5 W (Proc.devRef .tc main_v29) = select (W (Proc.devRef .tc main_v25)) (W (Proc.devRef .tc main_v28)) (broadcastInDim S100000 ![] bcast_S_S100000 (W (Proc.devRef .tc main_cst_13))) := by
  after_results_simp
  rfl
/-- The normaliser of the index vector `main_arg13`, after its two stretches. -/
theorem norm13 : after hostOps0_5 (after hostOps0_4 W) (Proc.devRef .tc main_v29) = Model.degNorm (W (Proc.devRef .tc main_arg13)) := by
  rw [norm13_where, norm13_pos, norm13_rsqrt, norm13_zero]
  rfl

theorem norm14_pos : after hostOps0_6 W (Proc.devRef .tc main_v35) = cmpf .ogt (Model.degree (W (Proc.devRef .tc main_arg14))) (broadcastInDim S100000 ![] bcast_S_S100000 (constant (F := Ideal) S_ .f32 0x00000000#32)) := by
  after_results_simp
  rfl
theorem norm14_rsqrt : after hostOps0_6 W (Proc.devRef .tc main_v38) = Host.rsqrt (maximumf (Model.degree (W (Proc.devRef .tc main_arg14))) (broadcastInDim S100000 ![] bcast_S_S100000 (constant (F := Ideal) S_ .f32 0x3F800000#32))) := by
  after_results_simp
  rfl
theorem norm14_zero : after hostOps0_6 W (Proc.devRef .tc main_cst_18) = constant (F := Ideal) S_ .f32 0x00000000#32 := by
  after_results_simp
theorem norm14_where : after hostOps0_7 W (Proc.devRef .tc main_v39) = select (W (Proc.devRef .tc main_v35)) (W (Proc.devRef .tc main_v38)) (broadcastInDim S100000 ![] bcast_S_S100000 (W (Proc.devRef .tc main_cst_18))) := by
  after_results_simp
  rfl
/-- The normaliser of the index vector `main_arg14`, after its two stretches. -/
theorem norm14 : after hostOps0_7 (after hostOps0_6 W) (Proc.devRef .tc main_v39) = Model.degNorm (W (Proc.devRef .tc main_arg14)) := by
  rw [norm14_where, norm14_pos, norm14_rsqrt, norm14_zero]
  rfl

/-! ## Their column forms -/

theorem col_main_v40 : Spec.uncol (after hostOps0_8 W (Proc.devRef .tc main_v40)) = W (Proc.devRef .tc main_v9) := by
  have e : after hostOps0_8 W (Proc.devRef .tc main_v40) = shapeCast S100000x1 (W (Proc.devRef .tc main_v9)) shapeCasts_S100000_S100000x1 := by
    after_results_simp
    rfl
  rw [e]
  funext j
  exact (ColumnIdx.shapeCast_a_a1_apply _ _ (j 0) 0).trans (congrArg _ (eq_ix1 j).symm)

theorem col_main_v41 : Spec.uncol (after hostOps0_8 W (Proc.devRef .tc main_v41)) = W (Proc.devRef .tc main_v19) := by
  have e : after hostOps0_8 W (Proc.devRef .tc main_v41) = shapeCast S100000x1 (W (Proc.devRef .tc main_v19)) shapeCasts_S100000_S100000x1 := by
    after_results_simp
    rfl
  rw [e]
  funext j
  exact (ColumnIdx.shapeCast_a_a1_apply _ _ (j 0) 0).trans (congrArg _ (eq_ix1 j).symm)

theorem col_main_v42 : Spec.uncol (after hostOps0_8 W (Proc.devRef .tc main_v42)) = W (Proc.devRef .tc main_v29) := by
  have e : after hostOps0_8 W (Proc.devRef .tc main_v42) = shapeCast S100000x1 (W (Proc.devRef .tc main_v29)) shapeCasts_S100000_S100000x1 := by
    after_results_simp
    rfl
  rw [e]
  funext j
  exact (ColumnIdx.shapeCast_a_a1_apply _ _ (j 0) 0).trans (congrArg _ (eq_ix1 j).symm)

theorem col_main_v43 : Spec.uncol (after hostOps0_8 W (Proc.devRef .tc main_v43)) = W (Proc.devRef .tc main_v39) := by
  have e : after hostOps0_8 W (Proc.devRef .tc main_v43) = shapeCast S100000x1 (W (Proc.devRef .tc main_v39)) shapeCasts_S100000_S100000x1 := by
    after_results_simp
    rfl
  rw [e]
  funext j
  exact (ColumnIdx.shapeCast_a_a1_apply _ _ (j 0) 0).trans (congrArg _ (eq_ix1 j).symm)

/-! ## The aggregations, and the biases as rows -/

theorem agg1 : after hostOps1 W (Proc.devRef .tc main_v54) = Model.aggregate (W (Proc.devRef .tc main_v44)) (W (Proc.devRef .tc main_arg11)) (W (Proc.devRef .tc main_arg12)) := by
  after_results_simp
  rfl
theorem row1 : Spec.unrow (after hostOps1 W (Proc.devRef .tc main_v55)) = W (Proc.devRef .tc main_arg2) := by
  have e : after hostOps1 W (Proc.devRef .tc main_v55) = shapeCast S1x64 (W (Proc.devRef .tc main_arg2)) shapeCasts_S64_S1x64 := by
    after_results_simp
    rfl
  rw [e]
  funext j
  exact (shapeCast_a_1a_apply _ _ 0 (j 0)).trans (congrArg _ (eq_ix1 j).symm)

theorem agg3 : after hostOps3 W (Proc.devRef .tc main_v67) = Model.aggregate (W (Proc.devRef .tc main_v57)) (W (Proc.devRef .tc main_arg13)) (W (Proc.devRef .tc main_arg14)) := by
  after_results_simp
  rfl
theorem row3 : Spec.unrow (after hostOps3 W (Proc.devRef .tc main_v68)) = W (Proc.devRef .tc main_arg4) := by
  have e : after hostOps3 W (Proc.devRef .tc main_v68) = shapeCast S1x64 (W (Proc.devRef .tc main_arg4)) shapeCasts_S64_S1x64 := by
    after_results_simp
    rfl
  rw [e]
  funext j
  exact (shapeCast_a_1a_apply _ _ 0 (j 0)).trans (congrArg _ (eq_ix1 j).symm)

theorem agg4 : after hostOps4 W (Proc.devRef .tc main_v79) = Model.aggregate (W (Proc.devRef .tc main_v56)) (W (Proc.devRef .tc main_arg11)) (W (Proc.devRef .tc main_arg12)) := by
  after_results_simp
  rfl
theorem row4 : Spec.unrow (after hostOps4 W (Proc.devRef .tc main_v80)) = W (Proc.devRef .tc main_arg6) := by
  have e : after hostOps4 W (Proc.devRef .tc main_v80) = shapeCast S1x64 (W (Proc.devRef .tc main_arg6)) shapeCasts_S64_S1x64 := by
    after_results_simp
    rfl
  rw [e]
  funext j
  exact (shapeCast_a_1a_apply _ _ 0 (j 0)).trans (congrArg _ (eq_ix1 j).symm)

theorem agg5 : after hostOps5 W (Proc.devRef .tc main_v91) = Model.aggregate (W (Proc.devRef .tc main_v69)) (W (Proc.devRef .tc main_arg13)) (W (Proc.devRef .tc main_arg14)) := by
  after_results_simp
  rfl
theorem row5 : Spec.unrow (after hostOps5 W (Proc.devRef .tc main_v92)) = W (Proc.devRef .tc main_arg8) := by
  have e : after hostOps5 W (Proc.devRef .tc main_v92) = shapeCast S1x64 (W (Proc.devRef .tc main_arg8)) shapeCasts_S64_S1x64 := by
    after_results_simp
    rfl
  rw [e]
  funext j
  exact (shapeCast_a_1a_apply _ _ 0 (j 0)).trans (congrArg _ (eq_ix1 j).symm)

/-! ## Before the classifier -/

theorem rows_src : (after hostOps6 W (Proc.devRef .tc main_v104) : S1000000x64.Idx → EReal) = Model.rowsAt (W (Proc.devRef .tc main_v93_1)) (Model.ends0 (W (Proc.devRef .tc main_arg15))) := by
  after_results_simp
  rfl
theorem rows_dst : (after hostOps6 W (Proc.devRef .tc main_v111) : S1000000x64.Idx → EReal) = Model.rowsAt (W (Proc.devRef .tc main_v93_1)) (Model.ends1 (W (Proc.devRef .tc main_arg15))) := by
  after_results_simp
  rfl
theorem top_half : after hostOps6 W (Proc.devRef .tc main_v112) = Model.topHalf (W (Proc.devRef .tc main_arg9)) := by
  after_results_simp
  rfl
theorem bottom_half : after hostOps6 W (Proc.devRef .tc main_v113) = Model.bottomHalf (W (Proc.devRef .tc main_arg9)) := by
  after_results_simp
  rfl
theorem row_bias : Spec.unrow2 (after hostOps6 W (Proc.devRef .tc main_v114)) = W (Proc.devRef .tc main_arg10) := by
  have e : after hostOps6 W (Proc.devRef .tc main_v114) = shapeCast S1x2 (W (Proc.devRef .tc main_arg10)) shapeCasts_S2_S1x2 := by
    after_results_simp
    rfl
  rw [e]
  funext j
  exact (shapeCast_a_1a_apply _ _ 0 (j 0)).trans (congrArg _ (eq_ix1 j).symm)

end Cert.KernelIdeal.Stretch

end
-- ==== Proof.Region0.lean ====
/-
  The first row-scaling region: every node's feature row multiplied by that node's normaliser.  The region
  walks the 100000 rows in 25 blocks of 4000; block t of the result is block t of the features times block t
  of the normaliser column broadcast along the 64 features.  Here the 25 written blocks are assembled into
  one whole-array function.
-/
import proofs.«111492_j66975720014344_2_alg».proof.Proof.Gen.KernelIdeal.Frame
import proofs.«111492_j66975720014344_2_alg».proof.Proof.Spec
import proofs.«111492_j66975720014344_2_alg».proof.Proof.LibColumn
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.Region0

open Cert.KernelIdeal Cert.KernelIdeal.Gen

variable (V : (c : Dev nD) → (b : Ref sig .tc) → Buf (Elt Ideal) ((c : Thread nD τ).loc b))

/-- The zero offsets of a whole-block access, however they are spelt. -/
theorem zero_offsets : (![0, 0] : Fin 2 → Nat) = fun _ => 0 := funext fun a => by fin_cases a <;> rfl

/-- One entry of a scaled block: the block's entry times its row's entry of the column. -/
theorem scale_block_apply (x0 : Vec Ideal S4000x64 .f32) (x1 : Vec Ideal S4000x1 .f32) (r : Fin 4000) (j : Fin 64) :
    k0_pay1 (F := Ideal) x0 x1 (ix2 r j) = x0 (ix2 r j) * x1 (ix2 r 0) := by
  unfold k0_pay1
  rw [mulf_apply, shapeCast_self, ColumnIdx.broadcastTo_a1_ab_apply]

/-- Where the blocks sit: at point t the feature block, the column block and the result block are all block
    (t, 0) of their arrays. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The feature block of point t holds rows 4000·t … 4000·t + 3999 of the features. -/
theorem features_block_apply (c : Dev nD) (t : Fin cfg0.N) (y : S4000x64.Idx) (i : Spec.SN64.Idx)
    (h0 : (i 0).val = 4000 * t.val + (y 0).val) (h1 : (i 1).val = (y 1).val) :
    (iblk0 V c 0 t : Vec Ideal S4000x64 .f32) y = (V c main_arg0 : FVec Ideal Spec.SN64 .f32) i := by
  obtain ⟨e0, e1, -⟩ := block_index t
  show V c main_arg0 (((cfg0.win 0).blk t).view.emb y) = V c main_arg0 i
  refine congrArg _ (funext fun a => Fin.ext ?_)
  match a with
  | ⟨0, _⟩ => show win0_0.index t (0 : Fin 2) * 4000 + 1 * (y 0).val = (i 0).val; omega
  | ⟨1, _⟩ => show win0_0.index t (1 : Fin 2) * 64 + 1 * (y 1).val = (i 1).val; omega

/-- The normaliser block of point t holds entries 4000·t … 4000·t + 3999 of the normaliser column. -/
theorem column_block_apply (c : Dev nD) (t : Fin cfg0.N) (y : S4000x1.Idx) (i : Spec.SN1.Idx)
    (h0 : (i 0).val = 4000 * t.val + (y 0).val) :
    (iblk0 V c 1 t : Vec Ideal S4000x1 .f32) y = (V c main_v40 : FVec Ideal Spec.SN1 .f32) i := by
  obtain ⟨-, -, e2, e3, -⟩ := block_index t
  show V c main_v40 (((cfg0.win 1).blk t).view.emb y) = V c main_v40 i
  refine congrArg _ (funext fun a => Fin.ext ?_)
  match a with
  | ⟨0, _⟩ => show win0_1.index t (0 : Fin 2) * 4000 + 1 * (y 0).val = (i 0).val; omega
  | ⟨1, _⟩ =>
    show win0_1.index t (1 : Fin 2) * 1 + 1 * (y 1).val = (i 1).val
    have hy : (y 1).val < 1 := (y 1).isLt
    have hi : (i 1).val < 1 := (i 1).isLt
    omega

/-- What point t writes back is block t of the scaled features. -/
theorem flushed_eq (c : Dev nD) (t : Fin cfg0.N) :
    (dat0 (F := Ideal) V c).flushed 2 t
      = ((cfg0.win 2).blk t).view.read (Elt Ideal) (Spec.scaleRows (V c main_arg0) (Spec.uncol (V c main_v40))) := by
  show (cfg0.win 2).cut (grid0.coords t) ((dat0 (F := Ideal) V c).after 2 t) = _
  rw [after0_2]
  unfold out0_2
  rw [View.canon_unit_zero zero_offsets]
  simp only [View.ld_unit_zero (S := S4000x64) zero_offsets, View.ld_unit_zero (S := S4000x1) zero_offsets]
  obtain ⟨-, -, -, -, e4, e5⟩ := block_index t
  funext y
  obtain ⟨r, j, rfl⟩ : ∃ (r : Fin 4000) (j : Fin 64), y = ix2 r j := ⟨y 0, y 1, eq_ix2 y⟩
  refine (scale_block_apply _ _ r j).trans ?_
  have hr : r.val < 4000 := r.isLt
  have q0 : (((cfg0.win 2).blk t).view.emb (ix2 r j) 0).val = 4000 * t.val + r.val := by
    show win0_2.index t (0 : Fin 2) * 4000 + 1 * r.val = _; omega
  have q1 : (((cfg0.win 2).blk t).view.emb (ix2 r j) 1).val = j.val := by
    show win0_2.index t (1 : Fin 2) * 64 + 1 * j.val = _; omega
  rw [features_block_apply V c t (ix2 r j) (((cfg0.win 2).blk t).view.emb (ix2 r j)) q0 q1,
    column_block_apply V c t (ix2 r 0) (ix2 (((cfg0.win 2).blk t).view.emb (ix2 r j) 0) 0) q0]
  rfl

/-- An index of the result array lies in point t's block iff each coordinate lies in the block's range. -/
theorem mem_block (t : Fin cfg0.N) (i : Spec.SN64.Idx) :
    i ∈ ((cfg0.win 2).blk t).view.set ↔ ∀ a : Fin 2, win0_2.index t a * S4000x64.size a ≤ (i a).val
      ∧ (i a).val < win0_2.index t a * S4000x64.size a + S4000x64.size a := by
  show i ∈ ((View.whole main_v44).slice (win0_2.rect t)).set ↔ _
  rw [View.set_slice_whole, Rect.mem_set_unit]
  exact Iff.rfl

/-- Every entry of the result array is written: row p belongs to the block of point p / 4000. -/
theorem covered (i : Spec.SN64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 4000 < cfg0.N := lt_of_lt_of_eq (by omega : (i 0).val / 4000 < 25) N_0.symm
  obtain ⟨-, -, -, -, e4, e5⟩ := block_index ⟨(i 0).val / 4000, hlt⟩
  have e4' : win0_2.index ⟨(i 0).val / 4000, hlt⟩ (0 : Fin 2) = (i 0).val / 4000 := e4
  refine ⟨⟨(i 0).val / 4000, hlt⟩, flush0_2 _, ?_⟩
  rw [mem_block]
  intro a
  match a with
  | ⟨0, _⟩ =>
    show win0_2.index ⟨(i 0).val / 4000, hlt⟩ (0 : Fin 2) * 4000 ≤ (i 0).val
      ∧ (i 0).val < win0_2.index ⟨(i 0).val / 4000, hlt⟩ (0 : Fin 2) * 4000 + 4000
    omega
  | ⟨1, _⟩ =>
    show win0_2.index ⟨(i 0).val / 4000, hlt⟩ (1 : Fin 2) * 64 ≤ (i 1).val
      ∧ (i 1).val < win0_2.index ⟨(i 0).val / 4000, hlt⟩ (1 : Fin 2) * 64 + 64
    omega

/-- The result array of the region: the features with every row scaled by its node's normaliser. -/
theorem final0 (c : Dev nD) :
    (dat0 (F := Ideal) V c).arrAt 2 cfg0.N = Spec.scaleRows (V c main_arg0) (Spec.uncol (V c main_v40)) :=
  (dat0 (F := Ideal) V c).arrAt_eq_of_cover 2 (Spec.scaleRows (V c main_arg0) (Spec.uncol (V c main_v40)))
    (fun t _ => flushed_eq V c t) covered

end Cert.Region0

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.ConvCore.lean ====
/-
  The convolution tail of one block of rows, read at an entry.

  A block holds 4000 rows of the aggregated features together with the 4000 matching entries of the
  destination normaliser; the weight matrix (64 by 64) and the bias row are whole.  Entry (r, j) of the
  block's result is the r-th row scaled by its normaliser, multiplied into column j of the weights, plus
  bias j, clamped below at zero.  Over the extended reals the narrowing of the two factors to a shorter
  format is the identity, and the accumulator the product starts from is zero.
-/
import proofs.«111492_j66975720014344_2_alg».proof.Proof.Gen.KernelIdeal.Skeleton
import proofs.«111492_j66975720014344_2_alg».proof.Proof.Spec
import proofs.«111492_j66975720014344_2_alg».proof.Proof.LibColumn
import proofs.«111492_j66975720014344_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.ConvCore

open Idealize.ShloMosaic Idealize.ShloMosaic.ValueIdx Cert.KernelIdeal

/-- The contraction of the block product is the plain one: rows of the first factor against columns of the
    second. -/
theorem blockProduct_plain : dot_S4000x64_S64x64_S4000x64_1_0_0_1_n_n = DotDims.plain 4000 64 64 := rfl

/-- Entry `(r, j)` of one block's convolution tail:
    `max (Σ_k (x[r,k] · c[r,0]) · W[k,j] + b[0,j]) 0`. -/
theorem conv_block_apply (v0 : Vec Ideal S4000x64 .f32) (v2 : Vec Ideal S4000x1 .f32) (v7 : Vec Ideal S64x64 .f32)
    (v10 : Vec Ideal S1x64 .f32) (r : Fin 4000) (j : Fin 64) :
    Cert.KernelIdeal.Gen.k4_pay1 (F := Ideal) v0 v2 v7 v10 (ValueIdx.ix2 r j)
      = max ((∑ k : Fin 64, (v0 (ValueIdx.ix2 r k) * v2 (ValueIdx.ix2 r 0)) * v7 (ValueIdx.ix2 k j))
          + v10 (ValueIdx.ix2 0 j)) 0 := by
  unfold Cert.KernelIdeal.Gen.k4_pay1
  simp only [maximumf_apply, addf_apply, broadcast_apply]
  have hz : (FloatOps.ofBits FTy.f32 0x00000000#32 : Ideal .f32) = 0 := Ideal.ofBits_zero_f32
  rw [hz, PlainProduct.matmul_at _ blockProduct_plain, constant_apply, Ideal.ofBits_zero_f32, zero_add,
    broadcastTo_1b_ab_apply, shapeCast_self]
  simp only [truncf_apply, mulf_apply, shapeCast_self, ColumnIdx.broadcastTo_a1_ab_apply]

end Cert.ConvCore

end
-- ==== Proof.Region1.lean ====
/-
  The first of the two first-layer convolution tails, scaled for the next layer.  The region walks the
  100000 rows in 25 blocks of 4000.  At point t it reads block t of the aggregated rows, of the destination
  normaliser column and of the next layer's source normaliser column, and the whole weight matrix and bias
  row; block t of the result is, entry by entry,
      max (Σ_k (agg[r,k] · cd[r]) · W[k,j] + b[j]) 0 · cs[r].
  Here the 25 written blocks are assembled into one whole-array function.
-/
import proofs.«111492_j66975720014344_2_alg».proof.Proof.Gen.KernelIdeal.Frame
import proofs.«111492_j66975720014344_2_alg».proof.Proof.Spec
import proofs.«111492_j66975720014344_2_alg».proof.Proof.LibColumn
import proofs.«111492_j66975720014344_2_alg».proof.Proof.ConvCore
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.Region1

open Cert.KernelIdeal Cert.KernelIdeal.Gen

variable (V : (c : Dev nD) → (b : Ref sig .tc) → Buf (Elt Ideal) ((c : Thread nD τ).loc b))

/-- The zero offsets of a whole-block access, however they are spelt. -/
theorem zero_offsets : (![0, 0] : Fin 2 → Nat) = fun _ => 0 := funext fun a => by fin_cases a <;> rfl

/-- The block's arithmetic is the plain convolution tail's, then multiplied by the broadcast column. -/
theorem payload_split (v0 : Vec Ideal S4000x64 .f32) (v2 : Vec Ideal S4000x1 .f32) (v7 : Vec Ideal S64x64 .f32)
    (v10 : Vec Ideal S1x64 .f32) (v16 : Vec Ideal S4000x1 .f32) :
    k1_pay1 (F := Ideal) v0 v2 v7 v10 v16
      = mulf (k4_pay1 (F := Ideal) v0 v2 v7 v10)
          (broadcastTo S4000x64 (shapeCast S4000x1 v16 shapeCasts_S4000x1_S4000x1) broadcasts_S4000x1_S4000x64) := rfl

/-- One entry of a block of the result. -/
theorem conv_scaled_block_apply (v0 : Vec Ideal S4000x64 .f32) (v2 : Vec Ideal S4000x1 .f32)
    (v7 : Vec Ideal S64x64 .f32) (v10 : Vec Ideal S1x64 .f32) (v16 : Vec Ideal S4000x1 .f32) (r : Fin 4000) (j : Fin 64) :
    k1_pay1 (F := Ideal) v0 v2 v7 v10 v16 (ix2 r j)
      = max ((∑ k : Fin 64, (v0 (ix2 r k) * v2 (ix2 r 0)) * v7 (ix2 k j)) + v10 (ix2 0 j)) 0 * v16 (ix2 r 0) := by
  rw [payload_split, mulf_apply, shapeCast_self, ColumnIdx.broadcastTo_a1_ab_apply, Cert.ConvCore.conv_block_apply]

/-- Where the blocks sit: at point t the aggregated rows, the two normaliser columns and the result are at
    block (t, 0) of their arrays; the weight matrix and the bias row are one block each. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The block of aggregated rows of point t holds rows 4000·t … 4000·t + 3999. -/
theorem agg_block_apply (c : Dev nD) (t : Fin cfg1.N) (y : S4000x64.Idx) (i : Spec.SN64.Idx)
    (h0 : (i 0).val = 4000 * t.val + (y 0).val) (h1 : (i 1).val = (y 1).val) :
    (iblk1 V c 0 t : Vec Ideal S4000x64 .f32) y = (V c main_v54 : FVec Ideal Spec.SN64 .f32) i := by
  obtain ⟨e0, e1, -⟩ := block_index t
  show V c main_v54 (((cfg1.win 0).blk t).view.emb y) = V c main_v54 i
  refine congrArg _ (funext fun a => Fin.ext ?_)
  match a with
  | ⟨0, _⟩ => show win1_0.index t (0 : Fin 2) * 4000 + 1 * (y 0).val = (i 0).val; omega
  | ⟨1, _⟩ => show win1_0.index t (1 : Fin 2) * 64 + 1 * (y 1).val = (i 1).val; omega

/-- The destination normaliser block of point t holds entries 4000·t … 4000·t + 3999 of its column. -/
theorem dst_block_apply (c : Dev nD) (t : Fin cfg1.N) (y : S4000x1.Idx) (i : Spec.SN1.Idx)
    (h0 : (i 0).val = 4000 * t.val + (y 0).val) :
    (iblk1 V c 1 t : Vec Ideal S4000x1 .f32) y = (V c main_v41 : FVec Ideal Spec.SN1 .f32) i := by
  obtain ⟨-, -, e2, e3, -⟩ := block_index t
  show V c main_v41 (((cfg1.win 1).blk t).view.emb y) = V c main_v41 i
  refine congrArg _ (funext fun a => Fin.ext ?_)
  match a with
  | ⟨0, _⟩ => show win1_1.index t (0 : Fin 2) * 4000 + 1 * (y 0).val = (i 0).val; omega
  | ⟨1, _⟩ =>
    show win1_1.index t (1 : Fin 2) * 1 + 1 * (y 1).val = (i 1).val
    have hy : (y 1).val < 1 := (y 1).isLt
    have hi : (i 1).val < 1 := (i 1).isLt
    omega

/-- The weight block is the whole weight matrix at every point. -/
theorem weight_block_apply (c : Dev nD) (t : Fin cfg1.N) (y : S64x64.Idx) (i : Spec.SW.Idx)
    (h0 : (i 0).val = (y 0).val) (h1 : (i 1).val = (y 1).val) :
    (iblk1 V c 2 t : Vec Ideal S64x64 .f32) y = (V c main_arg1 : FVec Ideal Spec.SW .f32) i := by
  obtain ⟨-, -, -, -, e4, e5, -⟩ := block_index t
  show V c main_arg1 (((cfg1.win 2).blk t).view.emb y) = V c main_arg1 i
  refine congrArg _ (funext fun a => Fin.ext ?_)
  match a with
  | ⟨0, _⟩ => show win1_2.index t (0 : Fin 2) * 64 + 1 * (y 0).val = (i 0).val; omega
  | ⟨1, _⟩ => show win1_2.index t (1 : Fin 2) * 64 + 1 * (y 1).val = (i 1).val; omega

/-- The bias block is the whole bias row at every point. -/
theorem bias_block_apply (c : Dev nD) (t : Fin cfg1.N) (y : S1x64.Idx) (i : Spec.SB2.Idx)
    (h1 : (i 1).val = (y 1).val) :
    (iblk1 V c 3 t : Vec Ideal S1x64 .f32) y = (V c main_v55 : FVec Ideal Spec.SB2 .f32) i := by
  obtain ⟨-, -, -, -, -, -, e6, e7, -⟩ := block_index t
  show V c main_v55 (((cfg1.win 3).blk t).view.emb y) = V c main_v55 i
  refine congrArg _ (funext fun a => Fin.ext ?_)
  match a with
  | ⟨0, _⟩ =>
    show win1_3.index t (0 : Fin 2) * 1 + 1 * (y 0).val = (i 0).val
    have hy : (y 0).val < 1 := (y 0).isLt
    have hi : (i 0).val < 1 := (i 0).isLt
    omega
  | ⟨1, _⟩ => show win1_3.index t (1 : Fin 2) * 64 + 1 * (y 1).val = (i 1).val; omega

/-- The next layer's source normaliser block of point t holds entries 4000·t … 4000·t + 3999 of its column. -/
theorem src_block_apply (c : Dev nD) (t : Fin cfg1.N) (y : S4000x1.Idx) (i : Spec.SN1.Idx)
    (h0 : (i 0).val = 4000 * t.val + (y 0).val) :
    (iblk1 V c 4 t : Vec Ideal S4000x1 .f32) y = (V c main_v40 : FVec Ideal Spec.SN1 .f32) i := by
  obtain ⟨-, -, -, -, -, -, -, -, e8, e9, -⟩ := block_index t
  show V c main_v40 (((cfg1.win 4).blk t).view.emb y) = V c main_v40 i
  refine congrArg _ (funext fun a => Fin.ext ?_)
  match a with
  | ⟨0, _⟩ => show win1_4.index t (0 : Fin 2) * 4000 + 1 * (y 0).val = (i 0).val; omega
  | ⟨1, _⟩ =>
    show win1_4.index t (1 : Fin 2) * 1 + 1 * (y 1).val = (i 1).val
    have hy : (y 1).val < 1 := (y 1).isLt
    have hi : (i 1).val < 1 := (i 1).isLt
    omega

/-- The result's block of point t sits at rows 4000·t … 4000·t + 3999, all 64 columns. -/
theorem out_block_emb (t : Fin cfg1.N) (r : Fin 4000) (j : Fin 64) (p : Fin 100000) (hp : p.val = 4000 * t.val + r.val) :
    ((cfg1.win 5).blk t).view.emb (ix2 r j) = (ix2 p j : Spec.SN64.Idx) := by
  obtain ⟨-, -, -, -, -, -, -, -, -, -, e10, e11⟩ := block_index t
  refine funext fun a => Fin.ext ?_
  match a with
  | ⟨0, _⟩ => show win1_5.index t (0 : Fin 2) * 4000 + 1 * r.val = p.val; omega
  | ⟨1, _⟩ => show win1_5.index t (1 : Fin 2) * 64 + 1 * j.val = j.val; omega

/-- What point t writes back is block t of the scaled convolution tail. -/
theorem flushed_eq (c : Dev nD) (t : Fin cfg1.N) :
    (dat1 (F := Ideal) V c).flushed 5 t
      = ((cfg1.win 5).blk t).view.read (Elt Ideal) (Spec.convScaled (V c main_v54) (Spec.uncol (V c main_v41))
          (V c main_arg1) (Spec.unrow (V c main_v55)) (Spec.uncol (V c main_v40))) := by
  show (cfg1.win 5).cut (grid1.coords t) ((dat1 (F := Ideal) V c).after 5 t) = _
  rw [after1_5]
  unfold out1_5
  rw [View.canon_unit_zero zero_offsets]
  simp only [View.ld_unit_zero (S := S4000x64) zero_offsets, View.ld_unit_zero (S := S4000x1) zero_offsets,
    View.ld_unit_zero (S := S64x64) zero_offsets, View.ld_unit_zero (S := S1x64) zero_offsets]
  funext y
  obtain ⟨r, j, rfl⟩ : ∃ (r : Fin 4000) (j : Fin 64), y = ix2 r j := ⟨y 0, y 1, eq_ix2 y⟩
  refine (conv_scaled_block_apply _ _ _ _ _ r j).trans ?_
  have hr : r.val < 4000 := r.isLt
  have ht : t.val < 25 := lt_of_lt_of_eq t.isLt N_1
  have hi := out_block_emb t r j ⟨4000 * t.val + r.val, by omega⟩ rfl
  refine Eq.trans ?_ (congrArg (Spec.convScaled (V c main_v54) (Spec.uncol (V c main_v41))
          (V c main_arg1) (Spec.unrow (V c main_v55)) (Spec.uncol (V c main_v40))) hi.symm)
  have hA : ∀ k : Fin 64, (iblk1 V c 0 t : Vec Ideal S4000x64 .f32) (ix2 r k)
      = (V c main_v54 : FVec Ideal Spec.SN64 .f32) (ix2 (⟨4000 * t.val + r.val, by omega⟩ : Fin 100000) k) :=
    fun k => agg_block_apply V c t (ix2 r k) _ rfl rfl
  have hW : ∀ k : Fin 64, (iblk1 V c 2 t : Vec Ideal S64x64 .f32) (ix2 k j)
      = (V c main_arg1 : FVec Ideal Spec.SW .f32) (ix2 k j) :=
    fun k => weight_block_apply V c t (ix2 k j) _ rfl rfl
  rw [dst_block_apply V c t (ix2 r 0) (ix2 (⟨4000 * t.val + r.val, by omega⟩ : Fin 100000) 0) rfl,
    bias_block_apply V c t (ix2 0 j) (ix2 0 j) rfl,
    src_block_apply V c t (ix2 r 0) (ix2 (⟨4000 * t.val + r.val, by omega⟩ : Fin 100000) 0) rfl]
  simp only [hA, hW]
  rfl

/-- An index of the result array lies in point t's block iff each coordinate lies in the block's range. -/
theorem mem_block (t : Fin cfg1.N) (i : Spec.SN64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v56).slice (win1_5.rect t)).set ↔ _
  rw [View.set_slice_whole, Rect.mem_set_unit]
  exact Iff.rfl

/-- Every entry of the result array is written: row p belongs to the block of point p / 4000. -/
theorem covered (i : Spec.SN64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hlt : (i 0).val / 4000 < cfg1.N := lt_of_lt_of_eq (by omega : (i 0).val / 4000 < 25) N_1.symm
  obtain ⟨-, -, -, -, -, -, -, -, -, -, e10, e11⟩ := block_index ⟨(i 0).val / 4000, hlt⟩
  have e10' : win1_5.index ⟨(i 0).val / 4000, hlt⟩ (0 : Fin 2) = (i 0).val / 4000 := e10
  refine ⟨⟨(i 0).val / 4000, hlt⟩, flush1_5 _, ?_⟩
  rw [mem_block]
  intro a
  match a with
  | ⟨0, _⟩ =>
    show win1_5.index ⟨(i 0).val / 4000, hlt⟩ (0 : Fin 2) * 4000 ≤ (i 0).val
      ∧ (i 0).val < win1_5.index ⟨(i 0).val / 4000, hlt⟩ (0 : Fin 2) * 4000 + 4000
    omega
  | ⟨1, _⟩ =>
    show win1_5.index ⟨(i 0).val / 4000, hlt⟩ (1 : Fin 2) * 64 ≤ (i 1).val
      ∧ (i 1).val < win1_5.index ⟨(i 0).val / 4000, hlt⟩ (1 : Fin 2) * 64 + 64
    omega

/-- The result array of the region: the convolution tail of the aggregated rows, every row then scaled by its
    node's source normaliser of the next layer. -/
theorem final1 (c : Dev nD) :
    (dat1 (F := Ideal) V c).arrAt 5 cfg1.N = Spec.convScaled (V c main_v54) (Spec.uncol (V c main_v41))
      (V c main_arg1) (Spec.unrow (V c main_v55)) (Spec.uncol (V c main_v40)) :=
  (dat1 (F := Ideal) V c).arrAt_eq_of_cover 5 (Spec.convScaled (V c main_v54) (Spec.uncol (V c main_v41))
      (V c main_arg1) (Spec.unrow (V c main_v55)) (Spec.uncol (V c main_v40)))
    (fun t _ => flushed_eq V c t) covered

end Cert.Region1

end
-- ==== Proof.Region2.lean ====
/-
  The second row-scaling region: every node's feature row multiplied by that node's entry of a second
  normaliser column.  The region walks the 100000 rows in 25 blocks of 4000; block t of the result is
  block t of the features times block t of the normaliser column broadcast along the 64 features.  Here
  the 25 written blocks are assembled into one whole-array function.
-/
import proofs.«111492_j66975720014344_2_alg».proof.Proof.Gen.KernelIdeal.Frame
import proofs.«111492_j66975720014344_2_alg».proof.Proof.Spec
import proofs.«111492_j66975720014344_2_alg».proof.Proof.LibColumn
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.Region2

open Cert.KernelIdeal Cert.KernelIdeal.Gen

variable (V : (c : Dev nD) → (b : Ref sig .tc) → Buf (Elt Ideal) ((c : Thread nD τ).loc b))

/-- The zero offsets of a whole-block access, however they are spelt. -/
theorem zero_offsets : (![0, 0] : Fin 2 → Nat) = fun _ => 0 := funext fun a => by fin_cases a <;> rfl

/-- One entry of a scaled block: the block's entry times its row's entry of the column. -/
theorem scale_block_apply (x0 : Vec Ideal S4000x64 .f32) (x1 : Vec Ideal S4000x1 .f32) (r : Fin 4000) (j : Fin 64) :
    k2_pay1 (F := Ideal) x0 x1 (ix2 r j) = x0 (ix2 r j) * x1 (ix2 r 0) := by
  unfold k2_pay1
  rw [mulf_apply, shapeCast_self, ColumnIdx.broadcastTo_a1_ab_apply]

/-- Where the blocks sit: at point t the feature block, the column block and the result block are all block
    (t, 0) of their arrays. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The feature block of point t holds rows 4000·t … 4000·t + 3999 of the features. -/
theorem features_block_apply (c : Dev nD) (t : Fin cfg2.N) (y : S4000x64.Idx) (i : Spec.SN64.Idx)
    (h0 : (i 0).val = 4000 * t.val + (y 0).val) (h1 : (i 1).val = (y 1).val) :
    (iblk2 V c 0 t : Vec Ideal S4000x64 .f32) y = (V c main_arg0 : FVec Ideal Spec.SN64 .f32) i := by
  obtain ⟨e0, e1, -⟩ := block_index t
  show V c main_arg0 (((cfg2.win 0).blk t).view.emb y) = V c main_arg0 i
  refine congrArg _ (funext fun a => Fin.ext ?_)
  match a with
  | ⟨0, _⟩ => show win2_0.index t (0 : Fin 2) * 4000 + 1 * (y 0).val = (i 0).val; omega
  | ⟨1, _⟩ => show win2_0.index t (1 : Fin 2) * 64 + 1 * (y 1).val = (i 1).val; omega

/-- The normaliser block of point t holds entries 4000·t … 4000·t + 3999 of the normaliser column. -/
theorem column_block_apply (c : Dev nD) (t : Fin cfg2.N) (y : S4000x1.Idx) (i : Spec.SN1.Idx)
    (h0 : (i 0).val = 4000 * t.val + (y 0).val) :
    (iblk2 V c 1 t : Vec Ideal S4000x1 .f32) y = (V c main_v42 : FVec Ideal Spec.SN1 .f32) i := by
  obtain ⟨-, -, e2, e3, -⟩ := block_index t
  show V c main_v42 (((cfg2.win 1).blk t).view.emb y) = V c main_v42 i
  refine congrArg _ (funext fun a => Fin.ext ?_)
  match a with
  | ⟨0, _⟩ => show win2_1.index t (0 : Fin 2) * 4000 + 1 * (y 0).val = (i 0).val; omega
  | ⟨1, _⟩ =>
    show win2_1.index t (1 : Fin 2) * 1 + 1 * (y 1).val = (i 1).val
    have hy : (y 1).val < 1 := (y 1).isLt
    have hi : (i 1).val < 1 := (i 1).isLt
    omega

/-- What point t writes back is block t of the scaled features. -/
theorem flushed_eq (c : Dev nD) (t : Fin cfg2.N) :
    (dat2 (F := Ideal) V c).flushed 2 t
      = ((cfg2.win 2).blk t).view.read (Elt Ideal) (Spec.scaleRows (V c main_arg0) (Spec.uncol (V c main_v42))) := by
  show (cfg2.win 2).cut (grid2.coords t) ((dat2 (F := Ideal) V c).after 2 t) = _
  rw [after2_2]
  unfold out2_2
  rw [View.canon_unit_zero zero_offsets]
  simp only [View.ld_unit_zero (S := S4000x64) zero_offsets, View.ld_unit_zero (S := S4000x1) zero_offsets]
  obtain ⟨-, -, -, -, e4, e5⟩ := block_index t
  funext y
  obtain ⟨r, j, rfl⟩ : ∃ (r : Fin 4000) (j : Fin 64), y = ix2 r j := ⟨y 0, y 1, eq_ix2 y⟩
  refine (scale_block_apply _ _ r j).trans ?_
  have hr : r.val < 4000 := r.isLt
  have q0 : (((cfg2.win 2).blk t).view.emb (ix2 r j) 0).val = 4000 * t.val + r.val := by
    show win2_2.index t (0 : Fin 2) * 4000 + 1 * r.val = _; omega
  have q1 : (((cfg2.win 2).blk t).view.emb (ix2 r j) 1).val = j.val := by
    show win2_2.index t (1 : Fin 2) * 64 + 1 * j.val = _; omega
  rw [features_block_apply V c t (ix2 r j) (((cfg2.win 2).blk t).view.emb (ix2 r j)) q0 q1,
    column_block_apply V c t (ix2 r 0) (ix2 (((cfg2.win 2).blk t).view.emb (ix2 r j) 0) 0) q0]
  rfl

/-- An index of the result array lies in point t's block iff each coordinate lies in the block's range. -/
theorem mem_block (t : Fin cfg2.N) (i : Spec.SN64.Idx) :
    i ∈ ((cfg2.win 2).blk t).view.set ↔ ∀ a : Fin 2, win2_2.index t a * S4000x64.size a ≤ (i a).val
      ∧ (i a).val < win2_2.index t a * S4000x64.size a + S4000x64.size a := by
  show i ∈ ((View.whole main_v57).slice (win2_2.rect t)).set ↔ _
  rw [View.set_slice_whole, Rect.mem_set_unit]
  exact Iff.rfl

/-- Every entry of the result array is written: row p belongs to the block of point p / 4000. -/
theorem covered (i : Spec.SN64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hlt : (i 0).val / 4000 < cfg2.N := lt_of_lt_of_eq (by omega : (i 0).val / 4000 < 25) N_2.symm
  obtain ⟨-, -, -, -, e4, e5⟩ := block_index ⟨(i 0).val / 4000, hlt⟩
  have e4' : win2_2.index ⟨(i 0).val / 4000, hlt⟩ (0 : Fin 2) = (i 0).val / 4000 := e4
  refine ⟨⟨(i 0).val / 4000, hlt⟩, flush2_2 _, ?_⟩
  rw [mem_block]
  intro a
  match a with
  | ⟨0, _⟩ =>
    show win2_2.index ⟨(i 0).val / 4000, hlt⟩ (0 : Fin 2) * 4000 ≤ (i 0).val
      ∧ (i 0).val < win2_2.index ⟨(i 0).val / 4000, hlt⟩ (0 : Fin 2) * 4000 + 4000
    omega
  | ⟨1, _⟩ =>
    show win2_2.index ⟨(i 0).val / 4000, hlt⟩ (1 : Fin 2) * 64 ≤ (i 1).val
      ∧ (i 1).val < win2_2.index ⟨(i 0).val / 4000, hlt⟩ (1 : Fin 2) * 64 + 64
    omega

/-- The result array of the region: the features with every row scaled by its node's normaliser. -/
theorem final2 (c : Dev nD) :
    (dat2 (F := Ideal) V c).arrAt 2 cfg2.N = Spec.scaleRows (V c main_arg0) (Spec.uncol (V c main_v42)) :=
  (dat2 (F := Ideal) V c).arrAt_eq_of_cover 2 (Spec.scaleRows (V c main_arg0) (Spec.uncol (V c main_v42)))
    (fun t _ => flushed_eq V c t) covered

end Cert.Region2

end
-- ==== Proof.Region3.lean ====
/-
  The second of the two first-layer convolution tails, scaled for the next layer.  The region walks the
  100000 rows in 25 blocks of 4000.  At point t it reads block t of the aggregated rows, of the destination
  normaliser column and of the next layer's source normaliser column, and the whole weight matrix and bias
  row; block t of the result is, entry by entry,
      max (Σ_k (agg[r,k] · cd[r]) · W[k,j] + b[j]) 0 · cs[r].
  Here the 25 written blocks are assembled into one whole-array function.
-/
import proofs.«111492_j66975720014344_2_alg».proof.Proof.Gen.KernelIdeal.Frame
import proofs.«111492_j66975720014344_2_alg».proof.Proof.Spec
import proofs.«111492_j66975720014344_2_alg».proof.Proof.LibColumn
import proofs.«111492_j66975720014344_2_alg».proof.Proof.ConvCore
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.Region3

open Cert.KernelIdeal Cert.KernelIdeal.Gen

variable (V : (c : Dev nD) → (b : Ref sig .tc) → Buf (Elt Ideal) ((c : Thread nD τ).loc b))

/-- The zero offsets of a whole-block access, however they are spelt. -/
theorem zero_offsets : (![0, 0] : Fin 2 → Nat) = fun _ => 0 := funext fun a => by fin_cases a <;> rfl

/-- The block's arithmetic is the plain convolution tail's, then multiplied by the broadcast column. -/
theorem payload_split (v0 : Vec Ideal S4000x64 .f32) (v2 : Vec Ideal S4000x1 .f32) (v7 : Vec Ideal S64x64 .f32)
    (v10 : Vec Ideal S1x64 .f32) (v16 : Vec Ideal S4000x1 .f32) :
    k3_pay1 (F := Ideal) v0 v2 v7 v10 v16
      = mulf (k4_pay1 (F := Ideal) v0 v2 v7 v10)
          (broadcastTo S4000x64 (shapeCast S4000x1 v16 shapeCasts_S4000x1_S4000x1) broadcasts_S4000x1_S4000x64) := rfl

/-- One entry of a block of the result. -/
theorem conv_scaled_block_apply (v0 : Vec Ideal S4000x64 .f32) (v2 : Vec Ideal S4000x1 .f32)
    (v7 : Vec Ideal S64x64 .f32) (v10 : Vec Ideal S1x64 .f32) (v16 : Vec Ideal S4000x1 .f32) (r : Fin 4000) (j : Fin 64) :
    k3_pay1 (F := Ideal) v0 v2 v7 v10 v16 (ix2 r j)
      = max ((∑ k : Fin 64, (v0 (ix2 r k) * v2 (ix2 r 0)) * v7 (ix2 k j)) + v10 (ix2 0 j)) 0 * v16 (ix2 r 0) := by
  rw [payload_split, mulf_apply, shapeCast_self, ColumnIdx.broadcastTo_a1_ab_apply, Cert.ConvCore.conv_block_apply]

/-- Where the blocks sit: at point t the aggregated rows, the two normaliser columns and the result are at
    block (t, 0) of their arrays; the weight matrix and the bias row are one block each. -/
theorem block_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- The block of aggregated rows of point t holds rows 4000·t … 4000·t + 3999. -/
theorem agg_block_apply (c : Dev nD) (t : Fin cfg3.N) (y : S4000x64.Idx) (i : Spec.SN64.Idx)
    (h0 : (i 0).val = 4000 * t.val + (y 0).val) (h1 : (i 1).val = (y 1).val) :
    (iblk3 V c 0 t : Vec Ideal S4000x64 .f32) y = (V c main_v67 : FVec Ideal Spec.SN64 .f32) i := by
  obtain ⟨e0, e1, -⟩ := block_index t
  show V c main_v67 (((cfg3.win 0).blk t).view.emb y) = V c main_v67 i
  refine congrArg _ (funext fun a => Fin.ext ?_)
  match a with
  | ⟨0, _⟩ => show win3_0.index t (0 : Fin 2) * 4000 + 1 * (y 0).val = (i 0).val; omega
  | ⟨1, _⟩ => show win3_0.index t (1 : Fin 2) * 64 + 1 * (y 1).val = (i 1).val; omega

/-- The destination normaliser block of point t holds entries 4000·t … 4000·t + 3999 of its column. -/
theorem dst_block_apply (c : Dev nD) (t : Fin cfg3.N) (y : S4000x1.Idx) (i : Spec.SN1.Idx)
    (h0 : (i 0).val = 4000 * t.val + (y 0).val) :
    (iblk3 V c 1 t : Vec Ideal S4000x1 .f32) y = (V c main_v43 : FVec Ideal Spec.SN1 .f32) i := by
  obtain ⟨-, -, e2, e3, -⟩ := block_index t
  show V c main_v43 (((cfg3.win 1).blk t).view.emb y) = V c main_v43 i
  refine congrArg _ (funext fun a => Fin.ext ?_)
  match a with
  | ⟨0, _⟩ => show win3_1.index t (0 : Fin 2) * 4000 + 1 * (y 0).val = (i 0).val; omega
  | ⟨1, _⟩ =>
    show win3_1.index t (1 : Fin 2) * 1 + 1 * (y 1).val = (i 1).val
    have hy : (y 1).val < 1 := (y 1).isLt
    have hi : (i 1).val < 1 := (i 1).isLt
    omega

/-- The weight block is the whole weight matrix at every point. -/
theorem weight_block_apply (c : Dev nD) (t : Fin cfg3.N) (y : S64x64.Idx) (i : Spec.SW.Idx)
    (h0 : (i 0).val = (y 0).val) (h1 : (i 1).val = (y 1).val) :
    (iblk3 V c 2 t : Vec Ideal S64x64 .f32) y = (V c main_arg3 : FVec Ideal Spec.SW .f32) i := by
  obtain ⟨-, -, -, -, e4, e5, -⟩ := block_index t
  show V c main_arg3 (((cfg3.win 2).blk t).view.emb y) = V c main_arg3 i
  refine congrArg _ (funext fun a => Fin.ext ?_)
  match a with
  | ⟨0, _⟩ => show win3_2.index t (0 : Fin 2) * 64 + 1 * (y 0).val = (i 0).val; omega
  | ⟨1, _⟩ => show win3_2.index t (1 : Fin 2) * 64 + 1 * (y 1).val = (i 1).val; omega

/-- The bias block is the whole bias row at every point. -/
theorem bias_block_apply (c : Dev nD) (t : Fin cfg3.N) (y : S1x64.Idx) (i : Spec.SB2.Idx)
    (h1 : (i 1).val = (y 1).val) :
    (iblk3 V c 3 t : Vec Ideal S1x64 .f32) y = (V c main_v68 : FVec Ideal Spec.SB2 .f32) i := by
  obtain ⟨-, -, -, -, -, -, e6, e7, -⟩ := block_index t
  show V c main_v68 (((cfg3.win 3).blk t).view.emb y) = V c main_v68 i
  refine congrArg _ (funext fun a => Fin.ext ?_)
  match a with
  | ⟨0, _⟩ =>
    show win3_3.index t (0 : Fin 2) * 1 + 1 * (y 0).val = (i 0).val
    have hy : (y 0).val < 1 := (y 0).isLt
    have hi : (i 0).val < 1 := (i 0).isLt
    omega
  | ⟨1, _⟩ => show win3_3.index t (1 : Fin 2) * 64 + 1 * (y 1).val = (i 1).val; omega

/-- The next layer's source normaliser block of point t holds entries 4000·t … 4000·t + 3999 of its column. -/
theorem src_block_apply (c : Dev nD) (t : Fin cfg3.N) (y : S4000x1.Idx) (i : Spec.SN1.Idx)
    (h0 : (i 0).val = 4000 * t.val + (y 0).val) :
    (iblk3 V c 4 t : Vec Ideal S4000x1 .f32) y = (V c main_v42 : FVec Ideal Spec.SN1 .f32) i := by
  obtain ⟨-, -, -, -, -, -, -, -, e8, e9, -⟩ := block_index t
  show V c main_v42 (((cfg3.win 4).blk t).view.emb y) = V c main_v42 i
  refine congrArg _ (funext fun a => Fin.ext ?_)
  match a with
  | ⟨0, _⟩ => show win3_4.index t (0 : Fin 2) * 4000 + 1 * (y 0).val = (i 0).val; omega
  | ⟨1, _⟩ =>
    show win3_4.index t (1 : Fin 2) * 1 + 1 * (y 1).val = (i 1).val
    have hy : (y 1).val < 1 := (y 1).isLt
    have hi : (i 1).val < 1 := (i 1).isLt
    omega

/-- The result's block of point t sits at rows 4000·t … 4000·t + 3999, all 64 columns. -/
theorem out_block_emb (t : Fin cfg3.N) (r : Fin 4000) (j : Fin 64) (p : Fin 100000) (hp : p.val = 4000 * t.val + r.val) :
    ((cfg3.win 5).blk t).view.emb (ix2 r j) = (ix2 p j : Spec.SN64.Idx) := by
  obtain ⟨-, -, -, -, -, -, -, -, -, -, e10, e11⟩ := block_index t
  refine funext fun a => Fin.ext ?_
  match a with
  | ⟨0, _⟩ => show win3_5.index t (0 : Fin 2) * 4000 + 1 * r.val = p.val; omega
  | ⟨1, _⟩ => show win3_5.index t (1 : Fin 2) * 64 + 1 * j.val = j.val; omega

/-- What point t writes back is block t of the scaled convolution tail. -/
theorem flushed_eq (c : Dev nD) (t : Fin cfg3.N) :
    (dat3 (F := Ideal) V c).flushed 5 t
      = ((cfg3.win 5).blk t).view.read (Elt Ideal) (Spec.convScaled (V c main_v67) (Spec.uncol (V c main_v43))
          (V c main_arg3) (Spec.unrow (V c main_v68)) (Spec.uncol (V c main_v42))) := by
  show (cfg3.win 5).cut (grid3.coords t) ((dat3 (F := Ideal) V c).after 5 t) = _
  rw [after3_5]
  unfold out3_5
  rw [View.canon_unit_zero zero_offsets]
  simp only [View.ld_unit_zero (S := S4000x64) zero_offsets, View.ld_unit_zero (S := S4000x1) zero_offsets,
    View.ld_unit_zero (S := S64x64) zero_offsets, View.ld_unit_zero (S := S1x64) zero_offsets]
  funext y
  obtain ⟨r, j, rfl⟩ : ∃ (r : Fin 4000) (j : Fin 64), y = ix2 r j := ⟨y 0, y 1, eq_ix2 y⟩
  refine (conv_scaled_block_apply _ _ _ _ _ r j).trans ?_
  have hr : r.val < 4000 := r.isLt
  have ht : t.val < 25 := lt_of_lt_of_eq t.isLt N_3
  have hi := out_block_emb t r j ⟨4000 * t.val + r.val, by omega⟩ rfl
  refine Eq.trans ?_ (congrArg (Spec.convScaled (V c main_v67) (Spec.uncol (V c main_v43))
          (V c main_arg3) (Spec.unrow (V c main_v68)) (Spec.uncol (V c main_v42))) hi.symm)
  have hA : ∀ k : Fin 64, (iblk3 V c 0 t : Vec Ideal S4000x64 .f32) (ix2 r k)
      = (V c main_v67 : FVec Ideal Spec.SN64 .f32) (ix2 (⟨4000 * t.val + r.val, by omega⟩ : Fin 100000) k) :=
    fun k => agg_block_apply V c t (ix2 r k) _ rfl rfl
  have hW : ∀ k : Fin 64, (iblk3 V c 2 t : Vec Ideal S64x64 .f32) (ix2 k j)
      = (V c main_arg3 : FVec Ideal Spec.SW .f32) (ix2 k j) :=
    fun k => weight_block_apply V c t (ix2 k j) _ rfl rfl
  rw [dst_block_apply V c t (ix2 r 0) (ix2 (⟨4000 * t.val + r.val, by omega⟩ : Fin 100000) 0) rfl,
    bias_block_apply V c t (ix2 0 j) (ix2 0 j) rfl,
    src_block_apply V c t (ix2 r 0) (ix2 (⟨4000 * t.val + r.val, by omega⟩ : Fin 100000) 0) rfl]
  simp only [hA, hW]
  rfl

/-- An index of the result array lies in point t's block iff each coordinate lies in the block's range. -/
theorem mem_block (t : Fin cfg3.N) (i : Spec.SN64.Idx) :
    i ∈ ((cfg3.win 5).blk t).view.set ↔ ∀ a : Fin 2, win3_5.index t a * S4000x64.size a ≤ (i a).val
      ∧ (i a).val < win3_5.index t a * S4000x64.size a + S4000x64.size a := by
  show i ∈ ((View.whole main_v69).slice (win3_5.rect t)).set ↔ _
  rw [View.set_slice_whole, Rect.mem_set_unit]
  exact Iff.rfl

/-- Every entry of the result array is written: row p belongs to the block of point p / 4000. -/
theorem covered (i : Spec.SN64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hlt : (i 0).val / 4000 < cfg3.N := lt_of_lt_of_eq (by omega : (i 0).val / 4000 < 25) N_3.symm
  obtain ⟨-, -, -, -, -, -, -, -, -, -, e10, e11⟩ := block_index ⟨(i 0).val / 4000, hlt⟩
  have e10' : win3_5.index ⟨(i 0).val / 4000, hlt⟩ (0 : Fin 2) = (i 0).val / 4000 := e10
  refine ⟨⟨(i 0).val / 4000, hlt⟩, flush3_5 _, ?_⟩
  rw [mem_block]
  intro a
  match a with
  | ⟨0, _⟩ =>
    show win3_5.index ⟨(i 0).val / 4000, hlt⟩ (0 : Fin 2) * 4000 ≤ (i 0).val
      ∧ (i 0).val < win3_5.index ⟨(i 0).val / 4000, hlt⟩ (0 : Fin 2) * 4000 + 4000
    omega
  | ⟨1, _⟩ =>
    show win3_5.index ⟨(i 0).val / 4000, hlt⟩ (1 : Fin 2) * 64 ≤ (i 1).val
      ∧ (i 1).val < win3_5.index ⟨(i 0).val / 4000, hlt⟩ (1 : Fin 2) * 64 + 64
    omega

/-- The result array of the region: the convolution tail of the aggregated rows, every row then scaled by its
    node's source normaliser of the next layer. -/
theorem final3 (c : Dev nD) :
    (dat3 (F := Ideal) V c).arrAt 5 cfg3.N = Spec.convScaled (V c main_v67) (Spec.uncol (V c main_v43))
      (V c main_arg3) (Spec.unrow (V c main_v68)) (Spec.uncol (V c main_v42)) :=
  (dat3 (F := Ideal) V c).arrAt_eq_of_cover 5 (Spec.convScaled (V c main_v67) (Spec.uncol (V c main_v43))
      (V c main_arg3) (Spec.unrow (V c main_v68)) (Spec.uncol (V c main_v42)))
    (fun t _ => flushed_eq V c t) covered

end Cert.Region3

end
-- ==== Proof.Region4.lean ====
/-
  The fourth tiled region: the convolution tail of the positive stream's second layer, as one function of
  whole arrays.

  The region walks 25 points; point t stages rows 4000·t … 4000·t + 3999 of the aggregated features and of
  the destination normaliser, the whole weight matrix and the whole bias row, computes the convolution
  tail of that block, and writes it back as rows 4000·t … 4000·t + 3999 of the result.  Every row of the
  result lies in exactly the block of point (row / 4000), so the result array is the convolution tail of
  the whole arrays, index by index.
-/
import proofs.«111492_j66975720014344_2_alg».proof.Proof.Gen.KernelIdeal.Frame
import proofs.«111492_j66975720014344_2_alg».proof.Proof.Spec
import proofs.«111492_j66975720014344_2_alg».proof.Proof.ConvCore
import Idealize.ShloMosaic.Lib.Pipeline.Value

noncomputable section

namespace Cert.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The origin of a whole-block rectangle. -/
theorem origin : (![0, 0] : Fin 2 → Nat) = fun _ => 0 := funext fun a => by fin_cases a <;> rfl

/-- Where each window's block sits at point `t`: the two row-blocked inputs and the output at block row `t`,
    block column 0; the weights and the bias row at block (0, 0). -/
theorem blockIndex : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- One entry of one block: if the staged rows are rows of the whole arrays, the block's convolution tail at
    `(r, j)` is the whole arrays' at `(R, j)`, `R` the row that `r` stages. -/
theorem entry_eq (A : FVec Ideal Spec.SN64 .f32) (C : FVec Ideal Spec.SN1 .f32) (W : FVec Ideal Spec.SW .f32)
    (B : FVec Ideal Spec.SB2 .f32)
    (x0 : Vec Ideal S4000x64 .f32) (x1 : Vec Ideal S4000x1 .f32) (x2 : Vec Ideal S64x64 .f32) (x3 : Vec Ideal S1x64 .f32)
    (r : Fin 4000) (j : Fin 64) (R : Fin 100000)
    (h0 : ∀ k : Fin 64, x0 (ix2 r k) = A (ix2 R k))
    (h1 : x1 (ix2 r 0) = C (ix2 R 0))
    (h2 : ∀ k : Fin 64, x2 (ix2 k j) = W (ix2 k j))
    (h3 : x3 (ix2 0 j) = B (ix2 0 j)) :
    k4_pay1 (F := Ideal) x0 x1 x2 x3 (ix2 r j) = Spec.conv A (Spec.uncol C) W (Spec.unrow B) (ix2 R j) := by
  rw [ConvCore.conv_block_apply]
  show _ = max ((∑ k : Fin 64, (A (ix2 R k) * C (ix2 R 0)) * W (ix2 k j)) + B (ix2 0 j)) 0
  simp only [h0, h1, h2, h3]

/-- The same, for a block entry `y` and an array entry `i` in the same column, the weights and the bias row staged
    whole. -/
theorem block_entry (A : FVec Ideal Spec.SN64 .f32) (C : FVec Ideal Spec.SN1 .f32) (W : FVec Ideal Spec.SW .f32)
    (B : FVec Ideal Spec.SB2 .f32)
    (x0 : Vec Ideal S4000x64 .f32) (x1 : Vec Ideal S4000x1 .f32) (x2 : Vec Ideal S64x64 .f32) (x3 : Vec Ideal S1x64 .f32)
    (y : S4000x64.Idx) (i : S100000x64.Idx) (hj : (i 1).val = (y 1).val)
    (h0 : ∀ k : Fin 64, x0 (ix2 (y 0) k) = A (ix2 (i 0) k))
    (h1 : x1 (ix2 (y 0) 0) = C (ix2 (i 0) 0))
    (h2 : x2 = W) (h3 : x3 = B) :
    k4_pay1 (F := Ideal) x0 x1 x2 x3 y = Spec.conv A (Spec.uncol C) W (Spec.unrow B) i := by
  subst h2 h3
  obtain ⟨r, j, rfl⟩ : ∃ (r : Fin 4000) (j : Fin 64), y = ix2 r j := ⟨y 0, y 1, eq_ix2 y⟩
  obtain ⟨R, J, rfl⟩ : ∃ (R : Fin 100000) (J : Fin 64), i = ix2 R J := ⟨i 0, i 1, eq_ix2 i⟩
  obtain rfl : J = j := Fin.ext hj
  exact entry_eq A C x2 x3 x0 x1 x2 x3 r J R h0 h1 (fun _ => rfl) rfl

/-- Point `t`'s staged block of the aggregated features is rows `4000·t …` of the whole array. -/
theorem rows_read (c : Dev nD) (t : Fin cfg4.N) (y : S4000x64.Idx) (i : S100000x64.Idx)
    (hi0 : (i 0).val = 4000 * t.val + (y 0).val) (hi1 : (i 1).val = (y 1).val) :
    (iblk4 (F := Ideal) V c 0 t : Vec Ideal S4000x64 .f32) y = (V c main_v79 : S100000x64.Idx → EReal) i := by
  obtain ⟨e0, e1, -⟩ := blockIndex t
  show V c main_v79 (((cfg4.win 0).blk t).view.emb y) = V c main_v79 i
  refine congrArg (V c main_v79) (funext fun a => Fin.ext ?_)
  match a with
  | ⟨0, _⟩ => show win4_0.index t (0 : Fin 2) * 4000 + 1 * (y 0).val = (i 0).val; omega
  | ⟨1, _⟩ => show win4_0.index t (1 : Fin 2) * 64 + 1 * (y 1).val = (i 1).val; omega

/-- Point `t`'s staged block of the normaliser column is rows `4000·t …` of the whole column. -/
theorem column_read (c : Dev nD) (t : Fin cfg4.N) (y : S4000x1.Idx) (i : S100000x1.Idx)
    (hi0 : (i 0).val = 4000 * t.val + (y 0).val) :
    (iblk4 (F := Ideal) V c 1 t : Vec Ideal S4000x1 .f32) y = (V c main_v41 : S100000x1.Idx → EReal) i := by
  obtain ⟨-, -, e2, e3, -⟩ := blockIndex t
  show V c main_v41 (((cfg4.win 1).blk t).view.emb y) = V c main_v41 i
  refine congrArg (V c main_v41) (funext fun a => Fin.ext ?_)
  match a with
  | ⟨0, _⟩ => show win4_1.index t (0 : Fin 2) * 4000 + 1 * (y 0).val = (i 0).val; omega
  | ⟨1, _⟩ =>
    show win4_1.index t (1 : Fin 2) * 1 + 1 * (y 1).val = (i 1).val
    have hy : (y 1).val < 1 := (y 1).isLt
    have hi : (i 1).val < 1 := (i 1).isLt
    omega

/-- The weight matrix is staged whole at every point. -/
theorem weights_read (c : Dev nD) (t : Fin cfg4.N) :
    (iblk4 (F := Ideal) V c 2 t : Vec Ideal S64x64 .f32) = (V c main_arg5 : S64x64.Idx → EReal) := by
  obtain ⟨-, -, -, -, e4, e5, -⟩ := blockIndex t
  funext y
  show V c main_arg5 (((cfg4.win 2).blk t).view.emb y) = V c main_arg5 y
  refine congrArg (V c main_arg5) (funext fun a => Fin.ext ?_)
  match a with
  | ⟨0, _⟩ => show win4_2.index t (0 : Fin 2) * 64 + 1 * (y 0).val = (y 0).val; omega
  | ⟨1, _⟩ => show win4_2.index t (1 : Fin 2) * 64 + 1 * (y 1).val = (y 1).val; omega

/-- The bias row is staged whole at every point. -/
theorem bias_read (c : Dev nD) (t : Fin cfg4.N) :
    (iblk4 (F := Ideal) V c 3 t : Vec Ideal S1x64 .f32) = (V c main_v80 : S1x64.Idx → EReal) := by
  obtain ⟨-, -, -, -, -, -, e6, e7, -⟩ := blockIndex t
  funext y
  show V c main_v80 (((cfg4.win 3).blk t).view.emb y) = V c main_v80 y
  refine congrArg (V c main_v80) (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- What point `t` writes back is block `t` of the convolution tail of the whole arrays. -/
theorem flushed_eq (c : Dev nD) (t : Fin cfg4.N) :
    (dat4 (F := Ideal) V c).flushed 4 t = ((cfg4.win 4).blk t).view.read (Elt Ideal)
      (Spec.conv (V c main_v79) (Spec.uncol (V c main_v41)) (V c main_arg5) (Spec.unrow (V c main_v80))) := by
  show (cfg4.win 4).cut (grid4.coords t) ((dat4 V c).after 4 t) = _
  rw [after4_4]
  unfold out4_4
  rw [View.canon_unit_zero origin]
  simp only [View.ld_unit_zero (S := S4000x64) origin, View.ld_unit_zero (S := S4000x1) origin,
    View.ld_unit_zero (S := S64x64) origin, View.ld_unit_zero (S := S1x64) origin]
  obtain ⟨-, -, -, -, -, -, -, -, e8, e9⟩ := blockIndex t
  funext y
  show k4_pay1 (F := Ideal) (iblk4 V c 0 t) (iblk4 V c 1 t) (iblk4 V c 2 t) (iblk4 V c 3 t) y
    = Spec.conv (V c main_v79) (Spec.uncol (V c main_v41)) (V c main_arg5) (Spec.unrow (V c main_v80))
        (((cfg4.win 4).blk t).view.emb y)
  have hrow : ((((cfg4.win 4).blk t).view.emb y) 0).val = 4000 * t.val + (y 0).val := by
    show win4_4.index t (0 : Fin 2) * 4000 + 1 * (y 0).val = _
    omega
  have hcol : ((((cfg4.win 4).blk t).view.emb y) 1).val = (y 1).val := by
    show win4_4.index t (1 : Fin 2) * 64 + 1 * (y 1).val = _
    omega
  exact block_entry (V c main_v79) (V c main_v41) (V c main_arg5) (V c main_v80) _ _ _ _ y _ hcol
    (fun k => rows_read V c t _ _ hrow rfl) (column_read V c t _ _ hrow) (weights_read V c t) (bias_read V c t)

/-- An entry of the result array is in point `t`'s block iff each coordinate is in the block's range. -/
theorem mem_block (t : Fin cfg4.N) (i : S100000x64.Idx) :
    i ∈ ((cfg4.win 4).blk t).view.set ↔ ∀ a : Fin 2, win4_4.index t a * S4000x64.size a ≤ (i a).val
      ∧ (i a).val < win4_4.index t a * S4000x64.size a + S4000x64.size a := by
  show i ∈ ((View.whole main_v81).slice (win4_4.rect t)).set ↔ _
  rw [View.set_slice_whole, Rect.mem_set_unit]
  exact Iff.rfl

/-- Every entry of the result array is in the block of the point its row divided by 4000 names. -/
theorem covered (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 25 := N_4
  let t : Fin cfg4.N := ⟨(i 0).val / 4000, by rw [hN]; omega⟩
  obtain ⟨-, -, -, -, -, -, -, -, e8, e9⟩ := blockIndex t
  have ht : t.val = (i 0).val / 4000 := rfl
  refine ⟨t, flush4_4 t, ?_⟩
  rw [mem_block]
  intro a
  match a with
  | ⟨0, _⟩ =>
    show win4_4.index t (0 : Fin 2) * 4000 ≤ (i 0).val ∧ (i 0).val < win4_4.index t (0 : Fin 2) * 4000 + 4000
    omega
  | ⟨1, _⟩ =>
    show win4_4.index t (1 : Fin 2) * 64 ≤ (i 1).val ∧ (i 1).val < win4_4.index t (1 : Fin 2) * 64 + 64
    omega

/-- The result array of the region is the convolution tail of the whole arrays it reads. -/
theorem final4 (c : Dev nD) :
    (dat4 (F := Ideal) V c).arrAt 4 cfg4.N
      = Spec.conv (V c main_v79) (Spec.uncol (V c main_v41)) (V c main_arg5) (Spec.unrow (V c main_v80)) :=
  (dat4 (F := Ideal) V c).arrAt_eq_of_cover 4
    (Spec.conv (V c main_v79) (Spec.uncol (V c main_v41)) (V c main_arg5) (Spec.unrow (V c main_v80)))
    (fun t _ => flushed_eq V c t) covered

end Cert.Region4

end
-- ==== Proof.Region5.lean ====
/-
  The second-layer tail that ends the node embedding: the positive stream's embedding minus the convolution
  tail of the negative stream's aggregated rows.  The region walks the 100000 rows in 25 blocks of 4000.  At
  point t it reads block t of the aggregated rows, of the destination normaliser column and of the positive
  stream's embedding, and the whole weight matrix and bias row; block t of the result is, entry by entry,
      zp[r,j] - max (Σ_k (agg[r,k] · cd[r]) · W[k,j] + b[j]) 0.
  The region writes the result twice: once as it is and once narrowed to a shorter float format, which over
  the extended reals is the same array.  Here the 25 written blocks of each are assembled into one
  whole-array function.
-/
import proofs.«111492_j66975720014344_2_alg».proof.Proof.Gen.KernelIdeal.Frame
import proofs.«111492_j66975720014344_2_alg».proof.Proof.Spec
import proofs.«111492_j66975720014344_2_alg».proof.Proof.LibColumn
import proofs.«111492_j66975720014344_2_alg».proof.Proof.ConvCore
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.Region5

open Cert.KernelIdeal Cert.KernelIdeal.Gen

variable (V : (c : Dev nD) → (b : Ref sig .tc) → Buf (Elt Ideal) ((c : Thread nD τ).loc b))

/-- The zero offsets of a whole-block access, however they are spelt. -/
theorem zero_offsets : (![0, 0] : Fin 2 → Nat) = fun _ => 0 := funext fun a => by fin_cases a <;> rfl

/-- The block's arithmetic is the positive stream's block minus the plain convolution tail. -/
theorem payload_split (v0 : Vec Ideal S4000x64 .f32) (v2 : Vec Ideal S4000x1 .f32) (v7 : Vec Ideal S64x64 .f32)
    (v10 : Vec Ideal S1x64 .f32) (v16 : Vec Ideal S4000x64 .f32) :
    k5_pay1 (F := Ideal) v0 v2 v7 v10 v16
      = subf (shapeCast S4000x64 v16 shapeCasts_S4000x64_S4000x64) (k4_pay1 (F := Ideal) v0 v2 v7 v10) := rfl

/-- One entry of a block of the result. -/
theorem conv_sub_block_apply (v0 : Vec Ideal S4000x64 .f32) (v2 : Vec Ideal S4000x1 .f32)
    (v7 : Vec Ideal S64x64 .f32) (v10 : Vec Ideal S1x64 .f32) (v16 : Vec Ideal S4000x64 .f32) (r : Fin 4000) (j : Fin 64) :
    k5_pay1 (F := Ideal) v0 v2 v7 v10 v16 (ix2 r j)
      = v16 (ix2 r j) - max ((∑ k : Fin 64, (v0 (ix2 r k) * v2 (ix2 r 0)) * v7 (ix2 k j)) + v10 (ix2 0 j)) 0 := by
  rw [payload_split, subf_apply, shapeCast_self, Cert.ConvCore.conv_block_apply]

/-- The narrowed copy of a block has the same entries: narrowing is the identity on extended reals. -/
theorem copy_block_apply (v0 : Vec Ideal S4000x64 .f32) (v2 : Vec Ideal S4000x1 .f32)
    (v7 : Vec Ideal S64x64 .f32) (v10 : Vec Ideal S1x64 .f32) (v16 : Vec Ideal S4000x64 .f32) (r : Fin 4000) (j : Fin 64) :
    (k5_pay2 (F := Ideal) v0 v2 v7 v10 v16 (ix2 r j) : EReal)
      = v16 (ix2 r j) - max ((∑ k : Fin 64, (v0 (ix2 r k) * v2 (ix2 r 0)) * v7 (ix2 k j)) + v10 (ix2 0 j)) 0 :=
  conv_sub_block_apply v0 v2 v7 v10 v16 r j

/-- Where the blocks sit: at point t the aggregated rows, the normaliser column, the positive stream's
    embedding and the two results are at block (t, 0) of their arrays; the weight matrix and the bias row are
    one block each. -/
theorem block_index : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- The block of aggregated rows of point t holds rows 4000·t … 4000·t + 3999. -/
theorem agg_block_apply (c : Dev nD) (t : Fin cfg5.N) (y : S4000x64.Idx) (i : Spec.SN64.Idx)
    (h0 : (i 0).val = 4000 * t.val + (y 0).val) (h1 : (i 1).val = (y 1).val) :
    (iblk5 V c 0 t : Vec Ideal S4000x64 .f32) y = (V c main_v91 : FVec Ideal Spec.SN64 .f32) i := by
  obtain ⟨e0, e1, -⟩ := block_index t
  show V c main_v91 (((cfg5.win 0).blk t).view.emb y) = V c main_v91 i
  refine congrArg _ (funext fun a => Fin.ext ?_)
  match a with
  | ⟨0, _⟩ => show win5_0.index t (0 : Fin 2) * 4000 + 1 * (y 0).val = (i 0).val; omega
  | ⟨1, _⟩ => show win5_0.index t (1 : Fin 2) * 64 + 1 * (y 1).val = (i 1).val; omega

/-- The destination normaliser block of point t holds entries 4000·t … 4000·t + 3999 of its column. -/
theorem dst_block_apply (c : Dev nD) (t : Fin cfg5.N) (y : S4000x1.Idx) (i : Spec.SN1.Idx)
    (h0 : (i 0).val = 4000 * t.val + (y 0).val) :
    (iblk5 V c 1 t : Vec Ideal S4000x1 .f32) y = (V c main_v43 : FVec Ideal Spec.SN1 .f32) i := by
  obtain ⟨-, -, e2, e3, -⟩ := block_index t
  show V c main_v43 (((cfg5.win 1).blk t).view.emb y) = V c main_v43 i
  refine congrArg _ (funext fun a => Fin.ext ?_)
  match a with
  | ⟨0, _⟩ => show win5_1.index t (0 : Fin 2) * 4000 + 1 * (y 0).val = (i 0).val; omega
  | ⟨1, _⟩ =>
    show win5_1.index t (1 : Fin 2) * 1 + 1 * (y 1).val = (i 1).val
    have hy : (y 1).val < 1 := (y 1).isLt
    have hi : (i 1).val < 1 := (i 1).isLt
    omega

/-- The weight block is the whole weight matrix at every point. -/
theorem weight_block_apply (c : Dev nD) (t : Fin cfg5.N) (y : S64x64.Idx) (i : Spec.SW.Idx)
    (h0 : (i 0).val = (y 0).val) (h1 : (i 1).val = (y 1).val) :
    (iblk5 V c 2 t : Vec Ideal S64x64 .f32) y = (V c main_arg7 : FVec Ideal Spec.SW .f32) i := by
  obtain ⟨-, -, -, -, e4, e5, -⟩ := block_index t
  show V c main_arg7 (((cfg5.win 2).blk t).view.emb y) = V c main_arg7 i
  refine congrArg _ (funext fun a => Fin.ext ?_)
  match a with
  | ⟨0, _⟩ => show win5_2.index t (0 : Fin 2) * 64 + 1 * (y 0).val = (i 0).val; omega
  | ⟨1, _⟩ => show win5_2.index t (1 : Fin 2) * 64 + 1 * (y 1).val = (i 1).val; omega

/-- The bias block is the whole bias row at every point. -/
theorem bias_block_apply (c : Dev nD) (t : Fin cfg5.N) (y : S1x64.Idx) (i : Spec.SB2.Idx)
    (h1 : (i 1).val = (y 1).val) :
    (iblk5 V c 3 t : Vec Ideal S1x64 .f32) y = (V c main_v92 : FVec Ideal Spec.SB2 .f32) i := by
  obtain ⟨-, -, -, -, -, -, e6, e7, -⟩ := block_index t
  show V c main_v92 (((cfg5.win 3).blk t).view.emb y) = V c main_v92 i
  refine congrArg _ (funext fun a => Fin.ext ?_)
  match a with
  | ⟨0, _⟩ =>
    show win5_3.index t (0 : Fin 2) * 1 + 1 * (y 0).val = (i 0).val
    have hy : (y 0).val < 1 := (y 0).isLt
    have hi : (i 0).val < 1 := (i 0).isLt
    omega
  | ⟨1, _⟩ => show win5_3.index t (1 : Fin 2) * 64 + 1 * (y 1).val = (i 1).val; omega

/-- The positive stream's block of point t holds rows 4000·t … 4000·t + 3999 of its embedding. -/
theorem pos_block_apply (c : Dev nD) (t : Fin cfg5.N) (y : S4000x64.Idx) (i : Spec.SN64.Idx)
    (h0 : (i 0).val = 4000 * t.val + (y 0).val) (h1 : (i 1).val = (y 1).val) :
    (iblk5 V c 4 t : Vec Ideal S4000x64 .f32) y = (V c main_v81 : FVec Ideal Spec.SN64 .f32) i := by
  obtain ⟨-, -, -, -, -, -, -, -, e8, e9, -⟩ := block_index t
  show V c main_v81 (((cfg5.win 4).blk t).view.emb y) = V c main_v81 i
  refine congrArg _ (funext fun a => Fin.ext ?_)
  match a with
  | ⟨0, _⟩ => show win5_4.index t (0 : Fin 2) * 4000 + 1 * (y 0).val = (i 0).val; omega
  | ⟨1, _⟩ => show win5_4.index t (1 : Fin 2) * 64 + 1 * (y 1).val = (i 1).val; omega

/-- Entry (r, j) of point t's result block, from the blocks it reads, is entry (4000·t + r, j) of the
    whole-array function. -/
theorem block_value (c : Dev nD) (t : Fin cfg5.N) (r : Fin 4000) (j : Fin 64) (p : Fin 100000)
    (hp : p.val = 4000 * t.val + r.val)
    (x0 : Vec Ideal S4000x64 .f32) (x1 : Vec Ideal S4000x1 .f32) (x2 : Vec Ideal S64x64 .f32)
    (x3 : Vec Ideal S1x64 .f32) (x4 : Vec Ideal S4000x64 .f32)
    (h0 : x0 = iblk5 V c 0 t) (h1 : x1 = iblk5 V c 1 t) (h2 : x2 = iblk5 V c 2 t) (h3 : x3 = iblk5 V c 3 t)
    (h4 : x4 = iblk5 V c 4 t) :
    x4 (ix2 r j) - max ((∑ k : Fin 64, (x0 (ix2 r k) * x1 (ix2 r 0)) * x2 (ix2 k j)) + x3 (ix2 0 j)) 0
      = (Spec.convSub (V c main_v91) (Spec.uncol (V c main_v43)) (V c main_arg7) (Spec.unrow (V c main_v92)) (V c main_v81)) (ix2 p j) := by
  have hA : ∀ k : Fin 64, x0 (ix2 r k) = (V c main_v91 : FVec Ideal Spec.SN64 .f32) (ix2 p k) :=
    fun k => h0 ▸ agg_block_apply V c t (ix2 r k) (ix2 p k) hp rfl
  have hW : ∀ k : Fin 64, x2 (ix2 k j) = (V c main_arg7 : FVec Ideal Spec.SW .f32) (ix2 k j) :=
    fun k => h2 ▸ weight_block_apply V c t (ix2 k j) (ix2 k j) rfl rfl
  have hD : x1 (ix2 r 0) = (V c main_v43 : FVec Ideal Spec.SN1 .f32) (ix2 p 0) :=
    h1 ▸ dst_block_apply V c t (ix2 r 0) (ix2 p 0) hp
  have hB : x3 (ix2 0 j) = (V c main_v92 : FVec Ideal Spec.SB2 .f32) (ix2 0 j) :=
    h3 ▸ bias_block_apply V c t (ix2 0 j) (ix2 0 j) rfl
  have hP : x4 (ix2 r j) = (V c main_v81 : FVec Ideal Spec.SN64 .f32) (ix2 p j) :=
    h4 ▸ pos_block_apply V c t (ix2 r j) (ix2 p j) hp rfl
  rw [hD, hB, hP]
  simp only [hA, hW]
  rfl

/-- The result's block of point t sits at rows 4000·t … 4000·t + 3999, all 64 columns. -/
theorem out_block_emb5 (t : Fin cfg5.N) (r : Fin 4000) (j : Fin 64) (p : Fin 100000) (hp : p.val = 4000 * t.val + r.val) :
    ((cfg5.win 5).blk t).view.emb (ix2 r j) = (ix2 p j : Spec.SN64.Idx) := by
  obtain ⟨-, -, -, -, -, -, -, -, -, -, e10, e11, e12, e13⟩ := block_index t
  refine funext fun a => Fin.ext ?_
  match a with
  | ⟨0, _⟩ => show win5_5.index t (0 : Fin 2) * 4000 + 1 * r.val = p.val; omega
  | ⟨1, _⟩ => show win5_5.index t (1 : Fin 2) * 64 + 1 * j.val = j.val; omega

/-- The narrowed copy's block of point t sits at rows 4000·t … 4000·t + 3999, all 64 columns. -/
theorem out_block_emb6 (t : Fin cfg5.N) (r : Fin 4000) (j : Fin 64) (p : Fin 100000) (hp : p.val = 4000 * t.val + r.val) :
    ((cfg5.win 6).blk t).view.emb (ix2 r j) = (ix2 p j : Spec.SN64.Idx) := by
  obtain ⟨-, -, -, -, -, -, -, -, -, -, e10, e11, e12, e13⟩ := block_index t
  refine funext fun a => Fin.ext ?_
  match a with
  | ⟨0, _⟩ => show win5_6.index t (0 : Fin 2) * 4000 + 1 * r.val = p.val; omega
  | ⟨1, _⟩ => show win5_6.index t (1 : Fin 2) * 64 + 1 * j.val = j.val; omega

/-- What point t writes back to the result is block t of the whole-array function. -/
theorem flushed_eq (c : Dev nD) (t : Fin cfg5.N) :
    (dat5 (F := Ideal) V c).flushed 5 t
      = ((cfg5.win 5).blk t).view.read (Elt Ideal) (Spec.convSub (V c main_v91) (Spec.uncol (V c main_v43)) (V c main_arg7) (Spec.unrow (V c main_v92)) (V c main_v81)) := by
  show (cfg5.win 5).cut (grid5.coords t) ((dat5 (F := Ideal) V c).after 5 t) = _
  rw [after5_5]
  unfold out5_5
  rw [View.canon_unit_zero zero_offsets]
  simp only [View.ld_unit_zero (S := S4000x64) zero_offsets, View.ld_unit_zero (S := S4000x1) zero_offsets,
    View.ld_unit_zero (S := S64x64) zero_offsets, View.ld_unit_zero (S := S1x64) zero_offsets]
  funext y
  obtain ⟨r, j, rfl⟩ : ∃ (r : Fin 4000) (j : Fin 64), y = ix2 r j := ⟨y 0, y 1, eq_ix2 y⟩
  refine (conv_sub_block_apply _ _ _ _ _ r j).trans ?_
  have hr : r.val < 4000 := r.isLt
  have ht : t.val < 25 := lt_of_lt_of_eq t.isLt N_5
  have hi := out_block_emb5 t r j ⟨4000 * t.val + r.val, by omega⟩ rfl
  refine Eq.trans ?_ (congrArg (Spec.convSub (V c main_v91) (Spec.uncol (V c main_v43)) (V c main_arg7) (Spec.unrow (V c main_v92)) (V c main_v81)) hi.symm)
  exact block_value V c t r j _ rfl _ _ _ _ _ rfl rfl rfl rfl rfl

/-- What point t writes back to the narrowed copy is block t of the same whole-array function. -/
theorem flushed_copy_eq (c : Dev nD) (t : Fin cfg5.N) :
    (dat5 (F := Ideal) V c).flushed 6 t
      = ((cfg5.win 6).blk t).view.read (Elt Ideal) (Spec.convSub (V c main_v91) (Spec.uncol (V c main_v43)) (V c main_arg7) (Spec.unrow (V c main_v92)) (V c main_v81)) := by
  show (cfg5.win 6).cut (grid5.coords t) ((dat5 (F := Ideal) V c).after 6 t) = _
  rw [after5_6]
  unfold out5_6
  rw [View.canon_unit_zero zero_offsets]
  simp only [View.ld_unit_zero (S := S4000x64) zero_offsets, View.ld_unit_zero (S := S4000x1) zero_offsets,
    View.ld_unit_zero (S := S64x64) zero_offsets, View.ld_unit_zero (S := S1x64) zero_offsets]
  funext y
  obtain ⟨r, j, rfl⟩ : ∃ (r : Fin 4000) (j : Fin 64), y = ix2 r j := ⟨y 0, y 1, eq_ix2 y⟩
  refine (copy_block_apply _ _ _ _ _ r j).trans ?_
  have hr : r.val < 4000 := r.isLt
  have ht : t.val < 25 := lt_of_lt_of_eq t.isLt N_5
  have hi := out_block_emb6 t r j ⟨4000 * t.val + r.val, by omega⟩ rfl
  refine Eq.trans ?_ (congrArg (Spec.convSub (V c main_v91) (Spec.uncol (V c main_v43)) (V c main_arg7) (Spec.unrow (V c main_v92)) (V c main_v81)) hi.symm)
  exact block_value V c t r j _ rfl _ _ _ _ _ rfl rfl rfl rfl rfl

/-- An index of the result array lies in point t's block iff each coordinate lies in the block's range. -/
theorem mem_block5 (t : Fin cfg5.N) (i : Spec.SN64.Idx) :
    i ∈ ((cfg5.win 5).blk t).view.set ↔ ∀ a : Fin 2, win5_5.index t a * S4000x64.size a ≤ (i a).val
      ∧ (i a).val < win5_5.index t a * S4000x64.size a + S4000x64.size a := by
  show i ∈ ((View.whole main_v93_0).slice (win5_5.rect t)).set ↔ _
  rw [View.set_slice_whole, Rect.mem_set_unit]
  exact Iff.rfl

/-- Every entry of the result array is written: row p belongs to the block of point p / 4000. -/
theorem covered5 (i : Spec.SN64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have hlt : (i 0).val / 4000 < cfg5.N := lt_of_lt_of_eq (by omega : (i 0).val / 4000 < 25) N_5.symm
  obtain ⟨-, -, -, -, -, -, -, -, -, -, e10, e11, e12, e13⟩ := block_index ⟨(i 0).val / 4000, hlt⟩
  have e10' : win5_5.index ⟨(i 0).val / 4000, hlt⟩ (0 : Fin 2) = (i 0).val / 4000 := e10
  have e12' : win5_6.index ⟨(i 0).val / 4000, hlt⟩ (0 : Fin 2) = (i 0).val / 4000 := e12
  refine ⟨⟨(i 0).val / 4000, hlt⟩, flush5_5 _, ?_⟩
  rw [mem_block5]
  intro a
  match a with
  | ⟨0, _⟩ =>
    show win5_5.index ⟨(i 0).val / 4000, hlt⟩ (0 : Fin 2) * 4000 ≤ (i 0).val
      ∧ (i 0).val < win5_5.index ⟨(i 0).val / 4000, hlt⟩ (0 : Fin 2) * 4000 + 4000
    omega
  | ⟨1, _⟩ =>
    show win5_5.index ⟨(i 0).val / 4000, hlt⟩ (1 : Fin 2) * 64 ≤ (i 1).val
      ∧ (i 1).val < win5_5.index ⟨(i 0).val / 4000, hlt⟩ (1 : Fin 2) * 64 + 64
    omega

/-- An index of the narrowed copy lies in point t's block iff each coordinate lies in the block's range. -/
theorem mem_block6 (t : Fin cfg5.N) (i : Spec.SN64.Idx) :
    i ∈ ((cfg5.win 6).blk t).view.set ↔ ∀ a : Fin 2, win5_6.index t a * S4000x64.size a ≤ (i a).val
      ∧ (i a).val < win5_6.index t a * S4000x64.size a + S4000x64.size a := by
  show i ∈ ((View.whole main_v93_1).slice (win5_6.rect t)).set ↔ _
  rw [View.set_slice_whole, Rect.mem_set_unit]
  exact Iff.rfl

/-- Every entry of the narrowed copy is written: row p belongs to the block of point p / 4000. -/
theorem covered6 (i : Spec.SN64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have hlt : (i 0).val / 4000 < cfg5.N := lt_of_lt_of_eq (by omega : (i 0).val / 4000 < 25) N_5.symm
  obtain ⟨-, -, -, -, -, -, -, -, -, -, e10, e11, e12, e13⟩ := block_index ⟨(i 0).val / 4000, hlt⟩
  have e10' : win5_5.index ⟨(i 0).val / 4000, hlt⟩ (0 : Fin 2) = (i 0).val / 4000 := e10
  have e12' : win5_6.index ⟨(i 0).val / 4000, hlt⟩ (0 : Fin 2) = (i 0).val / 4000 := e12
  refine ⟨⟨(i 0).val / 4000, hlt⟩, flush5_6 _, ?_⟩
  rw [mem_block6]
  intro a
  match a with
  | ⟨0, _⟩ =>
    show win5_6.index ⟨(i 0).val / 4000, hlt⟩ (0 : Fin 2) * 4000 ≤ (i 0).val
      ∧ (i 0).val < win5_6.index ⟨(i 0).val / 4000, hlt⟩ (0 : Fin 2) * 4000 + 4000
    omega
  | ⟨1, _⟩ =>
    show win5_6.index ⟨(i 0).val / 4000, hlt⟩ (1 : Fin 2) * 64 ≤ (i 1).val
      ∧ (i 1).val < win5_6.index ⟨(i 0).val / 4000, hlt⟩ (1 : Fin 2) * 64 + 64
    omega

/-- The result array of the region: the positive stream's embedding minus the convolution tail of the negative
    stream's aggregated rows. -/
theorem final5 (c : Dev nD) :
    (dat5 (F := Ideal) V c).arrAt 5 cfg5.N = Spec.convSub (V c main_v91) (Spec.uncol (V c main_v43))
      (V c main_arg7) (Spec.unrow (V c main_v92)) (V c main_v81) :=
  (dat5 (F := Ideal) V c).arrAt_eq_of_cover 5 (Spec.convSub (V c main_v91) (Spec.uncol (V c main_v43)) (V c main_arg7) (Spec.unrow (V c main_v92)) (V c main_v81))
    (fun t _ => flushed_eq V c t) covered5

/-- The narrowed copy of the result holds, over the extended reals, the same array. -/
theorem final5_copy (c : Dev nD) :
    ((dat5 (F := Ideal) V c).arrAt 6 cfg5.N : S100000x64.Idx → EReal) = Spec.convSub (V c main_v91)
      (Spec.uncol (V c main_v43)) (V c main_arg7) (Spec.unrow (V c main_v92)) (V c main_v81) :=
  (dat5 (F := Ideal) V c).arrAt_eq_of_cover 6 (Spec.convSub (V c main_v91) (Spec.uncol (V c main_v43)) (V c main_arg7) (Spec.unrow (V c main_v92)) (V c main_v81))
    (fun t _ => flushed_copy_eq V c t) covered6

end Cert.Region5

end
-- ==== Proof.Region6.lean ====
/-
  The pair classifier's tiled region, as one function of whole arrays.

  The region walks the million query edges in one hundred blocks of ten thousand rows.  At each block it multiplies
  the block of source rows by the top half of the classifier's weights and the block of destination rows by the
  bottom half (two matrix products into zero accumulators), adds the two products, adds the bias along the rows and
  applies the logistic function.  An entry (r, j) of the block written at point t therefore depends on row
  10000·t + r of the two row arrays, on column j of the two weight halves and on entry j of the bias, which is what
  the specification's `pair` says of entry (10000·t + r, j) of the whole result.  The hundred blocks tile the result,
  so the array the region leaves is `pair` of the arrays it found.
-/
import proofs.«111492_j66975720014344_2_alg».proof.Proof.Gen.KernelIdeal.Frame
import proofs.«111492_j66975720014344_2_alg».proof.Proof.Spec
import proofs.«111492_j66975720014344_2_alg».proof.Proof.LibPlainProduct
import Idealize.ShloMosaic.Lib.Pipeline.Value
import Idealize.ShloMosaic.Lib.ValueLayout

noncomputable section

namespace Cert.Region6

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry of a block -/

/-- Entry (r, j) of what the body stores: the logistic function of row r of the first block against column j of the
    first weight half, plus row r of the second block against column j of the second half, plus the bias at j.  The
    accumulators start at zero and the narrowing of the weights is the identity on extended reals. -/
theorem pay_at (x0 x1 : Vec Ideal S10000x64 .bf16) (x2 x3 : Vec Ideal S64x2 .f32) (x4 : Vec Ideal S1x2 .f32)
    (r : Fin 10000) (j : Fin 2) :
    k6_pay1 (F := Ideal) x0 x1 x2 x3 x4 (ix2 r j)
      = Ideal.logistic (((∑ k : Fin 64, x0 (ix2 r k) * x2 (ix2 k j)) + (∑ k : Fin 64, x1 (ix2 r k) * x3 (ix2 k j)))
          + x4 (ix2 0 j)) := by
  unfold k6_pay1
  show Ideal.logistic _ = _
  congr 1
  rw [addf_apply, addf_apply, broadcastTo_1b_ab_apply,
    PlainProduct.matmul_at dot_S10000x64_S64x2_S10000x2_1_0_0_1_n_n rfl,
    PlainProduct.matmul_at dot_S10000x64_S64x2_S10000x2_1_0_0_1_n_n rfl,
    constant_apply, Ideal.ofBits_zero_f32, zero_add, zero_add]
  simp only [shapeCast_self, truncf_apply]

/-- The same entry against whole arrays: when the blocks' entries that (r, j) depends on are the whole arrays' entries
    that `i` depends on, the body's entry is the specification's at `i`. -/
theorem point_eq (x0 x1 : Vec Ideal S10000x64 .bf16) (x2 x3 : Vec Ideal S64x2 .f32) (x4 : Vec Ideal S1x2 .f32)
    (zs zd : S1000000x64.Idx → EReal) (Wt Wb : S64x2.Idx → EReal) (b2 : S1x2.Idx → EReal)
    (r : Fin 10000) (j : Fin 2) (i : S1000000x2.Idx)
    (h0 : ∀ k : Fin 64, x0 (ix2 r k) = zs (ix2 (i 0) k))
    (h1 : ∀ k : Fin 64, x1 (ix2 r k) = zd (ix2 (i 0) k))
    (h2 : ∀ k : Fin 64, x2 (ix2 k j) = Wt (ix2 k (i 1)))
    (h3 : ∀ k : Fin 64, x3 (ix2 k j) = Wb (ix2 k (i 1)))
    (h4 : x4 (ix2 0 j) = b2 (ix2 0 (i 1))) :
    k6_pay1 (F := Ideal) x0 x1 x2 x3 x4 (ix2 r j) = Cert.Spec.pair zs zd Wt Wb (Cert.Spec.unrow2 b2) i := by
  rw [pay_at]
  simp only [h0, h1, h2, h3, h4]
  rfl

/-! ## The windows' blocks as rows of their arrays -/

theorem hz : (![0, 0] : Fin 2 → Nat) = fun _ => 0 := funext fun a => by fin_cases a <;> rfl

/-- Where the blocks sit: at point t the blocks of the two row arrays and of the result start at row 10000·t, that is,
    they are block (t, 0); the weight halves and the bias are whole arrays, block (0, 0) at every point. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

variable (V : (c : Dev nD) → (b : Ref sig .tc) → Buf (Elt Ideal) ((c : Thread nD τ).loc b))

/-- Row r of the source block at point t is row 10000·t + r of the source array. -/
theorem rows0 (c : Dev nD) (t : Fin cfg6.N) (r : Fin 10000) (k : Fin 64) (i : S1000000x64.Idx)
    (h0 : (i 0).val = t.val * 10000 + r.val) (h1 : (i 1).val = k.val) :
    (iblk6 (F := Ideal) V c 0 t : Vec Ideal S10000x64 .bf16) (ix2 r k) = (V c main_v104 : S1000000x64.Idx → EReal) i := by
  show V c main_v104 (((cfg6.win 0).blk t).view.emb (ix2 r k)) = V c main_v104 i
  refine congrArg _ ?_
  obtain ⟨e0, e1, -⟩ := idx_facts t
  funext a; apply Fin.ext
  match a with
  | ⟨0, _⟩ => show win6_0.index t (0 : Fin 2) * 10000 + 1 * r.val = (i 0).val; omega
  | ⟨1, _⟩ => show win6_0.index t (1 : Fin 2) * 64 + 1 * k.val = (i 1).val; omega

/-- Row r of the destination block at point t is row 10000·t + r of the destination array. -/
theorem rows1 (c : Dev nD) (t : Fin cfg6.N) (r : Fin 10000) (k : Fin 64) (i : S1000000x64.Idx)
    (h0 : (i 0).val = t.val * 10000 + r.val) (h1 : (i 1).val = k.val) :
    (iblk6 (F := Ideal) V c 1 t : Vec Ideal S10000x64 .bf16) (ix2 r k) = (V c main_v111 : S1000000x64.Idx → EReal) i := by
  show V c main_v111 (((cfg6.win 1).blk t).view.emb (ix2 r k)) = V c main_v111 i
  refine congrArg _ ?_
  obtain ⟨-, -, e0, e1, -⟩ := idx_facts t
  funext a; apply Fin.ext
  match a with
  | ⟨0, _⟩ => show win6_1.index t (0 : Fin 2) * 10000 + 1 * r.val = (i 0).val; omega
  | ⟨1, _⟩ => show win6_1.index t (1 : Fin 2) * 64 + 1 * k.val = (i 1).val; omega

/-- The top weight half's block is the whole array at every point. -/
theorem whole2 (c : Dev nD) (t : Fin cfg6.N) (k : Fin 64) (j : Fin 2) (i : S64x2.Idx)
    (h0 : (i 0).val = k.val) (h1 : (i 1).val = j.val) :
    (iblk6 (F := Ideal) V c 2 t : Vec Ideal S64x2 .f32) (ix2 k j) = (V c main_v112 : S64x2.Idx → EReal) i := by
  show V c main_v112 (((cfg6.win 2).blk t).view.emb (ix2 k j)) = V c main_v112 i
  refine congrArg _ ?_
  obtain ⟨-, -, -, -, e0, e1, -⟩ := idx_facts t
  funext a; apply Fin.ext
  match a with
  | ⟨0, _⟩ => show win6_2.index t (0 : Fin 2) * 64 + 1 * k.val = (i 0).val; omega
  | ⟨1, _⟩ => show win6_2.index t (1 : Fin 2) * 2 + 1 * j.val = (i 1).val; omega

/-- The bottom weight half's block is the whole array at every point. -/
theorem whole3 (c : Dev nD) (t : Fin cfg6.N) (k : Fin 64) (j : Fin 2) (i : S64x2.Idx)
    (h0 : (i 0).val = k.val) (h1 : (i 1).val = j.val) :
    (iblk6 (F := Ideal) V c 3 t : Vec Ideal S64x2 .f32) (ix2 k j) = (V c main_v113 : S64x2.Idx → EReal) i := by
  show V c main_v113 (((cfg6.win 3).blk t).view.emb (ix2 k j)) = V c main_v113 i
  refine congrArg _ ?_
  obtain ⟨-, -, -, -, -, -, e0, e1, -⟩ := idx_facts t
  funext a; apply Fin.ext
  match a with
  | ⟨0, _⟩ => show win6_3.index t (0 : Fin 2) * 64 + 1 * k.val = (i 0).val; omega
  | ⟨1, _⟩ => show win6_3.index t (1 : Fin 2) * 2 + 1 * j.val = (i 1).val; omega

/-- The bias row's block is the whole array at every point. -/
theorem whole4 (c : Dev nD) (t : Fin cfg6.N) (j : Fin 2) (i : S1x2.Idx)
    (h0 : (i 0).val = 0) (h1 : (i 1).val = j.val) :
    (iblk6 (F := Ideal) V c 4 t : Vec Ideal S1x2 .f32) (ix2 0 j) = (V c main_v114 : S1x2.Idx → EReal) i := by
  show V c main_v114 (((cfg6.win 4).blk t).view.emb (ix2 0 j)) = V c main_v114 i
  refine congrArg _ ?_
  obtain ⟨-, -, -, -, -, -, -, -, e0, e1, -⟩ := idx_facts t
  funext a; apply Fin.ext
  match a with
  | ⟨0, _⟩ => show win6_4.index t (0 : Fin 2) * 1 + 1 * 0 = (i 0).val; omega
  | ⟨1, _⟩ => show win6_4.index t (1 : Fin 2) * 2 + 1 * j.val = (i 1).val; omega

/-! ## From the blocks to the array -/

/-- What the region leaves in the result array: the specification's pair classifier of the arrays it found. -/
abbrev result (c : Dev nD) : S1000000x2.Idx → EReal :=
  Cert.Spec.pair (V c main_v104) (V c main_v111) (V c main_v112) (V c main_v113) (Cert.Spec.unrow2 (V c main_v114))

/-- What point t writes back is block t of `result`. -/
theorem flushed_eq (c : Dev nD) (t : Fin cfg6.N) :
    (dat6 (F := Ideal) V c).flushed 5 t = ((cfg6.win 5).blk t).view.read (Elt Ideal) (result V c) := by
  show (cfg6.win 5).cut (grid6.coords t) ((dat6 (F := Ideal) V c).after 5 t) = _
  rw [after6_5]
  unfold out6_5
  rw [View.canon_unit_zero hz]
  simp only [View.ld_unit_zero (S := S10000x64) hz, View.ld_unit_zero (S := S64x2) hz, View.ld_unit_zero (S := S1x2) hz]
  funext y
  obtain ⟨r, j, rfl⟩ : ∃ (r : Fin 10000) (j : Fin 2), y = ix2 r j := ⟨y 0, y 1, eq_ix2 y⟩
  obtain ⟨-, -, -, -, -, -, -, -, -, -, e0, e1⟩ := idx_facts t
  have hi0 : ((((cfg6.win 5).blk t).view.emb (ix2 r j) : S1000000x2.Idx) 0).val = t.val * 10000 + r.val := by
    show win6_5.index t (0 : Fin 2) * 10000 + 1 * r.val = _; omega
  have hi1 : ((((cfg6.win 5).blk t).view.emb (ix2 r j) : S1000000x2.Idx) 1).val = j.val := by
    show win6_5.index t (1 : Fin 2) * 2 + 1 * j.val = _; omega
  show k6_pay1 (F := Ideal) (iblk6 V c 0 t) (iblk6 V c 1 t) (iblk6 V c 2 t) (iblk6 V c 3 t) (iblk6 V c 4 t) (ix2 r j)
    = result V c (((cfg6.win 5).blk t).view.emb (ix2 r j))
  refine point_eq _ _ _ _ _ _ _ _ _ _ r j _ (fun k => ?_) (fun k => ?_) (fun k => ?_) (fun k => ?_) ?_
  · exact rows0 V c t r k _ hi0 rfl
  · exact rows1 V c t r k _ hi0 rfl
  · exact whole2 V c t k j _ rfl hi1
  · exact whole3 V c t k j _ rfl hi1
  · exact whole4 V c t j _ rfl hi1

/-- An index of the result array is in point t's block iff each coordinate is in the block's range on its axis. -/
theorem mem_blk (t : Fin cfg6.N) (i : S1000000x2.Idx) :
    i ∈ ((cfg6.win 5).blk t).view.set ↔ ∀ a : Fin 2, win6_5.index t a * S10000x2.size a ≤ (i a).val
      ∧ (i a).val < win6_5.index t a * S10000x2.size a + S10000x2.size a := by
  show i ∈ ((View.whole main_v115).slice (win6_5.rect t)).set ↔ _
  rw [View.set_slice_whole, Rect.mem_set_unit]
  exact Iff.rfl

/-- Every row of the result is in some point's block: row q is in block q / 10000. -/
theorem covered (i : S1000000x2.Idx) :
    ∃ t : Fin cfg6.N, (cfg6.win 5).flush t = true ∧ i ∈ ((cfg6.win 5).blk t).view.set := by
  have hN : cfg6.N = 100 := N_6
  have hi0 : (i 0).val < 1000000 := (i 0).isLt
  have hi1 : (i 1).val < 2 := (i 1).isLt
  let t : Fin cfg6.N := ⟨(i 0).val / 10000, by rw [hN]; omega⟩
  have ht : t.val = (i 0).val / 10000 := rfl
  obtain ⟨-, -, -, -, -, -, -, -, -, -, e0, e1⟩ := idx_facts t
  refine ⟨t, flush6_5 t, ?_⟩
  rw [mem_blk]
  intro a
  match a with
  | ⟨0, _⟩ =>
    show win6_5.index t (0 : Fin 2) * 10000 ≤ (i 0).val ∧ (i 0).val < win6_5.index t (0 : Fin 2) * 10000 + 10000
    omega
  | ⟨1, _⟩ =>
    show win6_5.index t (1 : Fin 2) * 2 ≤ (i 1).val ∧ (i 1).val < win6_5.index t (1 : Fin 2) * 2 + 2
    omega

/-- The result array after the region: the pair classifier of the arrays the region found. -/
theorem final6 (c : Dev nD) :
    (dat6 (F := Ideal) V c).arrAt 5 cfg6.N
      = Cert.Spec.pair (V c main_v104) (V c main_v111) (V c main_v112) (V c main_v113) (Cert.Spec.unrow2 (V c main_v114)) :=
  (dat6 (F := Ideal) V c).arrAt_eq_of_cover 5 (result V c) (fun t _ => flushed_eq V c t) covered

end Cert.Region6

end
-- ==== Proof.KernelChain.lean ====
/-
  The kernels' program followed from the launch to its return, one segment at a time: what each buffer that a later
  segment reads holds at each segment boundary.  A host stretch leaves every buffer it does not write as it found it;
  a region leaves every buffer that is not one of its arrays, and every input array, as it found it, and its output
  array at the whole-array function its blocks make up.  Chained, the node embedding at the return is the model's
  embedding of the arguments and the probabilities are the model's classifier of that embedding.
-/
import proofs.«111492_j66975720014344_2_alg».proof.Proof.Gen.KernelIdeal.Frame
import proofs.«111492_j66975720014344_2_alg».proof.Proof.Model
import proofs.«111492_j66975720014344_2_alg».proof.Proof.HostStretches
import proofs.«111492_j66975720014344_2_alg».proof.Proof.Region0
import proofs.«111492_j66975720014344_2_alg».proof.Proof.Region1
import proofs.«111492_j66975720014344_2_alg».proof.Proof.Region2
import proofs.«111492_j66975720014344_2_alg».proof.Proof.Region3
import proofs.«111492_j66975720014344_2_alg».proof.Proof.Region4
import proofs.«111492_j66975720014344_2_alg».proof.Proof.Region5
import proofs.«111492_j66975720014344_2_alg».proof.Proof.Region6
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

/-! ## A host stretch leaves what it does not write -/

section Skips
variable (W : Valuation τ sig (Elt Ideal))

abbrev wr0 : List (Ref sig .tc) := [main_cst, main_v0, main_cst_0, main_v1, main_v2, main_v3, main_cst_1, main_v4, main_v5, main_cst_2, main_v6, main_v7, main_v8, main_cst_3]
theorem skip0 (b : Ref sig .tc) (hb : b ∉ wr0) : after hostOps0 W (Proc.devRef .tc b) = W (Proc.devRef .tc b) :=
  after_of_forall_not_mem (b := (Proc.devRef .tc b)) _ _ (List.forall_iff_forall_mem.mp (by
    simp only [hostOps0, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr0_1 : List (Ref sig .tc) := [main_call0_v0, main_call0_v1, main_v9]
theorem skip0_1 (b : Ref sig .tc) (hb : b ∉ wr0_1) : after hostOps0_1 W (Proc.devRef .tc b) = W (Proc.devRef .tc b) :=
  after_of_forall_not_mem (b := (Proc.devRef .tc b)) _ _ (List.forall_iff_forall_mem.mp (by
    simp only [hostOps0_1, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr0_2 : List (Ref sig .tc) := [main_cst_4, main_v10, main_cst_5, main_v11, main_v12, main_v13, main_cst_6, main_v14, main_v15, main_cst_7, main_v16, main_v17, main_v18, main_cst_8]
theorem skip0_2 (b : Ref sig .tc) (hb : b ∉ wr0_2) : after hostOps0_2 W (Proc.devRef .tc b) = W (Proc.devRef .tc b) :=
  after_of_forall_not_mem (b := (Proc.devRef .tc b)) _ _ (List.forall_iff_forall_mem.mp (by
    simp only [hostOps0_2, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr0_3 : List (Ref sig .tc) := [main_call1_v0, main_call1_v1, main_v19]
theorem skip0_3 (b : Ref sig .tc) (hb : b ∉ wr0_3) : after hostOps0_3 W (Proc.devRef .tc b) = W (Proc.devRef .tc b) :=
  after_of_forall_not_mem (b := (Proc.devRef .tc b)) _ _ (List.forall_iff_forall_mem.mp (by
    simp only [hostOps0_3, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr0_4 : List (Ref sig .tc) := [main_cst_9, main_v20, main_cst_10, main_v21, main_v22, main_v23, main_cst_11, main_v24, main_v25, main_cst_12, main_v26, main_v27, main_v28, main_cst_13]
theorem skip0_4 (b : Ref sig .tc) (hb : b ∉ wr0_4) : after hostOps0_4 W (Proc.devRef .tc b) = W (Proc.devRef .tc b) :=
  after_of_forall_not_mem (b := (Proc.devRef .tc b)) _ _ (List.forall_iff_forall_mem.mp (by
    simp only [hostOps0_4, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr0_5 : List (Ref sig .tc) := [main_call2_v0, main_call2_v1, main_v29]
theorem skip0_5 (b : Ref sig .tc) (hb : b ∉ wr0_5) : after hostOps0_5 W (Proc.devRef .tc b) = W (Proc.devRef .tc b) :=
  after_of_forall_not_mem (b := (Proc.devRef .tc b)) _ _ (List.forall_iff_forall_mem.mp (by
    simp only [hostOps0_5, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr0_6 : List (Ref sig .tc) := [main_cst_14, main_v30, main_cst_15, main_v31, main_v32, main_v33, main_cst_16, main_v34, main_v35, main_cst_17, main_v36, main_v37, main_v38, main_cst_18]
theorem skip0_6 (b : Ref sig .tc) (hb : b ∉ wr0_6) : after hostOps0_6 W (Proc.devRef .tc b) = W (Proc.devRef .tc b) :=
  after_of_forall_not_mem (b := (Proc.devRef .tc b)) _ _ (List.forall_iff_forall_mem.mp (by
    simp only [hostOps0_6, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr0_7 : List (Ref sig .tc) := [main_call3_v0, main_call3_v1, main_v39]
theorem skip0_7 (b : Ref sig .tc) (hb : b ∉ wr0_7) : after hostOps0_7 W (Proc.devRef .tc b) = W (Proc.devRef .tc b) :=
  after_of_forall_not_mem (b := (Proc.devRef .tc b)) _ _ (List.forall_iff_forall_mem.mp (by
    simp only [hostOps0_7, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr0_8 : List (Ref sig .tc) := [main_v40, main_v41, main_v42, main_v43]
theorem skip0_8 (b : Ref sig .tc) (hb : b ∉ wr0_8) : after hostOps0_8 W (Proc.devRef .tc b) = W (Proc.devRef .tc b) :=
  after_of_forall_not_mem (b := (Proc.devRef .tc b)) _ _ (List.forall_iff_forall_mem.mp (by
    simp only [hostOps0_8, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr1 : List (Ref sig .tc) := [main_c, main_v45, main_v46, main_c_19, main_v47, main_v48, main_v49, main_v50, main_v51, main_cst_20, main_v52, main_v53, main_v54, main_v55]
theorem skip1 (b : Ref sig .tc) (hb : b ∉ wr1) : after hostOps1 W (Proc.devRef .tc b) = W (Proc.devRef .tc b) :=
  after_of_forall_not_mem (b := (Proc.devRef .tc b)) _ _ (List.forall_iff_forall_mem.mp (by
    simp only [hostOps1, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr3 : List (Ref sig .tc) := [main_c_21, main_v58, main_v59, main_c_22, main_v60, main_v61, main_v62, main_v63, main_v64, main_cst_23, main_v65, main_v66, main_v67, main_v68]
theorem skip3 (b : Ref sig .tc) (hb : b ∉ wr3) : after hostOps3 W (Proc.devRef .tc b) = W (Proc.devRef .tc b) :=
  after_of_forall_not_mem (b := (Proc.devRef .tc b)) _ _ (List.forall_iff_forall_mem.mp (by
    simp only [hostOps3, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr4 : List (Ref sig .tc) := [main_c_24, main_v70, main_v71, main_c_25, main_v72, main_v73, main_v74, main_v75, main_v76, main_cst_26, main_v77, main_v78, main_v79, main_v80]
theorem skip4 (b : Ref sig .tc) (hb : b ∉ wr4) : after hostOps4 W (Proc.devRef .tc b) = W (Proc.devRef .tc b) :=
  after_of_forall_not_mem (b := (Proc.devRef .tc b)) _ _ (List.forall_iff_forall_mem.mp (by
    simp only [hostOps4, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr5 : List (Ref sig .tc) := [main_c_27, main_v82, main_v83, main_c_28, main_v84, main_v85, main_v86, main_v87, main_v88, main_cst_29, main_v89, main_v90, main_v91, main_v92]
theorem skip5 (b : Ref sig .tc) (hb : b ∉ wr5) : after hostOps5 W (Proc.devRef .tc b) = W (Proc.devRef .tc b) :=
  after_of_forall_not_mem (b := (Proc.devRef .tc b)) _ _ (List.forall_iff_forall_mem.mp (by
    simp only [hostOps5, List.Forall, nullary_writes, unary_writes, binary_writes, ternary_writes, quaternary_writes, reshape_writes, binaryIndexed_writes, Finset.mem_singleton]
    repeat' apply And.intro
    all_goals exact devRef_ne_of_ne (fun e => hb (by rw [e]; decide))))

abbrev wr6 : List (Ref sig .tc) := [main_v94, main_v95, main_v96, main_v97, main_c_30, main_v98, main_v99, main_c_31, main_v100, main_v101, main_v102, main_v103, main_v104, main_c_32, main_v105, main_v106, main_c_33, main_v107, main_v108, main_v109, main_v110, main_v111, main_v112, main_v113, main_v114]
theorem skip6 (b : Ref sig .tc) (hb : b ∉ wr6) : after hostOps6 W (Proc.devRef .tc b) = W (Proc.devRef .tc b) :=
  after_of_forall_not_mem (b := (Proc.devRef .tc b)) _ _ (List.forall_iff_forall_mem.mp (by
    simp only [hostOps6, List.Forall, nullary_writes, unary_writes, binary_writes, ternary_writes, quaternary_writes, reshape_writes, binaryIndexed_writes, Finset.mem_singleton]
    repeat' apply And.intro
    all_goals exact devRef_ne_of_ne (fun e => hb (by rw [e]; decide))))

end Skips

/-! ## What is kept across the program: the arguments and the four normaliser columns -/

/-- The sixteen arguments and the four normaliser columns: written by no segment after the columns are made. -/
abbrev keep : List (Ref sig .tc) := [main_arg0, main_arg1, main_arg2, main_arg3, main_arg4, main_arg5, main_arg6, main_arg7, main_arg8, main_arg9, main_arg10, main_arg11, main_arg12, main_arg13, main_arg14, main_arg15, main_v40, main_v41, main_v42, main_v43]
/-- The sixteen arguments. -/
abbrev args : List (Ref sig .tc) := [main_arg0, main_arg1, main_arg2, main_arg3, main_arg4, main_arg5, main_arg6, main_arg7, main_arg8, main_arg9, main_arg10, main_arg11, main_arg12, main_arg13, main_arg14, main_arg15]

variable (m : (ℓ : Loc nD τ sig) → Buf (Elt Ideal) ℓ) (ρ : Dev nD → PrngReg) (c : Dev nD)

/-! ### The arguments through the nine stretches that make the normalisers -/

theorem args0 (b : Ref sig .tc) (hb : b ∈ args) : W0 (F := Ideal) m ρ c (Proc.devRef .tc b) = m ((c : Thread nD τ).loc b) := rfl
theorem args1 (b : Ref sig .tc) (hb : b ∈ args) : W1 (F := Ideal) m ρ c (Proc.devRef .tc b) = m ((c : Thread nD τ).loc b) :=
  (skip0 _ b (fun h => (by decide : ∀ y ∈ wr0, y ∉ args) b h hb)).trans (args0 m ρ c b hb)
theorem args2 (b : Ref sig .tc) (hb : b ∈ args) : W2 (F := Ideal) m ρ c (Proc.devRef .tc b) = m ((c : Thread nD τ).loc b) :=
  (skip0_1 _ b (fun h => (by decide : ∀ y ∈ wr0_1, y ∉ args) b h hb)).trans (args1 m ρ c b hb)
theorem args3 (b : Ref sig .tc) (hb : b ∈ args) : W3 (F := Ideal) m ρ c (Proc.devRef .tc b) = m ((c : Thread nD τ).loc b) :=
  (skip0_2 _ b (fun h => (by decide : ∀ y ∈ wr0_2, y ∉ args) b h hb)).trans (args2 m ρ c b hb)
theorem args4 (b : Ref sig .tc) (hb : b ∈ args) : W4 (F := Ideal) m ρ c (Proc.devRef .tc b) = m ((c : Thread nD τ).loc b) :=
  (skip0_3 _ b (fun h => (by decide : ∀ y ∈ wr0_3, y ∉ args) b h hb)).trans (args3 m ρ c b hb)
theorem args5 (b : Ref sig .tc) (hb : b ∈ args) : W5 (F := Ideal) m ρ c (Proc.devRef .tc b) = m ((c : Thread nD τ).loc b) :=
  (skip0_4 _ b (fun h => (by decide : ∀ y ∈ wr0_4, y ∉ args) b h hb)).trans (args4 m ρ c b hb)
theorem args6 (b : Ref sig .tc) (hb : b ∈ args) : W6 (F := Ideal) m ρ c (Proc.devRef .tc b) = m ((c : Thread nD τ).loc b) :=
  (skip0_5 _ b (fun h => (by decide : ∀ y ∈ wr0_5, y ∉ args) b h hb)).trans (args5 m ρ c b hb)
theorem args7 (b : Ref sig .tc) (hb : b ∈ args) : W7 (F := Ideal) m ρ c (Proc.devRef .tc b) = m ((c : Thread nD τ).loc b) :=
  (skip0_6 _ b (fun h => (by decide : ∀ y ∈ wr0_6, y ∉ args) b h hb)).trans (args6 m ρ c b hb)
theorem args8 (b : Ref sig .tc) (hb : b ∈ args) : W8 (F := Ideal) m ρ c (Proc.devRef .tc b) = m ((c : Thread nD τ).loc b) :=
  (skip0_7 _ b (fun h => (by decide : ∀ y ∈ wr0_7, y ∉ args) b h hb)).trans (args7 m ρ c b hb)
theorem args9 (b : Ref sig .tc) (hb : b ∈ args) : W9 (F := Ideal) m ρ c (Proc.devRef .tc b) = m ((c : Thread nD τ).loc b) :=
  (skip0_8 _ b (fun h => (by decide : ∀ y ∈ wr0_8, y ∉ args) b h hb)).trans (args8 m ρ c b hb)

/-! ### The kept buffers from the first region's entry on -/

theorem keep9 (b : Ref sig .tc) (hb : b ∈ keep) : W9 (F := Ideal) m ρ c (Proc.devRef .tc b) = W9 m ρ c (Proc.devRef .tc b) := rfl
theorem keep10 (b : Ref sig .tc) (hb : b ∈ keep) : W10 (F := Ideal) m ρ c (Proc.devRef .tc b) = W9 m ρ c (Proc.devRef .tc b) := by
  by_cases h0 : b = main_arg0
  · subst h0
    exact ((W10_arr m ρ c 0).trans (((dat0 (V9 m ρ) c).arrAt_in 0 rfl _).trans (A_eq0 (V9 m ρ) c 0))).trans (keep9 m ρ c _ (by decide))
  by_cases h1 : b = main_v40
  · subst h1
    exact ((W10_arr m ρ c 1).trans (((dat0 (V9 m ρ) c).arrAt_in 1 rfl _).trans (A_eq0 (V9 m ρ) c 1))).trans (keep9 m ρ c _ (by decide))
  exact (W10_of_ne m ρ c b ((by decide : ∀ b ∈ keep, b ≠ main_arg0 → b ≠ main_v40 → ∀ w, Pipeline.arrRef spec0 w ≠ b) b hb h0 h1)).trans (keep9 m ρ c b hb)
theorem keep11 (b : Ref sig .tc) (hb : b ∈ keep) : W11 (F := Ideal) m ρ c (Proc.devRef .tc b) = W9 m ρ c (Proc.devRef .tc b) :=
  (skip1 _ b (fun h => (by decide : ∀ y ∈ wr1, y ∉ keep) b h hb)).trans (keep10 m ρ c b hb)
theorem keep12 (b : Ref sig .tc) (hb : b ∈ keep) : W12 (F := Ideal) m ρ c (Proc.devRef .tc b) = W9 m ρ c (Proc.devRef .tc b) := by
  by_cases h0 : b = main_v41
  · subst h0
    exact ((W12_arr m ρ c 1).trans (((dat1 (V11 m ρ) c).arrAt_in 1 rfl _).trans (A_eq1 (V11 m ρ) c 1))).trans (keep11 m ρ c _ (by decide))
  by_cases h1 : b = main_arg1
  · subst h1
    exact ((W12_arr m ρ c 2).trans (((dat1 (V11 m ρ) c).arrAt_in 2 rfl _).trans (A_eq1 (V11 m ρ) c 2))).trans (keep11 m ρ c _ (by decide))
  by_cases h2 : b = main_v40
  · subst h2
    exact ((W12_arr m ρ c 4).trans (((dat1 (V11 m ρ) c).arrAt_in 4 rfl _).trans (A_eq1 (V11 m ρ) c 4))).trans (keep11 m ρ c _ (by decide))
  exact (W12_of_ne m ρ c b ((by decide : ∀ b ∈ keep, b ≠ main_v41 → b ≠ main_arg1 → b ≠ main_v40 → ∀ w, Pipeline.arrRef spec1 w ≠ b) b hb h0 h1 h2)).trans (keep11 m ρ c b hb)
theorem keep13 (b : Ref sig .tc) (hb : b ∈ keep) : W13 (F := Ideal) m ρ c (Proc.devRef .tc b) = W9 m ρ c (Proc.devRef .tc b) := by
  by_cases h0 : b = main_arg0
  · subst h0
    exact ((W13_arr m ρ c 0).trans (((dat2 (V12 m ρ) c).arrAt_in 0 rfl _).trans (A_eq2 (V12 m ρ) c 0))).trans (keep12 m ρ c _ (by decide))
  by_cases h1 : b = main_v42
  · subst h1
    exact ((W13_arr m ρ c 1).trans (((dat2 (V12 m ρ) c).arrAt_in 1 rfl _).trans (A_eq2 (V12 m ρ) c 1))).trans (keep12 m ρ c _ (by decide))
  exact (W13_of_ne m ρ c b ((by decide : ∀ b ∈ keep, b ≠ main_arg0 → b ≠ main_v42 → ∀ w, Pipeline.arrRef spec2 w ≠ b) b hb h0 h1)).trans (keep12 m ρ c b hb)
theorem keep14 (b : Ref sig .tc) (hb : b ∈ keep) : W14 (F := Ideal) m ρ c (Proc.devRef .tc b) = W9 m ρ c (Proc.devRef .tc b) :=
  (skip3 _ b (fun h => (by decide : ∀ y ∈ wr3, y ∉ keep) b h hb)).trans (keep13 m ρ c b hb)
theorem keep15 (b : Ref sig .tc) (hb : b ∈ keep) : W15 (F := Ideal) m ρ c (Proc.devRef .tc b) = W9 m ρ c (Proc.devRef .tc b) := by
  by_cases h0 : b = main_v43
  · subst h0
    exact ((W15_arr m ρ c 1).trans (((dat3 (V14 m ρ) c).arrAt_in 1 rfl _).trans (A_eq3 (V14 m ρ) c 1))).trans (keep14 m ρ c _ (by decide))
  by_cases h1 : b = main_arg3
  · subst h1
    exact ((W15_arr m ρ c 2).trans (((dat3 (V14 m ρ) c).arrAt_in 2 rfl _).trans (A_eq3 (V14 m ρ) c 2))).trans (keep14 m ρ c _ (by decide))
  by_cases h2 : b = main_v42
  · subst h2
    exact ((W15_arr m ρ c 4).trans (((dat3 (V14 m ρ) c).arrAt_in 4 rfl _).trans (A_eq3 (V14 m ρ) c 4))).trans (keep14 m ρ c _ (by decide))
  exact (W15_of_ne m ρ c b ((by decide : ∀ b ∈ keep, b ≠ main_v43 → b ≠ main_arg3 → b ≠ main_v42 → ∀ w, Pipeline.arrRef spec3 w ≠ b) b hb h0 h1 h2)).trans (keep14 m ρ c b hb)
theorem keep16 (b : Ref sig .tc) (hb : b ∈ keep) : W16 (F := Ideal) m ρ c (Proc.devRef .tc b) = W9 m ρ c (Proc.devRef .tc b) :=
  (skip4 _ b (fun h => (by decide : ∀ y ∈ wr4, y ∉ keep) b h hb)).trans (keep15 m ρ c b hb)
theorem keep17 (b : Ref sig .tc) (hb : b ∈ keep) : W17 (F := Ideal) m ρ c (Proc.devRef .tc b) = W9 m ρ c (Proc.devRef .tc b) := by
  by_cases h0 : b = main_v41
  · subst h0
    exact ((W17_arr m ρ c 1).trans (((dat4 (V16 m ρ) c).arrAt_in 1 rfl _).trans (A_eq4 (V16 m ρ) c 1))).trans (keep16 m ρ c _ (by decide))
  by_cases h1 : b = main_arg5
  · subst h1
    exact ((W17_arr m ρ c 2).trans (((dat4 (V16 m ρ) c).arrAt_in 2 rfl _).trans (A_eq4 (V16 m ρ) c 2))).trans (keep16 m ρ c _ (by decide))
  exact (W17_of_ne m ρ c b ((by decide : ∀ b ∈ keep, b ≠ main_v41 → b ≠ main_arg5 → ∀ w, Pipeline.arrRef spec4 w ≠ b) b hb h0 h1)).trans (keep16 m ρ c b hb)
theorem keep18 (b : Ref sig .tc) (hb : b ∈ keep) : W18 (F := Ideal) m ρ c (Proc.devRef .tc b) = W9 m ρ c (Proc.devRef .tc b) :=
  (skip5 _ b (fun h => (by decide : ∀ y ∈ wr5, y ∉ keep) b h hb)).trans (keep17 m ρ c b hb)
theorem keep19 (b : Ref sig .tc) (hb : b ∈ keep) : W19 (F := Ideal) m ρ c (Proc.devRef .tc b) = W9 m ρ c (Proc.devRef .tc b) := by
  by_cases h0 : b = main_v43
  · subst h0
    exact ((W19_arr m ρ c 1).trans (((dat5 (V18 m ρ) c).arrAt_in 1 rfl _).trans (A_eq5 (V18 m ρ) c 1))).trans (keep18 m ρ c _ (by decide))
  by_cases h1 : b = main_arg7
  · subst h1
    exact ((W19_arr m ρ c 2).trans (((dat5 (V18 m ρ) c).arrAt_in 2 rfl _).trans (A_eq5 (V18 m ρ) c 2))).trans (keep18 m ρ c _ (by decide))
  exact (W19_of_ne m ρ c b ((by decide : ∀ b ∈ keep, b ≠ main_v43 → b ≠ main_arg7 → ∀ w, Pipeline.arrRef spec5 w ≠ b) b hb h0 h1)).trans (keep18 m ρ c b hb)
theorem keep20 (b : Ref sig .tc) (hb : b ∈ keep) : W20 (F := Ideal) m ρ c (Proc.devRef .tc b) = W9 m ρ c (Proc.devRef .tc b) :=
  (skip6 _ b (fun h => (by decide : ∀ y ∈ wr6, y ∉ keep) b h hb)).trans (keep19 m ρ c b hb)

/-- An argument at any boundary from the first region's entry on is as launched. -/
theorem arg_at9 (b : Ref sig .tc) (hb : b ∈ args) : W9 (F := Ideal) m ρ c (Proc.devRef .tc b) = m ((c : Thread nD τ).loc b) := args9 m ρ c b hb

theorem args_keep : ∀ b ∈ args, b ∈ keep := by decide

/-! ## The four normalisers, as the columns hold them at the first region's entry -/

theorem norm_src_pos : Spec.uncol (W9 (F := Ideal) m ρ c (Proc.devRef .tc main_v40)) = Model.degNorm (m ((c : Thread nD τ).loc main_arg11)) :=
  (Stretch.col_main_v40 (W8 m ρ c)).trans <|
  (skip0_7 _ main_v9 (by decide)).trans <| (skip0_6 _ main_v9 (by decide)).trans <| (skip0_5 _ main_v9 (by decide)).trans <|
  (skip0_4 _ main_v9 (by decide)).trans <| (skip0_3 _ main_v9 (by decide)).trans <| (skip0_2 _ main_v9 (by decide)).trans <|
  (Stretch.norm11 (W0 m ρ c)).trans (congrArg Model.degNorm (args0 m ρ c main_arg11 (by decide)))
theorem norm_dst_pos : Spec.uncol (W9 (F := Ideal) m ρ c (Proc.devRef .tc main_v41)) = Model.degNorm (m ((c : Thread nD τ).loc main_arg12)) :=
  (Stretch.col_main_v41 (W8 m ρ c)).trans <|
  (skip0_7 _ main_v19 (by decide)).trans <| (skip0_6 _ main_v19 (by decide)).trans <| (skip0_5 _ main_v19 (by decide)).trans <|
  (skip0_4 _ main_v19 (by decide)).trans <|
  (Stretch.norm12 (W2 m ρ c)).trans (congrArg Model.degNorm (args2 m ρ c main_arg12 (by decide)))
theorem norm_src_neg : Spec.uncol (W9 (F := Ideal) m ρ c (Proc.devRef .tc main_v42)) = Model.degNorm (m ((c : Thread nD τ).loc main_arg13)) :=
  (Stretch.col_main_v42 (W8 m ρ c)).trans <|
  (skip0_7 _ main_v29 (by decide)).trans <| (skip0_6 _ main_v29 (by decide)).trans <|
  (Stretch.norm13 (W4 m ρ c)).trans (congrArg Model.degNorm (args4 m ρ c main_arg13 (by decide)))
theorem norm_dst_neg : Spec.uncol (W9 (F := Ideal) m ρ c (Proc.devRef .tc main_v43)) = Model.degNorm (m ((c : Thread nD τ).loc main_arg14)) :=
  (Stretch.col_main_v43 (W8 m ρ c)).trans <|
  (Stretch.norm14 (W6 m ρ c)).trans (congrArg Model.degNorm (args6 m ρ c main_arg14 (by decide)))

/-! ## An argument, and a normaliser column, at a later boundary -/
theorem arg9 (b : Ref sig .tc) (hb : b ∈ args) : W9 (F := Ideal) m ρ c (Proc.devRef .tc b) = m ((c : Thread nD τ).loc b) :=
  (keep9 m ρ c b (args_keep b hb)).trans (args9 m ρ c b hb)
theorem arg10 (b : Ref sig .tc) (hb : b ∈ args) : W10 (F := Ideal) m ρ c (Proc.devRef .tc b) = m ((c : Thread nD τ).loc b) :=
  (keep10 m ρ c b (args_keep b hb)).trans (args9 m ρ c b hb)
theorem arg11 (b : Ref sig .tc) (hb : b ∈ args) : W11 (F := Ideal) m ρ c (Proc.devRef .tc b) = m ((c : Thread nD τ).loc b) :=
  (keep11 m ρ c b (args_keep b hb)).trans (args9 m ρ c b hb)
theorem arg12 (b : Ref sig .tc) (hb : b ∈ args) : W12 (F := Ideal) m ρ c (Proc.devRef .tc b) = m ((c : Thread nD τ).loc b) :=
  (keep12 m ρ c b (args_keep b hb)).trans (args9 m ρ c b hb)
theorem arg13 (b : Ref sig .tc) (hb : b ∈ args) : W13 (F := Ideal) m ρ c (Proc.devRef .tc b) = m ((c : Thread nD τ).loc b) :=
  (keep13 m ρ c b (args_keep b hb)).trans (args9 m ρ c b hb)
theorem arg14 (b : Ref sig .tc) (hb : b ∈ args) : W14 (F := Ideal) m ρ c (Proc.devRef .tc b) = m ((c : Thread nD τ).loc b) :=
  (keep14 m ρ c b (args_keep b hb)).trans (args9 m ρ c b hb)
theorem arg15 (b : Ref sig .tc) (hb : b ∈ args) : W15 (F := Ideal) m ρ c (Proc.devRef .tc b) = m ((c : Thread nD τ).loc b) :=
  (keep15 m ρ c b (args_keep b hb)).trans (args9 m ρ c b hb)
theorem arg16 (b : Ref sig .tc) (hb : b ∈ args) : W16 (F := Ideal) m ρ c (Proc.devRef .tc b) = m ((c : Thread nD τ).loc b) :=
  (keep16 m ρ c b (args_keep b hb)).trans (args9 m ρ c b hb)
theorem arg17 (b : Ref sig .tc) (hb : b ∈ args) : W17 (F := Ideal) m ρ c (Proc.devRef .tc b) = m ((c : Thread nD τ).loc b) :=
  (keep17 m ρ c b (args_keep b hb)).trans (args9 m ρ c b hb)
theorem arg18 (b : Ref sig .tc) (hb : b ∈ args) : W18 (F := Ideal) m ρ c (Proc.devRef .tc b) = m ((c : Thread nD τ).loc b) :=
  (keep18 m ρ c b (args_keep b hb)).trans (args9 m ρ c b hb)
theorem arg19 (b : Ref sig .tc) (hb : b ∈ args) : W19 (F := Ideal) m ρ c (Proc.devRef .tc b) = m ((c : Thread nD τ).loc b) :=
  (keep19 m ρ c b (args_keep b hb)).trans (args9 m ρ c b hb)
theorem arg20 (b : Ref sig .tc) (hb : b ∈ args) : W20 (F := Ideal) m ρ c (Proc.devRef .tc b) = m ((c : Thread nD τ).loc b) :=
  (keep20 m ρ c b (args_keep b hb)).trans (args9 m ρ c b hb)
theorem col9_v40 : Spec.uncol (W9 (F := Ideal) m ρ c (Proc.devRef .tc main_v40)) = Model.degNorm (m ((c : Thread nD τ).loc main_arg11)) :=
  (congrArg Spec.uncol (keep9 m ρ c main_v40 (by decide))).trans (norm_src_pos m ρ c)
theorem col11_v41 : Spec.uncol (W11 (F := Ideal) m ρ c (Proc.devRef .tc main_v41)) = Model.degNorm (m ((c : Thread nD τ).loc main_arg12)) :=
  (congrArg Spec.uncol (keep11 m ρ c main_v41 (by decide))).trans (norm_dst_pos m ρ c)
theorem col11_v40 : Spec.uncol (W11 (F := Ideal) m ρ c (Proc.devRef .tc main_v40)) = Model.degNorm (m ((c : Thread nD τ).loc main_arg11)) :=
  (congrArg Spec.uncol (keep11 m ρ c main_v40 (by decide))).trans (norm_src_pos m ρ c)
theorem col12_v42 : Spec.uncol (W12 (F := Ideal) m ρ c (Proc.devRef .tc main_v42)) = Model.degNorm (m ((c : Thread nD τ).loc main_arg13)) :=
  (congrArg Spec.uncol (keep12 m ρ c main_v42 (by decide))).trans (norm_src_neg m ρ c)
theorem col14_v43 : Spec.uncol (W14 (F := Ideal) m ρ c (Proc.devRef .tc main_v43)) = Model.degNorm (m ((c : Thread nD τ).loc main_arg14)) :=
  (congrArg Spec.uncol (keep14 m ρ c main_v43 (by decide))).trans (norm_dst_neg m ρ c)
theorem col14_v42 : Spec.uncol (W14 (F := Ideal) m ρ c (Proc.devRef .tc main_v42)) = Model.degNorm (m ((c : Thread nD τ).loc main_arg13)) :=
  (congrArg Spec.uncol (keep14 m ρ c main_v42 (by decide))).trans (norm_src_neg m ρ c)
theorem col16_v41 : Spec.uncol (W16 (F := Ideal) m ρ c (Proc.devRef .tc main_v41)) = Model.degNorm (m ((c : Thread nD τ).loc main_arg12)) :=
  (congrArg Spec.uncol (keep16 m ρ c main_v41 (by decide))).trans (norm_dst_pos m ρ c)
theorem col18_v43 : Spec.uncol (W18 (F := Ideal) m ρ c (Proc.devRef .tc main_v43)) = Model.degNorm (m ((c : Thread nD τ).loc main_arg14)) :=
  (congrArg Spec.uncol (keep18 m ρ c main_v43 (by decide))).trans (norm_dst_neg m ρ c)

/-! ## The positive relation's first layer -/

theorem scaled_pos : W10 (F := Ideal) m ρ c (Proc.devRef .tc main_v44) = Spec.scaleRows (m ((c : Thread nD τ).loc main_arg0)) (Model.degNorm (m ((c : Thread nD τ).loc main_arg11))) :=
  (W10_arr m ρ c 2).trans ((Cert.Region0.final0 (V9 m ρ) c).trans (by
    show Spec.scaleRows (W9 m ρ c (Proc.devRef .tc main_arg0)) (Spec.uncol (W9 m ρ c (Proc.devRef .tc main_v40))) = _
    rw [arg9 m ρ c main_arg0 (by decide), col9_v40 m ρ c]))
theorem agg0_pos : W11 (F := Ideal) m ρ c (Proc.devRef .tc main_v54) = (Model.aggregate (Spec.scaleRows (m ((c : Thread nD τ).loc main_arg0)) (Model.degNorm (m ((c : Thread nD τ).loc main_arg11)))) (m ((c : Thread nD τ).loc main_arg11)) (m ((c : Thread nD τ).loc main_arg12))) :=
  (Stretch.agg1 (W10 m ρ c)).trans (by
    rw [scaled_pos m ρ c, arg10 m ρ c main_arg11 (by decide), arg10 m ρ c main_arg12 (by decide)])
theorem bias0_pos : Spec.unrow (W11 (F := Ideal) m ρ c (Proc.devRef .tc main_v55)) = (m ((c : Thread nD τ).loc main_arg2)) :=
  (Stretch.row1 (W10 m ρ c)).trans (arg10 m ρ c main_arg2 (by decide))
theorem layer1_pos : W12 (F := Ideal) m ρ c (Proc.devRef .tc main_v56) = (Model.layer1 (m ((c : Thread nD τ).loc main_arg0)) (m ((c : Thread nD τ).loc main_arg1)) (m ((c : Thread nD τ).loc main_arg2)) (m ((c : Thread nD τ).loc main_arg11)) (m ((c : Thread nD τ).loc main_arg12))) :=
  (W12_arr m ρ c 5).trans ((Cert.Region1.final1 (V11 m ρ) c).trans (by
    show Spec.convScaled (W11 m ρ c (Proc.devRef .tc main_v54)) (Spec.uncol (W11 m ρ c (Proc.devRef .tc main_v41))) (W11 m ρ c (Proc.devRef .tc main_arg1))
      (Spec.unrow (W11 m ρ c (Proc.devRef .tc main_v55))) (Spec.uncol (W11 m ρ c (Proc.devRef .tc main_v40))) = _
    rw [agg0_pos m ρ c, col11_v41 m ρ c, arg11 m ρ c main_arg1 (by decide), bias0_pos m ρ c, col11_v40 m ρ c]
    rfl))

/-! ## The negative relation's first layer -/

theorem scaled_neg : W13 (F := Ideal) m ρ c (Proc.devRef .tc main_v57) = Spec.scaleRows (m ((c : Thread nD τ).loc main_arg0)) (Model.degNorm (m ((c : Thread nD τ).loc main_arg13))) :=
  (W13_arr m ρ c 2).trans ((Cert.Region2.final2 (V12 m ρ) c).trans (by
    show Spec.scaleRows (W12 m ρ c (Proc.devRef .tc main_arg0)) (Spec.uncol (W12 m ρ c (Proc.devRef .tc main_v42))) = _
    rw [arg12 m ρ c main_arg0 (by decide), col12_v42 m ρ c]))
theorem agg0_neg : W14 (F := Ideal) m ρ c (Proc.devRef .tc main_v67) = (Model.aggregate (Spec.scaleRows (m ((c : Thread nD τ).loc main_arg0)) (Model.degNorm (m ((c : Thread nD τ).loc main_arg13)))) (m ((c : Thread nD τ).loc main_arg13)) (m ((c : Thread nD τ).loc main_arg14))) :=
  (Stretch.agg3 (W13 m ρ c)).trans (by
    rw [scaled_neg m ρ c, arg13 m ρ c main_arg13 (by decide), arg13 m ρ c main_arg14 (by decide)])
theorem bias0_neg : Spec.unrow (W14 (F := Ideal) m ρ c (Proc.devRef .tc main_v68)) = (m ((c : Thread nD τ).loc main_arg4)) :=
  (Stretch.row3 (W13 m ρ c)).trans (arg13 m ρ c main_arg4 (by decide))
theorem layer1_neg : W15 (F := Ideal) m ρ c (Proc.devRef .tc main_v69) = (Model.layer1 (m ((c : Thread nD τ).loc main_arg0)) (m ((c : Thread nD τ).loc main_arg3)) (m ((c : Thread nD τ).loc main_arg4)) (m ((c : Thread nD τ).loc main_arg13)) (m ((c : Thread nD τ).loc main_arg14))) :=
  (W15_arr m ρ c 5).trans ((Cert.Region3.final3 (V14 m ρ) c).trans (by
    show Spec.convScaled (W14 m ρ c (Proc.devRef .tc main_v67)) (Spec.uncol (W14 m ρ c (Proc.devRef .tc main_v43))) (W14 m ρ c (Proc.devRef .tc main_arg3))
      (Spec.unrow (W14 m ρ c (Proc.devRef .tc main_v68))) (Spec.uncol (W14 m ρ c (Proc.devRef .tc main_v42))) = _
    rw [agg0_neg m ρ c, col14_v43 m ρ c, arg14 m ρ c main_arg3 (by decide), bias0_neg m ρ c, col14_v42 m ρ c]
    rfl))

/-! ## The positive relation's second layer -/

theorem layer1_pos_kept : W15 (F := Ideal) m ρ c (Proc.devRef .tc main_v56) = (Model.layer1 (m ((c : Thread nD τ).loc main_arg0)) (m ((c : Thread nD τ).loc main_arg1)) (m ((c : Thread nD τ).loc main_arg2)) (m ((c : Thread nD τ).loc main_arg11)) (m ((c : Thread nD τ).loc main_arg12))) :=
  (W15_of_ne m ρ c main_v56 (by decide)).trans <| (skip3 _ main_v56 (by decide)).trans <|
  (W13_of_ne m ρ c main_v56 (by decide)).trans (layer1_pos m ρ c)
theorem agg1_pos : W16 (F := Ideal) m ρ c (Proc.devRef .tc main_v79) = (Model.aggregate (Model.layer1 (m ((c : Thread nD τ).loc main_arg0)) (m ((c : Thread nD τ).loc main_arg1)) (m ((c : Thread nD τ).loc main_arg2)) (m ((c : Thread nD τ).loc main_arg11)) (m ((c : Thread nD τ).loc main_arg12))) (m ((c : Thread nD τ).loc main_arg11)) (m ((c : Thread nD τ).loc main_arg12))) :=
  (Stretch.agg4 (W15 m ρ c)).trans (by
    rw [layer1_pos_kept m ρ c, arg15 m ρ c main_arg11 (by decide), arg15 m ρ c main_arg12 (by decide)])
theorem bias1_pos : Spec.unrow (W16 (F := Ideal) m ρ c (Proc.devRef .tc main_v80)) = (m ((c : Thread nD τ).loc main_arg6)) :=
  (Stretch.row4 (W15 m ρ c)).trans (arg15 m ρ c main_arg6 (by decide))
theorem z_pos : W17 (F := Ideal) m ρ c (Proc.devRef .tc main_v81) = (Spec.conv (Model.aggregate (Model.layer1 (m ((c : Thread nD τ).loc main_arg0)) (m ((c : Thread nD τ).loc main_arg1)) (m ((c : Thread nD τ).loc main_arg2)) (m ((c : Thread nD τ).loc main_arg11)) (m ((c : Thread nD τ).loc main_arg12))) (m ((c : Thread nD τ).loc main_arg11)) (m ((c : Thread nD τ).loc main_arg12))) (Model.degNorm (m ((c : Thread nD τ).loc main_arg12))) (m ((c : Thread nD τ).loc main_arg5)) (m ((c : Thread nD τ).loc main_arg6))) :=
  (W17_arr m ρ c 4).trans ((Cert.Region4.final4 (V16 m ρ) c).trans (by
    show Spec.conv (W16 m ρ c (Proc.devRef .tc main_v79)) (Spec.uncol (W16 m ρ c (Proc.devRef .tc main_v41))) (W16 m ρ c (Proc.devRef .tc main_arg5))
      (Spec.unrow (W16 m ρ c (Proc.devRef .tc main_v80))) = _
    rw [agg1_pos m ρ c, col16_v41 m ρ c, arg16 m ρ c main_arg5 (by decide), bias1_pos m ρ c]))

/-! ## The negative relation's second layer and the embedding -/

theorem layer1_neg_kept : W17 (F := Ideal) m ρ c (Proc.devRef .tc main_v69) = (Model.layer1 (m ((c : Thread nD τ).loc main_arg0)) (m ((c : Thread nD τ).loc main_arg3)) (m ((c : Thread nD τ).loc main_arg4)) (m ((c : Thread nD τ).loc main_arg13)) (m ((c : Thread nD τ).loc main_arg14))) :=
  (W17_of_ne m ρ c main_v69 (by decide)).trans <| (skip4 _ main_v69 (by decide)).trans (layer1_neg m ρ c)
theorem agg1_neg : W18 (F := Ideal) m ρ c (Proc.devRef .tc main_v91) = (Model.aggregate (Model.layer1 (m ((c : Thread nD τ).loc main_arg0)) (m ((c : Thread nD τ).loc main_arg3)) (m ((c : Thread nD τ).loc main_arg4)) (m ((c : Thread nD τ).loc main_arg13)) (m ((c : Thread nD τ).loc main_arg14))) (m ((c : Thread nD τ).loc main_arg13)) (m ((c : Thread nD τ).loc main_arg14))) :=
  (Stretch.agg5 (W17 m ρ c)).trans (by
    rw [layer1_neg_kept m ρ c, arg17 m ρ c main_arg13 (by decide), arg17 m ρ c main_arg14 (by decide)])
theorem bias1_neg : Spec.unrow (W18 (F := Ideal) m ρ c (Proc.devRef .tc main_v92)) = (m ((c : Thread nD τ).loc main_arg8)) :=
  (Stretch.row5 (W17 m ρ c)).trans (arg17 m ρ c main_arg8 (by decide))
theorem z_pos_kept : W18 (F := Ideal) m ρ c (Proc.devRef .tc main_v81) = (Spec.conv (Model.aggregate (Model.layer1 (m ((c : Thread nD τ).loc main_arg0)) (m ((c : Thread nD τ).loc main_arg1)) (m ((c : Thread nD τ).loc main_arg2)) (m ((c : Thread nD τ).loc main_arg11)) (m ((c : Thread nD τ).loc main_arg12))) (m ((c : Thread nD τ).loc main_arg11)) (m ((c : Thread nD τ).loc main_arg12))) (Model.degNorm (m ((c : Thread nD τ).loc main_arg12))) (m ((c : Thread nD τ).loc main_arg5)) (m ((c : Thread nD τ).loc main_arg6))) :=
  (skip5 _ main_v81 (by decide)).trans (z_pos m ρ c)
theorem embedding : W19 (F := Ideal) m ρ c (Proc.devRef .tc main_v93_0) = (Model.zModel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))) :=
  (W19_arr m ρ c 5).trans ((Cert.Region5.final5 (V18 m ρ) c).trans (by
    show Spec.convSub (W18 m ρ c (Proc.devRef .tc main_v91)) (Spec.uncol (W18 m ρ c (Proc.devRef .tc main_v43))) (W18 m ρ c (Proc.devRef .tc main_arg7))
      (Spec.unrow (W18 m ρ c (Proc.devRef .tc main_v92))) (W18 m ρ c (Proc.devRef .tc main_v81)) = _
    rw [agg1_neg m ρ c, col18_v43 m ρ c, arg18 m ρ c main_arg7 (by decide), bias1_neg m ρ c, z_pos_kept m ρ c]
    rfl))
theorem embedding_copy : (W19 (F := Ideal) m ρ c (Proc.devRef .tc main_v93_1) : S100000x64.Idx → EReal) = (Model.zModel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))) :=
  (W19_arr m ρ c 6).trans ((Cert.Region5.final5_copy (V18 m ρ) c).trans (by
    show Spec.convSub (W18 m ρ c (Proc.devRef .tc main_v91)) (Spec.uncol (W18 m ρ c (Proc.devRef .tc main_v43))) (W18 m ρ c (Proc.devRef .tc main_arg7))
      (Spec.unrow (W18 m ρ c (Proc.devRef .tc main_v92))) (W18 m ρ c (Proc.devRef .tc main_v81)) = _
    rw [agg1_neg m ρ c, col18_v43 m ρ c, arg18 m ρ c main_arg7 (by decide), bias1_neg m ρ c, z_pos_kept m ρ c]
    rfl))

/-! ## The two results at the return -/

/-- The node embedding at the return is the model's. -/
theorem result_embedding : W21 (F := Ideal) m ρ c (Proc.devRef .tc main_v93_0) = (Model.zModel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))) :=
  (W21_of_ne m ρ c main_v93_0 (by decide)).trans <| (skip6 _ main_v93_0 (by decide)).trans (embedding m ρ c)

theorem rows_src : (W20 (F := Ideal) m ρ c (Proc.devRef .tc main_v104) : S1000000x64.Idx → EReal) = Model.rowsAt (Model.zModel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))) (Model.ends0 (m ((c : Thread nD τ).loc main_arg15))) :=
  (Stretch.rows_src (W19 m ρ c)).trans (by rw [embedding_copy m ρ c, arg19 m ρ c main_arg15 (by decide)])
theorem rows_dst : (W20 (F := Ideal) m ρ c (Proc.devRef .tc main_v111) : S1000000x64.Idx → EReal) = Model.rowsAt (Model.zModel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))) (Model.ends1 (m ((c : Thread nD τ).loc main_arg15))) :=
  (Stretch.rows_dst (W19 m ρ c)).trans (by rw [embedding_copy m ρ c, arg19 m ρ c main_arg15 (by decide)])
theorem weights_top : W20 (F := Ideal) m ρ c (Proc.devRef .tc main_v112) = Model.topHalf (m ((c : Thread nD τ).loc main_arg9)) :=
  (Stretch.top_half (W19 m ρ c)).trans (by rw [arg19 m ρ c main_arg9 (by decide)])
theorem weights_bottom : W20 (F := Ideal) m ρ c (Proc.devRef .tc main_v113) = Model.bottomHalf (m ((c : Thread nD τ).loc main_arg9)) :=
  (Stretch.bottom_half (W19 m ρ c)).trans (by rw [arg19 m ρ c main_arg9 (by decide)])
theorem bias_pair : Spec.unrow2 (W20 (F := Ideal) m ρ c (Proc.devRef .tc main_v114)) = (m ((c : Thread nD τ).loc main_arg10)) :=
  (Stretch.row_bias (W19 m ρ c)).trans (arg19 m ρ c main_arg10 (by decide))

/-- The probabilities at the return are the model's classifier of the model's embedding. -/
theorem result_probabilities : W21 (F := Ideal) m ρ c (Proc.devRef .tc main_v115) = Model.pModel (Model.zModel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))) (m ((c : Thread nD τ).loc main_arg9)) (m ((c : Thread nD τ).loc main_arg10)) (m ((c : Thread nD τ).loc main_arg15)) :=
  (W21_arr m ρ c 5).trans ((Cert.Region6.final6 (V20 m ρ) c).trans (by
    show Spec.pair (W20 m ρ c (Proc.devRef .tc main_v104)) (W20 m ρ c (Proc.devRef .tc main_v111)) (W20 m ρ c (Proc.devRef .tc main_v112)) (W20 m ρ c (Proc.devRef .tc main_v113))
      (Spec.unrow2 (W20 m ρ c (Proc.devRef .tc main_v114))) = _
    rw [rows_src m ρ c, rows_dst m ρ c, weights_top m ρ c, weights_bottom m ρ c, bias_pair m ρ c]
    rfl))

end Cert.KernelIdeal.Chain

end
-- ==== Proof.RefEmbed.lean ====
/-
  The reference's node embedding is the model's.

  The reference computes, for the positive and for the negative relation, the degree normalisers of the edge ends,
  the input rows multiplied by the source normaliser, their aggregation along the edges, and a convolution tail
  (the destination normaliser, the weights, the bias, the clamp at zero); then the same again on the first
  layer's rows multiplied by the source normaliser; and subtracts the negative stream from the positive one.
  Each of these stages is, index by index, one of the specification's functions, or is spelt with the same host
  operations as the model's irregular parts. The stages are identified one at a time and chained.
-/
import proofs.«111492_j66975720014344_2_alg».proof.Proof.RefRead
import proofs.«111492_j66975720014344_2_alg».proof.Proof.Model
import proofs.«111492_j66975720014344_2_alg».proof.Proof.LibPlainProduct
import Idealize.ShloMosaic.Lib.Pipeline.Value
import Idealize.ShloMosaic.Lib.ValueIdx
import Idealize.ShloMosaic.Lib.IdealHost
import Idealize.ShloMosaic.PureOps.Ideal.Laws

noncomputable section

namespace Cert.RefEmbed

open Cert.ReferenceIdeal Cert.ReferenceIdeal.Gen Cert.ReferenceIdeal.ReadP Idealize.ShloMosaic Idealize.ShloMosaic.ValueIdx

/-- A float array of the reference at the ideal instance. -/
abbrev RA (S : Shape) : Type := FVec Ideal S .f32

/-- An integer array of the reference at the ideal instance. -/
abbrev RI (S : Shape) : Type := (⟨S, .i32⟩ : BufTy).Contents (Elt Ideal)

/-- A node vector `[n]` laid as a column `[n,1]` and repeated along the 64 features. -/
abbrev alongRows (c : RA S100000) : RA S100000x64 :=
  broadcastInDim S100000x64 ![0, 1] bcast_S100000x1_S100000x64_0_1
    (broadcastInDim S100000x1 ![0] bcast_S100000_S100000x1_0 c)

/-- A feature vector `[64]` laid as a row `[1,64]` and repeated down the nodes. -/
abbrev downRows (b : RA S64) : RA S100000x64 :=
  broadcastInDim S100000x64 ![0, 1] bcast_S1x64_S100000x64_0_1
    (broadcastInDim S1x64 ![1] bcast_S64_S1x64_1 b)

/-- The array of zeros. -/
abbrev zeros : RA S100000x64 :=
  broadcastInDim S100000x64 ![] bcast_S_S100000x64 (constant (F := Ideal) S_ .f32 0x00000000#32)

/-- Entry `(p, q)` of a node vector repeated along the features is the vector's entry `p`. -/
theorem alongRows_at (c : RA S100000) (p : Fin 100000) (q : Fin 64) : alongRows c (ix2 p q) = c (ix1 p) :=
  (broadcastInDim_apply _ bcast_S100000x1_S100000x64_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans
  (broadcastInDim_apply _ bcast_S100000_S100000x1_0 c _ (ix1 p) (fun a => match a with
    | ⟨0, _⟩ => by show p.val = if (100000 : Nat) = 1 then 0 else p.val; rw [if_neg (by decide)]))

/-- Entry `(p, q)` of a feature vector repeated down the nodes is the vector's entry `q`. -/
theorem downRows_at (b : RA S64) (p : Fin 100000) (q : Fin 64) : downRows b (ix2 p q) = b (ix1 q) :=
  (broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans
  (broadcastInDim_apply _ bcast_S64_S1x64_1 b _ (ix1 q) (fun a => match a with
    | ⟨0, _⟩ => by show q.val = if (64 : Nat) = 1 then 0 else q.val; rw [if_neg (by decide)]))

/-- Every entry of the array of zeros is zero. -/
theorem zeros_at (i : S100000x64.Idx) : zeros i = 0 :=
  (broadcastInDim_scalar_apply bcast_S_S100000x64 _ i).trans Ideal.ofBits_zero_f32

/-- The reference's product record is the plain product of a 100000 × 64 by a 64 × 64 matrix. -/
theorem dot_plain : dot_S100000x64_S64x64_S100000x64_1_0_0_1_n_n = DotDims.plain 100000 64 64 := rfl

/-- Rows multiplied by a node vector repeated along the features: the specification's row scaling. -/
theorem scale_eq (x : RA S100000x64) (c : RA S100000) : mulf x (alongRows c) = Spec.scaleRows x c := by
  funext i
  obtain ⟨p, q, rfl⟩ : ∃ (p : Fin 100000) (q : Fin 64), i = ix2 p q := ⟨i 0, i 1, eq_ix2 i⟩
  rw [mulf_apply, alongRows_at]
  rfl

/-- One convolution tail of the reference: the aggregated rows times the destination normaliser, times the weights,
    plus the bias, clamped below at zero. -/
theorem conv_eq (agg : RA S100000x64) (cd : RA S100000) (W : RA S64x64) (b : RA S64) :
    maximumf (addf (Host.dotGeneral dot_S100000x64_S64x64_S100000x64_1_0_0_1_n_n none (mulf agg (alongRows cd)) W)
      (downRows b)) zeros = Spec.conv agg cd W b := by
  funext i
  obtain ⟨p, q, rfl⟩ : ∃ (p : Fin 100000) (q : Fin 64), i = ix2 p q := ⟨i 0, i 1, eq_ix2 i⟩
  rw [maximumf_apply, addf_apply, downRows_at, zeros_at, PlainProduct.dotGeneral_at _ dot_plain none _ W p q]
  simp only [mulf_apply, alongRows_at]
  rfl

/-- A convolution tail whose rows are then multiplied by a node vector repeated along the features. -/
theorem convScaled_eq (agg : RA S100000x64) (cd : RA S100000) (W : RA S64x64) (b : RA S64) (cs : RA S100000) :
    mulf (Spec.conv agg cd W b) (alongRows cs) = Spec.convScaled agg cd W b cs :=
  scale_eq _ cs

/-- The number of edges that carry each node as their listed end, as the reference spells it. -/
abbrev refDegree (idx : Model.I32 S1600000) : RA S100000 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- The reference's degree normaliser is the model's: the same operations on the same index vector. -/
theorem degNorm_eq (idx : Model.I32 S1600000) :
    select (cmpf (F := Ideal) .ogt (refDegree idx)
        (broadcastInDim S100000 ![] bcast_S_S100000 (constant (F := Ideal) S_ .f32 0x00000000#32)))
      (Host.rsqrt (maximumf (refDegree idx)
        (broadcastInDim S100000 ![] bcast_S_S100000 (constant (F := Ideal) S_ .f32 0x3F800000#32))))
      (broadcastInDim S100000 ![] bcast_S_S100000 (id (constant (F := Ideal) S_ .f32 0x00000000#32)))
    = Model.degNorm idx := rfl

/-- The reference's aggregation along the edges is the model's: the same gather at the wrapped source ends and the
    same scatter-add at the destination ends. -/
theorem aggregate_eq (h : RA S100000x64) (src dst : Model.I32 S1600000) :
    Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
    = Model.aggregate h src dst := rfl

/-! ## The stages of the reference

Arguments: `x0` the node features; `x1 x2`, `x5 x6` the positive relation's weights and biases of the two layers,
`x3 x4`, `x7 x8` the negative relation's; `x11 x12` the positive edges' source and destination ends, `x13 x14`
the negative edges'. -/

/-- A float array argument or stage of the reference, as its stages are typed. -/
abbrev FA (S : Shape) : Type := (⟨S, .f32⟩ : BufTy).Contents (Elt Ideal)

/-- An integer array argument of the reference, as its stages are typed. -/
abbrev IA (S : Shape) : Type := (⟨S, .i32⟩ : BufTy).Contents (Elt Ideal)

/-! ### The degree normalisers (computed afresh for each layer) -/

theorem norm_v9 (x11 : IA S1600000) : val_main_v9 (F := Ideal) x11 = Model.degNorm x11 := degNorm_eq x11
theorem norm_v19 (x12 : IA S1600000) : val_main_v19 (F := Ideal) x12 = Model.degNorm x12 := degNorm_eq x12
theorem norm_v50 (x13 : IA S1600000) : val_main_v50 (F := Ideal) x13 = Model.degNorm x13 := degNorm_eq x13
theorem norm_v60 (x14 : IA S1600000) : val_main_v60 (F := Ideal) x14 = Model.degNorm x14 := degNorm_eq x14
theorem norm_v91 (x11 : IA S1600000) : val_main_v91 (F := Ideal) x11 = Model.degNorm x11 := degNorm_eq x11
theorem norm_v101 (x12 : IA S1600000) : val_main_v101 (F := Ideal) x12 = Model.degNorm x12 := degNorm_eq x12
theorem norm_v132 (x13 : IA S1600000) : val_main_v132 (F := Ideal) x13 = Model.degNorm x13 := degNorm_eq x13
theorem norm_v142 (x14 : IA S1600000) : val_main_v142 (F := Ideal) x14 = Model.degNorm x14 := degNorm_eq x14

/-! ### The positive relation -/

/-- The input rows times the source normaliser. -/
theorem pos_scaled0 (x0 : FA S100000x64) (x11 : IA S1600000) :
    val_main_v22 (F := Ideal) x0 x11 = Spec.scaleRows x0 (val_main_v9 (F := Ideal) x11) :=
  scale_eq x0 (val_main_v9 (F := Ideal) x11)

/-- Their aggregation along the positive edges. -/
theorem pos_agg0 (x0 : FA S100000x64) (x11 x12 : IA S1600000) :
    val_main_v32 (F := Ideal) x0 x11 x12 = Model.aggregate (val_main_v22 (F := Ideal) x0 x11) x11 x12 :=
  aggregate_eq (val_main_v22 (F := Ideal) x0 x11) x11 x12

/-- The first layer's convolution tail. -/
theorem pos_conv0 (x0 : FA S100000x64) (x1 : FA S64x64) (x2 : FA S64) (x11 x12 : IA S1600000) :
    val_main_v40 (F := Ideal) x0 x1 x2 x11 x12
      = Spec.conv (val_main_v32 (F := Ideal) x0 x11 x12) (val_main_v19 (F := Ideal) x12) x1 x2 :=
  conv_eq (val_main_v32 (F := Ideal) x0 x11 x12) (val_main_v19 (F := Ideal) x12) x1 x2

/-- The first layer's rows times the source normaliser. -/
theorem pos_scaled1 (x0 : FA S100000x64) (x1 : FA S64x64) (x2 : FA S64) (x11 x12 : IA S1600000) :
    val_main_v104 (F := Ideal) x0 x1 x2 x11 x12
      = Spec.scaleRows (val_main_v40 (F := Ideal) x0 x1 x2 x11 x12) (val_main_v91 (F := Ideal) x11) :=
  scale_eq (val_main_v40 (F := Ideal) x0 x1 x2 x11 x12) (val_main_v91 (F := Ideal) x11)

/-- Their aggregation along the positive edges. -/
theorem pos_agg1 (x0 : FA S100000x64) (x1 : FA S64x64) (x2 : FA S64) (x11 x12 : IA S1600000) :
    val_main_v114 (F := Ideal) x0 x1 x2 x11 x12
      = Model.aggregate (val_main_v104 (F := Ideal) x0 x1 x2 x11 x12) x11 x12 :=
  aggregate_eq (val_main_v104 (F := Ideal) x0 x1 x2 x11 x12) x11 x12

/-- The second layer's convolution tail. -/
theorem pos_conv1 (x0 : FA S100000x64) (x1 : FA S64x64) (x2 : FA S64) (x5 : FA S64x64) (x6 : FA S64)
    (x11 x12 : IA S1600000) :
    val_main_v122 (F := Ideal) x0 x1 x2 x5 x6 x11 x12
      = Spec.conv (val_main_v114 (F := Ideal) x0 x1 x2 x11 x12) (val_main_v101 (F := Ideal) x12) x5 x6 :=
  conv_eq (val_main_v114 (F := Ideal) x0 x1 x2 x11 x12) (val_main_v101 (F := Ideal) x12) x5 x6

/-! ### The negative relation -/

/-- The input rows times the source normaliser. -/
theorem neg_scaled0 (x0 : FA S100000x64) (x13 : IA S1600000) :
    val_main_v63 (F := Ideal) x0 x13 = Spec.scaleRows x0 (val_main_v50 (F := Ideal) x13) :=
  scale_eq x0 (val_main_v50 (F := Ideal) x13)

/-- Their aggregation along the negative edges. -/
theorem neg_agg0 (x0 : FA S100000x64) (x13 x14 : IA S1600000) :
    val_main_v73 (F := Ideal) x0 x13 x14 = Model.aggregate (val_main_v63 (F := Ideal) x0 x13) x13 x14 :=
  aggregate_eq (val_main_v63 (F := Ideal) x0 x13) x13 x14

/-- The first layer's convolution tail. -/
theorem neg_conv0 (x0 : FA S100000x64) (x3 : FA S64x64) (x4 : FA S64) (x13 x14 : IA S1600000) :
    val_main_v81 (F := Ideal) x0 x3 x4 x13 x14
      = Spec.conv (val_main_v73 (F := Ideal) x0 x13 x14) (val_main_v60 (F := Ideal) x14) x3 x4 :=
  conv_eq (val_main_v73 (F := Ideal) x0 x13 x14) (val_main_v60 (F := Ideal) x14) x3 x4

/-- The first layer's rows times the source normaliser. -/
theorem neg_scaled1 (x0 : FA S100000x64) (x3 : FA S64x64) (x4 : FA S64) (x13 x14 : IA S1600000) :
    val_main_v145 (F := Ideal) x0 x3 x4 x13 x14
      = Spec.scaleRows (val_main_v81 (F := Ideal) x0 x3 x4 x13 x14) (val_main_v132 (F := Ideal) x13) :=
  scale_eq (val_main_v81 (F := Ideal) x0 x3 x4 x13 x14) (val_main_v132 (F := Ideal) x13)

/-- Their aggregation along the negative edges. -/
theorem neg_agg1 (x0 : FA S100000x64) (x3 : FA S64x64) (x4 : FA S64) (x13 x14 : IA S1600000) :
    val_main_v155 (F := Ideal) x0 x3 x4 x13 x14
      = Model.aggregate (val_main_v145 (F := Ideal) x0 x3 x4 x13 x14) x13 x14 :=
  aggregate_eq (val_main_v145 (F := Ideal) x0 x3 x4 x13 x14) x13 x14

/-- The second layer's convolution tail. -/
theorem neg_conv1 (x0 : FA S100000x64) (x3 : FA S64x64) (x4 : FA S64) (x7 : FA S64x64) (x8 : FA S64)
    (x13 x14 : IA S1600000) :
    val_main_v163 (F := Ideal) x0 x3 x4 x7 x8 x13 x14
      = Spec.conv (val_main_v155 (F := Ideal) x0 x3 x4 x13 x14) (val_main_v142 (F := Ideal) x14) x7 x8 :=
  conv_eq (val_main_v155 (F := Ideal) x0 x3 x4 x13 x14) (val_main_v142 (F := Ideal) x14) x7 x8

/-! ## The chain -/

/-- One relation's stream after the first layer, scaled for the second: the model's first layer. -/
theorem pos_layer1 (x0 : FA S100000x64) (x1 : FA S64x64) (x2 : FA S64) (x11 x12 : IA S1600000) :
    val_main_v104 (F := Ideal) x0 x1 x2 x11 x12 = Model.layer1 x0 x1 x2 x11 x12 := by
  rw [pos_scaled1, pos_conv0, pos_agg0, pos_scaled0, norm_v9, norm_v19, norm_v91]
  rfl

theorem neg_layer1 (x0 : FA S100000x64) (x3 : FA S64x64) (x4 : FA S64) (x13 x14 : IA S1600000) :
    val_main_v145 (F := Ideal) x0 x3 x4 x13 x14 = Model.layer1 x0 x3 x4 x13 x14 := by
  rw [neg_scaled1, neg_conv0, neg_agg0, neg_scaled0, norm_v50, norm_v60, norm_v132]
  rfl

/-- The reference's node embedding is the model's. -/
theorem z_eq (x0 : (⟨S100000x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x11 x12 x13 x14 : (⟨S1600000, .i32⟩ : BufTy).Contents (Elt Ideal)) :
    Cert.ReferenceIdeal.ReadP.val_main_v164 (F := Ideal) x0 x1 x2 x3 x4 x5 x6 x7 x8 x11 x12 x13 x14
      = Cert.Model.zModel x0 x1 x2 x3 x4 x5 x6 x7 x8 x11 x12 x13 x14 := by
  unfold val_main_v164
  rw [pos_conv1, pos_agg1, pos_layer1, norm_v101, neg_conv1, neg_agg1, neg_layer1, norm_v142]
  rfl

end Cert.RefEmbed

end
-- ==== Proof.RefPair.lean ====
/-
  The reference's pair classifier is the model's.

  The reference gathers the embedding's rows at the two ends of every query edge, joins each pair of rows side by
  side into one row of 128 coordinates, multiplies by the whole 128 × 2 weight matrix, adds the bias along the rows and
  applies the logistic function spelled as 1 / (1 + exp (−s)).  A sum over the 128 joined coordinates is the sum over
  the first 64 — the source row against rows 0 … 63 of the weights — plus the sum over the last 64 — the destination
  row against rows 64 … 127 —, which is how the model, with its two weight halves, writes the same number.  The gathers
  are the same host operations on both sides.
-/
import proofs.«111492_j66975720014344_2_alg».proof.Proof.RefRead
import proofs.«111492_j66975720014344_2_alg».proof.Proof.Model
import proofs.«111492_j66975720014344_2_alg».proof.Proof.LibPlainProduct
import Idealize.ShloMosaic.Lib.Pipeline.Value
import Idealize.ShloMosaic.Lib.ValueLayout

noncomputable section

namespace Cert.RefPair

open Cert.ReferenceIdeal Cert.ReferenceIdeal.Facts₀ Cert.ReferenceIdeal.Facts Cert.ReferenceIdeal.ReadP
open Idealize.ShloMosaic Idealize.ShloMosaic.ValueIdx

/-- The joined rows against the whole weight matrix: the sum over the 128 joined coordinates is the sum over the first
    64 (the source row against the top half of the weights) plus the sum over the last 64 (the destination row against
    the bottom half). -/
theorem joined_dot_at (zs zd : FVec Ideal S1000000x64 .f32) (Wc : FVec Ideal S128x2 .f32)
    (p : Fin 1000000) (q : Fin 2) :
    Host.dotGeneral (F := Ideal) (φ₁ := .f32) (φ₂ := .f32) dot_S1000000x128_S128x2_S1000000x2_1_0_0_1_n_n none
        (concatenate S1000000x128 1 [⟨S1000000x64, zs⟩, ⟨S1000000x64, zd⟩] concatenates_S1000000x64_S1000000x64_S1000000x128_d1)
        Wc (ix2 p q)
      = (∑ k : Fin 64, zs (ix2 p k) * Cert.Model.topHalf Wc (ix2 k q))
        + (∑ k : Fin 64, zd (ix2 p k) * Cert.Model.bottomHalf Wc (ix2 k q)) := by
  rw [PlainProduct.dotGeneral_at dot_S1000000x128_S128x2_S1000000x2_1_0_0_1_n_n rfl]
  show ∑ c : Fin (64 + 64), _ = _
  rw [Fin.sum_univ_add]
  congr 1
  · refine Finset.sum_congr rfl fun k _ => ?_
    congr 1
    · refine concatenate_pair_apply_left (t := S1000000x128) (s₁ := S1000000x64) (s₂ := S1000000x64) 1 zs zd _ _ rfl (ix2 p k) fun b => ?_
      match b with
      | ⟨0, _⟩ => rfl
      | ⟨1, _⟩ => rfl
    · refine (extractStridedSlice_apply _ Wc _ (ix2 k q) _ fun a => ?_).symm
      match a with
      | ⟨0, _⟩ => show k.val = 0 + k.val; omega
      | ⟨1, _⟩ => show q.val = 0 + q.val; omega
  · refine Finset.sum_congr rfl fun k _ => ?_
    congr 1
    · refine concatenate_pair_apply_right (t := S1000000x128) (s₁ := S1000000x64) (s₂ := S1000000x64) 1 zs zd _ _ rfl rfl (ix2 p k) (fun b hb => ?_) ?_
      · match b with
        | ⟨0, _⟩ => rfl
        | ⟨1, _⟩ => exact absurd rfl hb
      · show k.val + 64 = 64 + k.val
        omega
    · refine (extractStridedSlice_apply _ Wc _ (ix2 k q) _ fun a => ?_).symm
      match a with
      | ⟨0, _⟩ => show 64 + k.val = 64 + k.val; rfl
      | ⟨1, _⟩ => show q.val = 0 + q.val; omega

/-- The reference's wrapped source ends of the query edges are the model's: the same host operations. -/
theorem src_rows (z : FVec Ideal S100000x64 .f32) (x15 : (⟨S2x1000000, .i32⟩ : BufTy).Contents (Elt Ideal)) :
    Host.gather gather_S100000x64_S1000000x1_S1000000x64_1_0_n_n_0_1_164 z (val_main_v174 (F := Ideal) x15)
      = Cert.Model.rowsAt z (Cert.Model.ends0 x15) := rfl

/-- The reference's wrapped destination ends of the query edges are the model's: the same host operations. -/
theorem dst_rows (z : FVec Ideal S100000x64 .f32) (x15 : (⟨S2x1000000, .i32⟩ : BufTy).Contents (Elt Ideal)) :
    Host.gather gather_S100000x64_S1000000x1_S1000000x64_1_0_n_n_0_1_164 z (val_main_v181 (F := Ideal) x15)
      = Cert.Model.rowsAt z (Cert.Model.ends1 x15) := rfl

/-- The bias laid along the rows reads, at (p, q), the bias at q. -/
theorem bias_at (x10 : (⟨S2, .f32⟩ : BufTy).Contents (Elt Ideal)) (p : Fin 1000000) (q : Fin 2) :
    val_main_v186 (F := Ideal) x10 (ix2 p q) = x10 (ix1 q) := by
  rw [val_main_v186_apply, val_main_v185_apply]
  refine congrArg x10 (funext fun a => ?_)
  match a with
  | ⟨0, _⟩ => rfl

/-- The reference's probabilities on the query edges are the model's classifier of the reference's embedding. -/
theorem p_eq (x0 : (⟨S100000x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x2, .f32⟩ : BufTy).Contents (Elt Ideal)) (x10 : (⟨S2, .f32⟩ : BufTy).Contents (Elt Ideal)) (x11 x12 x13 x14 : (⟨S1600000, .i32⟩ : BufTy).Contents (Elt Ideal)) (x15 : (⟨S2x1000000, .i32⟩ : BufTy).Contents (Elt Ideal)) :
    val_main_v193 (F := Ideal) x0 x1 x2 x3 x4 x5 x6 x7 x8 x9 x10 x11 x12 x13 x14 x15
      = Cert.Model.pModel (val_main_v164 (F := Ideal) x0 x1 x2 x3 x4 x5 x6 x7 x8 x11 x12 x13 x14) x9 x10 x15 := by
  funext i
  obtain ⟨p, q, rfl⟩ : ∃ (p : Fin 1000000) (q : Fin 2), i = ix2 p q := ⟨i 0, i 1, eq_ix2 i⟩
  have hlog : val_main_v193 (F := Ideal) x0 x1 x2 x3 x4 x5 x6 x7 x8 x9 x10 x11 x12 x13 x14 x15 (ix2 p q)
      = Ideal.logistic (val_main_v187 (F := Ideal) x0 x1 x2 x3 x4 x5 x6 x7 x8 x9 x10 x11 x12 x13 x14 x15 (ix2 p q)) := by
    unfold val_main_v193 val_main_v192 val_main_v191 val_main_v190 val_main_v189 val_main_v188 val_main_cst_54 val_main_cst_55
    exact PlainProduct.logistic_spelled_at bcast_S_S1000000x2 _ (ix2 p q)
  have hdot : val_main_v184 (F := Ideal) x0 x1 x2 x3 x4 x5 x6 x7 x8 x9 x11 x12 x13 x14 x15 (ix2 p q)
      = (∑ k : Fin 64, Cert.Model.rowsAt (val_main_v164 (F := Ideal) x0 x1 x2 x3 x4 x5 x6 x7 x8 x11 x12 x13 x14) (Cert.Model.ends0 x15) (ix2 p k) * Cert.Model.topHalf x9 (ix2 k q))
        + (∑ k : Fin 64, Cert.Model.rowsAt (val_main_v164 (F := Ideal) x0 x1 x2 x3 x4 x5 x6 x7 x8 x11 x12 x13 x14) (Cert.Model.ends1 x15) (ix2 p k) * Cert.Model.bottomHalf x9 (ix2 k q)) := by
    unfold val_main_v184 val_main_v183 val_main_v175 val_main_v182
    rw [src_rows, dst_rows]
    exact joined_dot_at _ _ x9 p q
  rw [hlog, val_main_v187_apply, hdot, bias_at]
  rfl

end Cert.RefPair

end
-- ==== Proof.lean ====
/-
  The kernels' program — seven tiled kernels (two row scalings, three convolution tails, the tail that also
  subtracts, the pair classifier) among host gathers and scatter-adds — against the host reference of a two-layer
  signed graph convolution with a pair classifier, over the extended reals.

  Both programs compute ONE function of the arguments, `Cert.Model.zModel` for the node embedding and
  `Cert.Model.pModel` of it for the probabilities.  On the kernels' side each region's output array is the
  whole-array function its blocks make up (a row of the aggregated features scaled by its node's normaliser, times
  the weights, plus the bias, clamped at zero, …), and the host stretches between the regions are the model's own
  gathers and scatter-adds.  On the reference's side every stage read at an index is the same expression with the
  operands in the same order; the classifier's one product over the 128 joined coordinates splits into the two
  products over 64 that the kernel adds.  No step needs the inputs to be finite: only associativity and
  commutativity of addition on the extended reals are used.

  Each program terminates without a fault and leaves its arguments as launched: for the two kernel programs that is the
  run over the twenty-one segments, for the reference its run with the two results dropped.  The idealized kernel
  program is the printed one read over the extended reals, no operation rewritten.
-/
import proofs.«111492_j66975720014344_2_alg».proof.Defs
import proofs.«111492_j66975720014344_2_alg».proof.Proof.Gen.Kernel
import proofs.«111492_j66975720014344_2_alg».proof.Proof.Gen.Kernel.Skeleton
import proofs.«111492_j66975720014344_2_alg».proof.Proof.Gen.Kernel.Launch
import proofs.«111492_j66975720014344_2_alg».proof.Proof.Gen.Kernel.Points
import proofs.«111492_j66975720014344_2_alg».proof.Proof.Gen.Kernel.Frame
import proofs.«111492_j66975720014344_2_alg».proof.Proof.Gen.KernelIdeal
import proofs.«111492_j66975720014344_2_alg».proof.Proof.Gen.KernelIdeal.Skeleton
import proofs.«111492_j66975720014344_2_alg».proof.Proof.Gen.KernelIdeal.Launch
import proofs.«111492_j66975720014344_2_alg».proof.Proof.Gen.KernelIdeal.Points
import proofs.«111492_j66975720014344_2_alg».proof.Proof.Gen.KernelIdeal.Frame
import proofs.«111492_j66975720014344_2_alg».proof.Proof.Gen.ReferenceIdeal
import proofs.«111492_j66975720014344_2_alg».proof.Proof.Gen.Pre_finite_inputs
import proofs.«111492_j66975720014344_2_alg».proof.Proof.RefRun
import proofs.«111492_j66975720014344_2_alg».proof.Proof.RefRead
import proofs.«111492_j66975720014344_2_alg».proof.Proof.KernelRun
import proofs.«111492_j66975720014344_2_alg».proof.Proof.KernelChain
import proofs.«111492_j66975720014344_2_alg».proof.Proof.RefEmbed
import proofs.«111492_j66975720014344_2_alg».proof.Proof.RefPair
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- Both programs end with the model's embedding and the model's probabilities of the arguments. -/
theorem algebraic : Cert.algebraic_KernelIdeal_ReferenceIdeal := by
  intro m ρ m' ρ' _ hagree
  refine ⟨fun c => (Cert.Model.zModel (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))), fun c => (Cert.Model.pModel (Cert.Model.zModel (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg15))), ?_, ?_⟩
  · exact (θ_run Cert.KernelIdeal.defs _ _).mono
      (fun r h c => ⟨(h c).1.trans (Cert.KernelIdeal.Chain.result_embedding m ρ c),
        (h c).2.1.trans (Cert.KernelIdeal.Chain.result_probabilities m ρ c), (h c).2.2⟩)
      (Cert.KernelIdeal.Named.run (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨e0, e1, e2, e3, e4, e5, e6, e7, e8, e9, e10, e11, e12, e13, e14, e15⟩ := hagree c
      rw [Cert.ReferenceIdeal.ReadP.val_main_v164_eq, Cert.RefEmbed.z_eq, e0, e1, e2, e3, e4, e5, e6, e7, e8, e11, e12, e13, e14]
    · obtain ⟨e0, e1, e2, e3, e4, e5, e6, e7, e8, e9, e10, e11, e12, e13, e14, e15⟩ := hagree c
      rw [Cert.ReferenceIdeal.ReadP.val_main_v193_eq, Cert.RefPair.p_eq, Cert.RefEmbed.z_eq, e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
